-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1x3x1024x1024 : Shape := ⟨5, ![16, 1, 3, 1024, 1024]⟩
abbrev S_ : Shape := ⟨0, ![]⟩

class Facts : Prop where
  bcast_S_S16x1x3x1024x1024 : S_.BroadcastsInDim S16x1x3x1024x1024 (![] : Fin 0 → Fin S16x1x3x1024x1024.rank)
  reducesTo_S16x1x3x1024x1024_S_d0_1_2_3_4 : S16x1x3x1024x1024.ReducesTo [0, 1, 2, 3, 4] S_
  h_S_ : 0 < S_.numel

variable [Facts]

def fn {F : FTy → Type} [FloatOps F] (main_arg0 : FVec F S16x1x3x1024x1024 .f32) : IVec S_ 1 :=
  let main_v0 : FVec F S16x1x3x1024x1024 .f32 := Host.absf main_arg0
  let main_cst : FVec F S_ .f32 := constant S_ .f32 0x7F800000#32
  let main_v1 : FVec F S16x1x3x1024x1024 .f32 := broadcastInDim S16x1x3x1024x1024 ![] bcast_S_S16x1x3x1024x1024 main_cst
  let main_v2 : IVec S16x1x3x1024x1024 1 := cmpf .olt main_v0 main_v1
  let main_c : IVec S_ 1 := constantI S_ 1 1#1
  let main_v3 : IVec S_ 1 := (fun x v => Host.reduce IntOp.andi x v reducesTo_S16x1x3x1024x1024_S_d0_1_2_3_4 h_S_) main_v2 main_c
  main_v3
-- ==== Kernel.lean ====
abbrev S16x1x3x1024x1024 : Shape := ⟨5, ![16, 1, 3, 1024, 1024]⟩
abbrev S16x1x1024x1024 : Shape := ⟨4, ![16, 1, 1024, 1024]⟩
abbrev S4x1x1x1024x512 : Shape := ⟨5, ![4, 1, 1, 1024, 512]⟩
abbrev S1x1x1x1024x512 : Shape := ⟨5, ![1, 1, 1, 1024, 512]⟩
abbrev S4x1x1024x512 : Shape := ⟨4, ![4, 1, 1024, 512]⟩
abbrev S16x1024x512 : Shape := ⟨3, ![16, 1024, 512]⟩
abbrev S1x512 : Shape := ⟨2, ![1, 512]⟩
abbrev S4x1024x512 : Shape := ⟨3, ![4, 1024, 512]⟩
abbrev S1024x512 : Shape := ⟨2, ![1024, 512]⟩
abbrev S1x1024x512 : Shape := ⟨3, ![1, 1024, 512]⟩
abbrev S3x1024x512 : Shape := ⟨3, ![3, 1024, 512]⟩
abbrev S3072x512 : Shape := ⟨2, ![3072, 512]⟩
abbrev S512 : Shape := ⟨1, ![512]⟩
abbrev S4096x512 : Shape := ⟨2, ![4096, 512]⟩
abbrev S1x1x512 : Shape := ⟨3, ![1, 1, 512]⟩

abbrev nBuf : Space → Nat
  | .hbm => 2
  | .vmem => 9
  | .smem => 0
  | _ => 0

abbrev bufTy : (tb : Table) → Fin (tcTables nBuf tb) → BufTy
  | .hbm, ⟨0, _⟩ => ⟨S16x1x3x1024x1024, .f32⟩
  | .hbm, ⟨1, _⟩ => ⟨S16x1x1024x1024, .f32⟩
  | .local _ .vmem, ⟨0, _⟩ => ⟨S4x1x1x1024x512, .f32⟩
  | .local _ .vmem, ⟨1, _⟩ => ⟨S4x1x1x1024x512, .f32⟩
  | .local _ .vmem, ⟨2, _⟩ => ⟨S1x1x1x1024x512, .f32⟩
  | .local _ .vmem, ⟨3, _⟩ => ⟨S1x1x1x1024x512, .f32⟩
  | .local _ .vmem, ⟨4, _⟩ => ⟨S4x1x1024x512, .f32⟩
  | .local _ .vmem, ⟨5, _⟩ => ⟨S4x1x1024x512, .f32⟩
  | .local _ .vmem, ⟨6, _⟩ => ⟨S16x1024x512, .bf16⟩
  | .local _ .vmem, ⟨7, _⟩ => ⟨S1x512, .f32⟩
  | .local _ .vmem, ⟨8, _⟩ => ⟨S1x512, .f32⟩
  | _, _ => ⟨S16x1x3x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let c4_i32 : BitVec 32 := 4#32
  let v4 : BitVec 1 := Scalar.cmpi .slt arg2 c4_i32
  let v5 : BitVec 1 := Scalar.andi v3 v4
  let v6 : BitVec 32 := Scalar.extui v5
  let c0_i32_2 : BitVec 32 := 0#32
  let v7 : BitVec 1 := Scalar.cmpi .ne v6 c0_i32_2
  v7

def k0_off1 (i : grid0.Coords) : Fin 3 → Nat :=
  let arg2 : BitVec 32 := BitVec.ofNat 32 (i 2).val
  let c4_i32_9 : BitVec 32 := 4#32
  let v16 : BitVec 32 := Scalar.muli arg2 c4_i32_9
  let v17 : Index := Scalar.indexCast v16
  let c0_10 : Index := 0#32
  let c0_11 : Index := 0#32
  ![v17.toNat, 0, 0]
def k0_cond3 (i : grid0.Coords) : BitVec 1 :=
  let arg2 : BitVec 32 := BitVec.ofNat 32 (i 2).val
  let c4_i32_3 : BitVec 32 := 4#32
  let v8 : BitVec 1 := Scalar.cmpi .sge arg2 c4_i32_3
  let v9 : BitVec 32 := Scalar.extui v8
  let c0_i32_4 : BitVec 32 := 0#32
  let v10 : BitVec 1 := Scalar.cmpi .ne v9 c0_i32_4
  v10

def k0_off2 (i : grid0.Coords) : Fin 3 → Nat :=
  let arg2 : BitVec 32 := BitVec.ofNat 32 (i 2).val
  let c4_i32_5 : BitVec 32 := 4#32
  let v11 : BitVec 32 := Scalar.subi arg2 c4_i32_5
  let c4_i32_6 : BitVec 32 := 4#32
  let v12 : BitVec 32 := Scalar.muli v11 c4_i32_6
  let v13 : Index := Scalar.indexCast v12
  let c0 : Index := 0#32
  let c0_7 : Index := 0#32
  ![v13.toNat, 0, 0]
def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.minsi arg2 c3_i32
  let c1_i32 : BitVec 32 := 1#32
  let v1 : BitVec 32 := Scalar.muli arg0 c1_i32
  let v2 : BitVec 32 := Scalar.addi v1 arg1
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat, v2.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c2_i32 : BitVec 32 := 2#32
  let c0_i32_1 : BitVec 32 := 0#32
  let c0_i32_2 : BitVec 32 := 0#32
  ![c0_i32.toNat, c0_i32_0.toNat, c2_i32.toNat, c0_i32_1.toNat, v1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let v1 : BitVec 32 := Scalar.maxsi v0 c0_i32
  let c1_i32 : BitVec 32 := 1#32
  let v2 : BitVec 32 := Scalar.muli arg0 c1_i32
  let v3 : BitVec 32 := Scalar.addi v2 arg1
  let c0_i32_0 : BitVec 32 := 0#32
  let c0_i32_1 : BitVec 32 := 0#32
  let c0_i32_2 : BitVec 32 := 0#32
  ![v1.toNat, c0_i32_0.toNat, c0_i32_1.toNat, v3.toNat]

abbrev stage0_0 : Fin 2 → Memref sig .tc .vmem S4x1x1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  inb_S4x1x1x1024x512_S4x1x1x1024x512_0_0_0_0_0 : ∀ a, (![0, 0, 0, 0, 0] : Fin 5 → Nat) a + S4x1x1x1024x512.size a ≤ S4x1x1x1024x512.size a
  h_S4x1x1x1024x512 : 0 < S4x1x1x1024x512.numel
  shapeCasts_S4x1x1x1024x512_S4x1024x512 : S4x1x1x1024x512.ShapeCasts S4x1024x512
  inb_S1x1x1x1024x512_S1x1x1x1024x512_0_0_0_0_0 : ∀ a, (![0, 0, 0, 0, 0] : Fin 5 → Nat) a + S1x1x1x1024x512.size a ≤ S1x1x1x1024x512.size a
  h_S1x1x1x1024x512 : 0 < S1x1x1x1024x512.numel
  shapeCasts_S1x1x1x1024x512_S1024x512 : S1x1x1x1024x512.ShapeCasts S1024x512
  slices_S4x1024x512_o0_0_0_S1x1024x512 : S4x1024x512.Slices ![0, 0, 0] S1x1024x512
  shapeCasts_S1x1024x512_S1024x512 : S1x1024x512.ShapeCasts S1024x512
  slices_S4x1024x512_o1_0_0_S3x1024x512 : S4x1024x512.Slices ![1, 0, 0] S3x1024x512
  shapeCasts_S3x1024x512_S3072x512 : S3x1024x512.ShapeCasts S3072x512
  bitsLt_bf16_f32 : FTy.bits .bf16 < FTy.bits .f32
  inb_S16x1024x512_S1x1024x512_0_0_0 : ∀ a, (![0, 0, 0] : Fin 3 → Nat) a + S1x1024x512.size a ≤ S16x1024x512.size a
  h_S1x1024x512 : 0 < S1x1024x512.numel
  shapeCasts_S1024x512_S1x1024x512 : S1024x512.ShapeCasts S1x1024x512
  packedbf16_S16x1024x512_S1x1024x512_0_0_0 : (Rect.unit (s := S16x1024x512) ![0, 0, 0] S1x1024x512.size inb_S16x1024x512_S1x1024x512_0_0_0).PackedRows (EltTy.packing .bf16)
  shapeCasts_S3072x512_S3x1024x512 : S3072x512.ShapeCasts S3x1024x512
  inb_S16x1024x512_S3x1024x512_1_0_0 : ∀ a, (![1, 0, 0] : Fin 3 → Nat) a + S3x1024x512.size a ≤ S16x1024x512.size a
  h_S3x1024x512 : 0 < S3x1024x512.numel
  shapeCasts_S3x1024x512_S3x1024x512 : S3x1024x512.ShapeCasts S3x1024x512
  packedbf16_S16x1024x512_S3x1024x512_1_0_0 : (Rect.unit (s := S16x1024x512) ![1, 0, 0] S3x1024x512.size inb_S16x1024x512_S3x1024x512_1_0_0).PackedRows (EltTy.packing .bf16)
  reduces_S1024x512_S512 : S1024x512.Reduces [0] S512
  shapeCasts_S512_S1x512 : S512.ShapeCasts S1x512
  reduces_S3072x512_S512 : S3072x512.Reduces [0] S512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S4x1024x512_S4096x512 : S4x1024x512.ShapeCasts S4096x512
  shapeCasts_S4096x512_S4x1024x512 : S4096x512.ShapeCasts S4x1024x512
  h_S4x1024x512 : 0 < S4x1024x512.numel
  shapeCasts_S4x1024x512_S4x1024x512 : S4x1024x512.ShapeCasts S4x1024x512
  reduces_S4096x512_S512 : S4096x512.Reduces [0] S512
  shapeCasts_S1x512_S1x1x512 : S1x512.ShapeCasts S1x1x512
  broadcasts_S1x1x512_S4x1024x512 : S1x1x512.Broadcasts S4x1024x512
  inb_S4x1x1024x512_S4x1x1024x512_0_0_0_0 : ∀ a, (![0, 0, 0, 0] : Fin 4 → Nat) a + S4x1x1024x512.size a ≤ S4x1x1024x512.size a
  h_S4x1x1024x512 : 0 < S4x1x1024x512.numel
  shapeCasts_S4x1x1024x512_S4x1024x512 : S4x1x1024x512.ShapeCasts S4x1024x512
  shapeCasts_S4x1024x512_S4x1x1024x512 : S4x1024x512.ShapeCasts S4x1x1024x512
  hrank0 : 0 < grid0.rank
  k0_off1_inb : ∀ i : grid0.Coords, ∀ (k0_h2 : k0_cond2 i = 1#1), ∀ a, (k0_off1 i) a + S4x1024x512.size a ≤ S16x1024x512.size a
  k0_off1_packedbf16 : ∀ i : grid0.Coords, ∀ (k0_h2 : k0_cond2 i = 1#1), (Rect.unit (s := S16x1024x512) (k0_off1 i) S4x1024x512.size (k0_off1_inb i k0_h2)).PackedRows (EltTy.packing .bf16)
  k0_off2_inb : ∀ i : grid0.Coords, ∀ (k0_h3 : k0_cond3 i = 1#1), ∀ a, (k0_off2 i) a + S4x1024x512.size a ≤ S16x1024x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1x1x1024x512.size a ≤ S16x1x3x1024x1024.size a
  hwx0_0 : ∀ i : grid0.Coords, EltTy.bits .f32 = 32 ∨ (Rect.block (s := S16x1x3x1024x1024) S4x1x1x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1x1024x512.size a ≤ S16x1x3x1024x1024.size a
  hwx0_1 : ∀ i : grid0.Coords, EltTy.bits .f32 = 32 ∨ (Rect.block (s := S16x1x3x1024x1024) S1x1x1x1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x1x1024x512.size a ≤ S16x1x1024x1024.size a
  hwx0_2 : ∀ i : grid0.Coords, EltTy.bits .f32 = 32 ∨ (Rect.block (s := S16x1x1024x1024) S4x1x1024x512.size (cc0_transform_2 i) (hinb0_2 i)).WholeWords (EltTy.packing .f32)

variable [Facts₀]

abbrev win0_0 : Pipeline.Window sig grid0 :=
  Pipeline.Window.ofSpec (Memref.whole main_arg0) S4x1x1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1x1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x1x1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond3 i == 1#1) | ⟨_ + 3, h⟩ => absurd h (Nat.not_lt.2 (Nat.le_add_left _ _))

class Facts : Prop extends Facts₀ where

variable [Facts]
-- ==== ReferenceIdeal.lean ====
abbrev S16x1x3x1024x1024 : Shape := ⟨5, ![16, 1, 3, 1024, 1024]⟩
abbrev S16x1x1x1024x1024 : Shape := ⟨5, ![16, 1, 1, 1024, 1024]⟩
abbrev S16x1x1024x1024 : Shape := ⟨4, ![16, 1, 1024, 1024]⟩
abbrev S16384x1024 : Shape := ⟨2, ![16384, 1024]⟩
abbrev S16384 : Shape := ⟨1, ![16384]⟩
abbrev S16384x1 : Shape := ⟨2, ![16384, 1]⟩
abbrev S_ : Shape := ⟨0, ![]⟩
abbrev S1024 : Shape := ⟨1, ![1024]⟩
abbrev S1x1024 : Shape := ⟨2, ![1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S16x1x3x1024x1024, .f32⟩
  | .hbm, ⟨1, _⟩ => ⟨S16x1x1x1024x1024, .f32⟩
  | .hbm, ⟨2, _⟩ => ⟨S16x1x1024x1024, .f32⟩
  | .hbm, ⟨3, _⟩ => ⟨S16384x1024, .f32⟩
  | .hbm, ⟨4, _⟩ => ⟨S16x1x1x1024x1024, .f32⟩
  | .hbm, ⟨5, _⟩ => ⟨S16x1x1024x1024, .f32⟩
  | .hbm, ⟨6, _⟩ => ⟨S16384x1024, .f32⟩
  | .hbm, ⟨7, _⟩ => ⟨S16384x1024, .f32⟩
  | .hbm, ⟨8, _⟩ => ⟨S16384, .i32⟩
  | .hbm, ⟨9, _⟩ => ⟨S16384x1, .i32⟩
  | .hbm, ⟨10, _⟩ => ⟨S_, .i32⟩
  | .hbm, ⟨11, _⟩ => ⟨S16384x1, .i32⟩
  | .hbm, ⟨12, _⟩ => ⟨S16384x1, .i1⟩
  | .hbm, ⟨13, _⟩ => ⟨S16384x1024, .i1⟩
  | .hbm, ⟨14, _⟩ => ⟨S16384x1024, .f32⟩
  | .hbm, ⟨15, _⟩ => ⟨S_, .f32⟩
  | .hbm, ⟨16, _⟩ => ⟨S1024, .f32⟩
  | .hbm, ⟨17, _⟩ => ⟨S_, .f32⟩
  | .hbm, ⟨18, _⟩ => ⟨S1024, .f32⟩
  | .hbm, ⟨19, _⟩ => ⟨S1024, .f32⟩
  | .hbm, ⟨20, _⟩ => ⟨S_, .f32⟩
  | .hbm, ⟨21, _⟩ => ⟨S1024, .f32⟩
  | .hbm, ⟨22, _⟩ => ⟨S1024, .i1⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S1x1024, .f32⟩
  | .hbm, ⟨30, _⟩ => ⟨S16384x1024, .f32⟩
  | .hbm, ⟨31, _⟩ => ⟨S16384x1024, .f32⟩
  | .hbm, ⟨32, _⟩ => ⟨S16x1x1024x1024, .f32⟩
  | _, _ => ⟨S16x1x3x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_c : Ref sig .tc := ⟨.hbm, 10, rfl⟩
abbrev main_v9 : Ref sig .tc := ⟨.hbm, 11, rfl⟩
abbrev main_v10 : Ref sig .tc := ⟨.hbm, 12, rfl⟩
abbrev main_call0_v0 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]

class Facts₀ : Prop where
  slices_S16x1x3x1024x1024_S16x1x1x1024x1024_0_0_0_0_0 : S16x1x3x1024x1024.Slices ![0, 0, 0, 0, 0] S16x1x1x1024x1024
  shapeCasts_S16x1x1x1024x1024_S16x1x1024x1024 : S16x1x1x1024x1024.ShapeCasts S16x1x1024x1024
  shapeCasts_S16x1x1024x1024_S16384x1024 : S16x1x1024x1024.ShapeCasts S16384x1024
  slices_S16x1x3x1024x1024_S16x1x1x1024x1024_0_0_2_0_0 : S16x1x3x1024x1024.Slices ![0, 0, 2, 0, 0] S16x1x1x1024x1024
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x1024_0_1 : S16384x1.BroadcastsInDim S16384x1024 (![0, 1] : Fin 2 → Fin S16384x1024.rank)
  reducesTo_S16384x1024_S1024_d0 : S16384x1024.ReducesTo [0] S1024
  h_S_ : 0 < S_.numel
  bcast_S_S1024 : S_.BroadcastsInDim S1024 (![] : Fin 0 → Fin S1024.rank)
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  shapeCasts_S16384x1024_S16x1x1024x1024 : S16384x1024.ShapeCasts S16x1x1024x1024

variable [Facts₀]

class Facts : Prop extends Facts₀ where

variable [Facts]
-- ==== Proof.K.Shared.lean ====
/-
  What the three runs of the kernel body and the frame share: the contents the region finds (`V`: the launch
  contents, @main being the region alone), each window's block at a grid point read off its array (`iblk`), the
  three branch conditions in closed form over the 16 grid points (point n = 8·i + t: column half i, step t), where
  the output window is idle, the staging and scratch memrefs, and the scoped buffers that are no staging buffer
  (the stash and the running minimum and maximum) as owned memrefs.
-/
import proofs.«162028_g63909113364757_feedfinal_307_9_alg».proof.Proof.Gen.Kernel.Launch
import proofs.«162028_g63909113364757_feedfinal_307_9_alg».proof.Proof.Gen.Kernel.Skeleton
import proofs.«162028_g63909113364757_feedfinal_307_9_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered: as launched. -/
abbrev V (c : Dev nD) (b : Ref sig .tc) : Buf (Elt F) ((c : Thread nD τ).loc b) := m ((c : Thread nD τ).loc b)

/-- @main up to the region is the region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The branch conditions over the grid -/

/-- The first branch (step 0 of a column half). -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The second branch (steps 1, 2, 3: the other load steps). -/
abbrev cond0_1 (i : grid0.Coords) : Prop := k0_cond2 i = 1#1
theorem hcond0_1 : ∀ t : Fin cfg0.N, cond0_1 (grid0.coords t) ↔ (1 ≤ t.val % 8 ∧ t.val % 8 ≤ 3) :=
  (by decide +kernel : ∀ t : Fin grid0.N, cond0_1 (grid0.coords t) ↔ (1 ≤ t.val % 8 ∧ t.val % 8 ≤ 3))

/-- The third branch (steps 4 to 7: the store steps). -/
abbrev cond0_2 (i : grid0.Coords) : Prop := k0_cond3 i = 1#1
theorem hcond0_2 : ∀ t : Fin cfg0.N, cond0_2 (grid0.coords t) ↔ 4 ≤ t.val % 8 :=
  (by decide +kernel : ∀ t : Fin grid0.N, cond0_2 (grid0.coords t) ↔ 4 ≤ t.val % 8)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- At a load step the output window is idle and is not written back. -/
theorem idleAt0_2 : ∀ t : Fin cfg0.N, ¬cond0_2 (grid0.coords t) → cfg0.idle 2 (grid0.coords t) = true := by decide +kernel
theorem noFlush0_2 : ∀ t : Fin cfg0.N, ¬cond0_2 (grid0.coords t) → (cfg0.win 2).flush t = false := by decide +kernel
/-- At a store step it is live. -/
theorem liveAt0_2 : ∀ t : Fin cfg0.N, cond0_2 (grid0.coords t) → cfg0.idle 2 (grid0.coords t) = false := by decide +kernel

/-! ## The memrefs the body is called with -/

abbrev ms0_0 (t : Fin cfg0.N) : Memref sig .tc .vmem S4x1x1x1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x1x1024x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x1x1024x512 .f32 := win0_2.stage (cfg0.slots t 2)
abbrev hs0_2 (t : Fin cfg0.N) : (ms0_2 t).IsWhole := hstage0_2 ((cfg0.slots t 2).cast nbuf0_2)
/-- The scratch operands: the stash of bf16 planes, the running column minimum, the running column maximum. -/
abbrev scM0_0 : Memref sig .tc .vmem S16x1024x512 .bf16 := Memref.whole cc0_scratch0
abbrev scM0_1 : Memref sig .tc .vmem S1x512 .f32 := Memref.whole cc0_scratch1
abbrev scM0_2 : Memref sig .tc .vmem S1x512 .f32 := Memref.whole cc0_scratch2

/-- The scoped buffers that are no staging buffer, as the three scratch memrefs owned at some contents. -/
theorem scopedRest0_owns (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d) ∗ (∃ d, owns (c : Thread nD τ) scM0_1 fullShare d) ∗ (∃ d, owns (c : Thread nD τ) scM0_2 fullShare d)) := by
  rw [scopedRest0_eq]; simp only [scM0_0, scM0_1, scM0_2, owns_whole]; try rfl

end Cert.Kernel.Fr

end
-- ==== Proof.K.RunA.lean ====
/-
  The body at the first step of a column half (the first branch alone is taken): on whole memrefs, the two input
  blocks at their contents, the idle output buffer handed back untouched, the three scratch buffers at anything, it
  runs and leaves the stash with two pieces written (plane 0: frame 2 minus frame 0; planes 1 to 3: frame 0) and the
  running minimum and maximum stored whole. The pieces are those the body's stores write.
-/
import proofs.«162028_g63909113364757_feedfinal_307_9_alg».proof.Proof.K.Shared

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_A (c : Dev nD) (i : grid0.Coords) (arg3 : Memref sig .tc .vmem S4x1x1x1024x512 .f32) (harg3 : arg3.IsWhole) (arg4 : Memref sig .tc .vmem S1x1x1x1024x512 .f32) (harg4 : arg4.IsWhole) (arg5 : Memref sig .tc .vmem S4x1x1024x512 .f32) (harg5 : arg5.IsWhole) (arg6 : Memref sig .tc .vmem S16x1024x512 .bf16) (harg6 : arg6.IsWhole) (arg7 : Memref sig .tc .vmem S1x512 .f32) (harg7 : arg7.IsWhole) (arg8 : Memref sig .tc .vmem S1x512 .f32) (harg8 : arg8.IsWhole) (hc0 : cond0_0 i) (hc1 : ¬cond0_1 i) (hc2 : ¬cond0_2 i)
    (x0 : Vec F S4x1x1x1024x512 .f32) (x1 : Vec F S1x1x1x1024x512 .f32) :
    Σ' (LS0 : List (View.Piece (Elt F) S16x1024x512 .bf16)) (LS1 : List (View.Piece (Elt F) S1x512 .f32)), { LS2 : List (View.Piece (Elt F) S1x512 .f32) //
      ∀ (xi2 : Vec F S4x1x1024x512 .f32) (E : Set ℕ) (K : PUnit → sProp 𝕄),
        iprop(owns (c : Thread nD τ) arg3 fullShare x0 ∗ owns (c : Thread nD τ) arg4 fullShare x1 ∗ owns (c : Thread nD τ) arg5 fullShare xi2
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare xi2
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc0__body i arg3 harg3 arg4 harg4 arg5 harg5 arg6 harg6 arg7 harg7 arg8 harg8) K } := by
  refine ⟨?_, ?_, ?_, fun xi2 E K => ?run⟩
  case run =>
    simp only [cc0__body_eq_skeleton]; unfold cc0__body_skel
    simp only [k0_part1_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HS0]; · iexists _; iexact HS0
    isplitl [HS1]; · iexists _; iexact HS1
    iexists _; iexact HS2

end Cert.Kernel.Fr

end
-- ==== Proof.K.RunB.lean ====
/-
  The body at a later load step (the second branch alone is taken): the input blocks at their contents, the idle
  output buffer handed back untouched, the stash and the running minimum and maximum at the contents the step before
  left; it leaves the stash with one more piece written over those contents (four planes of frame 0), and the
  minimum and maximum stored whole.
-/
import proofs.«162028_g63909113364757_feedfinal_307_9_alg».proof.Proof.K.RunA

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_B (c : Dev nD) (i : grid0.Coords) (arg3 : Memref sig .tc .vmem S4x1x1x1024x512 .f32) (harg3 : arg3.IsWhole) (arg4 : Memref sig .tc .vmem S1x1x1x1024x512 .f32) (harg4 : arg4.IsWhole) (arg5 : Memref sig .tc .vmem S4x1x1024x512 .f32) (harg5 : arg5.IsWhole) (arg6 : Memref sig .tc .vmem S16x1024x512 .bf16) (harg6 : arg6.IsWhole) (arg7 : Memref sig .tc .vmem S1x512 .f32) (harg7 : arg7.IsWhole) (arg8 : Memref sig .tc .vmem S1x512 .f32) (harg8 : arg8.IsWhole) (hc0 : ¬cond0_0 i) (hc1 : cond0_1 i) (hc2 : ¬cond0_2 i)
    (x0 : Vec F S4x1x1x1024x512 .f32) (x1 : Vec F S1x1x1x1024x512 .f32)
    (xs1 : Vec F S1x512 .f32) (xs2 : Vec F S1x512 .f32) :
    Σ' (LS0 : List (View.Piece (Elt F) S16x1024x512 .bf16)) (LS1 : List (View.Piece (Elt F) S1x512 .f32)), { LS2 : List (View.Piece (Elt F) S1x512 .f32) //
      ∀ (xi2 : Vec F S4x1x1024x512 .f32) (xs0 : Vec F S16x1024x512 .bf16) (E : Set ℕ) (K : PUnit → sProp 𝕄),
        iprop(owns (c : Thread nD τ) arg3 fullShare x0 ∗ owns (c : Thread nD τ) arg4 fullShare x1 ∗ owns (c : Thread nD τ) arg5 fullShare xi2
            ∗ owns (c : Thread nD τ) arg6 fullShare xs0 ∗ owns (c : Thread nD τ) arg7 fullShare xs1 ∗ owns (c : Thread nD τ) arg8 fullShare xs2
            ∗ (iprop(owns (c : Thread nD τ) arg3 fullShare x0 ∗ owns (c : Thread nD τ) arg4 fullShare x1 ∗ owns (c : Thread nD τ) arg5 fullShare xi2
                ∗ (arg6.view.loc (c : Thread nD τ) ↦[arg6.view.set]{fullShare} arg6.view.writes (Elt F) (harg6.unread xs0) LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc0__body i arg3 harg3 arg4 harg4 arg5 harg5 arg6 harg6 arg7 harg7 arg8 harg8) K } := by
  refine ⟨?_, ?_, ?_, fun xi2 xs0 E K => ?run⟩
  case run =>
    simp only [cc0__body_eq_skeleton]; unfold cc0__body_skel
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg6.eq_unread hfs0; obtain rfl := harg7.eq_unread hfs1; obtain rfl := harg8.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HS0]; · iexact HS0
    isplitl [HS1]; · iexists _; iexact HS1
    iexists _; iexact HS2

end Cert.Kernel.Fr

end
-- ==== Proof.K.RunC.lean ====
/-
  The body at a store step (the third branch alone is taken): the input blocks, the stash and the final minimum
  and maximum at their contents, the output buffer at anything; it leaves the output buffer with one piece written
  whole (four stashed planes, minus the column minimum, times the reciprocal of the column range), everything else
  as found.
-/
import proofs.«162028_g63909113364757_feedfinal_307_9_alg».proof.Proof.K.RunB

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_C (c : Dev nD) (i : grid0.Coords) (arg3 : Memref sig .tc .vmem S4x1x1x1024x512 .f32) (harg3 : arg3.IsWhole) (arg4 : Memref sig .tc .vmem S1x1x1x1024x512 .f32) (harg4 : arg4.IsWhole) (arg5 : Memref sig .tc .vmem S4x1x1024x512 .f32) (harg5 : arg5.IsWhole) (arg6 : Memref sig .tc .vmem S16x1024x512 .bf16) (harg6 : arg6.IsWhole) (arg7 : Memref sig .tc .vmem S1x512 .f32) (harg7 : arg7.IsWhole) (arg8 : Memref sig .tc .vmem S1x512 .f32) (harg8 : arg8.IsWhole) (hc0 : ¬cond0_0 i) (hc1 : ¬cond0_1 i) (hc2 : cond0_2 i)
    (x0 : Vec F S4x1x1x1024x512 .f32) (x1 : Vec F S1x1x1x1024x512 .f32)
    (xs0 : Vec F S16x1024x512 .bf16) (xs1 : Vec F S1x512 .f32) (xs2 : Vec F S1x512 .f32) :
    { L2 : List (View.Piece (Elt F) S4x1x1024x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ owns (c : Thread nD τ) arg6 fullShare xs0 ∗ owns (c : Thread nD τ) arg7 fullShare xs1 ∗ owns (c : Thread nD τ) arg8 fullShare xs2
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ owns (c : Thread nD τ) arg6 fullShare xs0 ∗ owns (c : Thread nD τ) arg7 fullShare xs1 ∗ owns (c : Thread nD τ) arg8 fullShare xs2) -∗ K ⟨⟩))
          ⊢ wp frame (wpE (defs₀ (F := F)) Variants.none c none) E (cc0__body i arg3 harg3 arg4 harg4 arg5 harg5 arg6 harg6 arg7 harg7 arg8 harg8) K } := by
  refine ⟨?_, fun E K => ?run⟩
  case run =>
    simp only [cc0__body_eq_skeleton]; unfold cc0__body_skel
    unfold owns
    iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, Hk⟩
    obtain rfl := harg3.eq_unread hf0; obtain rfl := harg4.eq_unread hf1
    obtain rfl := harg6.eq_unread hfs0; obtain rfl := harg7.eq_unread hfs1; obtain rfl := harg8.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [HS0]
    · iexists _; isplitr; · ipureintro; exact harg6.read_unread _
      iexact HS0
    isplitl [HS1]
    · iexists _; isplitr; · ipureintro; exact harg7.read_unread _
      iexact HS1
    iexists _; isplitr; · ipureintro; exact harg8.read_unread _
    iexact HS2

end Cert.Kernel.Fr

end
-- ==== Proof.K.Frame1.lean ====
/-
  What the scratch buffers and the output buffer hold after each grid point, and the proof data.

  Point n = 8·h + s is step s of column half h. Steps 0 to 3 stash four planes each (step 0: plane 0 as frame 2
  minus frame 0 and planes 1 to 3 as frame 0, in two pieces; steps 1 to 3: frame 0, one piece of four planes) and
  fold the running column minimum and maximum; steps 4 to 7 leave the scratch alone and write four scaled planes
  each. The stash is stored piece by piece over whatever it held, so its contents are tracked by recursion on the
  point from the pieces the body's stores write, and the invariant says that the buffer agrees with them on the planes
  stored so far in the current half (all sixteen from step 3 on).
-/
import proofs.«162028_g63909113364757_feedfinal_307_9_alg».proof.Proof.K.RunC

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Views through which contents are stated (the choice does not matter where the pieces cover). -/
abbrev VO0_2 : View sig .tc .vmem S4x1x1024x512 .f32 := (Memref.whole cc0_stg2_0 : Memref sig .tc .vmem S4x1x1024x512 .f32).view
abbrev VS0_0 : View sig .tc .vmem S16x1024x512 .bf16 := scM0_0.view
abbrev VS0_1 : View sig .tc .vmem S1x512 .f32 := scM0_1.view
abbrev VS0_2 : View sig .tc .vmem S1x512 .f32 := scM0_2.view

/-! ## Which branch a point takes, from its step -/

theorem caseA (t : Fin cfg0.N) (h : t.val % 8 = 0) :
    cond0_0 (grid0.coords t) ∧ ¬cond0_1 (grid0.coords t) ∧ ¬cond0_2 (grid0.coords t) :=
  ⟨(hcond0_0 t).mpr h, fun hh => by have := (hcond0_1 t).mp hh; omega, fun hh => by have := (hcond0_2 t).mp hh; omega⟩

theorem caseB (t : Fin cfg0.N) (h1 : 1 ≤ t.val % 8) (h2 : t.val % 8 ≤ 3) :
    ¬cond0_0 (grid0.coords t) ∧ cond0_1 (grid0.coords t) ∧ ¬cond0_2 (grid0.coords t) :=
  ⟨fun hh => by have := (hcond0_0 t).mp hh; omega, (hcond0_1 t).mpr ⟨h1, h2⟩, fun hh => by have := (hcond0_2 t).mp hh; omega⟩

theorem caseC (t : Fin cfg0.N) (h : 4 ≤ t.val % 8) :
    ¬cond0_0 (grid0.coords t) ∧ ¬cond0_1 (grid0.coords t) ∧ cond0_2 (grid0.coords t) :=
  ⟨fun hh => by have := (hcond0_0 t).mp hh; omega, fun hh => by have := (hcond0_1 t).mp hh; omega, (hcond0_2 t).mpr h⟩

/-! ## The runs at a point -/

/-- The first-step run at point `t`, on the point's memrefs and input blocks. -/
def runA (c : Dev nD) (t : Fin cfg0.N) (h : t.val % 8 = 0) :=
  kernelRun0_A (F := F) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (caseA t h).1 (caseA t h).2.1 (caseA t h).2.2 (iblk m c 0 t) (iblk m c 1 t)

/-- A later load step's run at point `t`, over the minimum and maximum found. -/
def runB (c : Dev nD) (t : Fin cfg0.N) (h1 : 1 ≤ t.val % 8) (h2 : t.val % 8 ≤ 3) (xs1 xs2 : Vec F S1x512 .f32) :=
  kernelRun0_B (F := F) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (caseB t h1 h2).1 (caseB t h1 h2).2.1 (caseB t h1 h2).2.2 (iblk m c 0 t) (iblk m c 1 t) xs1 xs2

/-- A store step's run at point `t`, over the stash, minimum and maximum found. -/
def runC (c : Dev nD) (t : Fin cfg0.N) (h : 4 ≤ t.val % 8) (xs0 : Vec F S16x1024x512 .bf16) (xs1 xs2 : Vec F S1x512 .f32) :=
  kernelRun0_C (F := F) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (caseC t h).1 (caseC t h).2.1 (caseC t h).2.2 (iblk m c 0 t) (iblk m c 1 t) xs0 xs1 xs2

/-- A store step's one piece covers the output block. -/
theorem coverC (c : Dev nD) (t : Fin cfg0.N) (h : 4 ≤ t.val % 8) (xs0 : Vec F S16x1024x512 .bf16) (xs1 xs2 : Vec F S1x512 .f32)
    (y : S4x1x1024x512.Idx) : ∃ pc ∈ (runC m c t h xs0 xs1 xs2).1, y ∈ pc.1.set :=
  View.cover_of_tiledL (runC m c t h xs0 xs1 xs2).1 S4x1x1024x512.size (by unfold runC; sl_kernel_rfl) y

/-- The minimum's and the maximum's one piece each covers its row, at a first step -/
theorem coverA1 (c : Dev nD) (t : Fin cfg0.N) (h : t.val % 8 = 0) (y : S1x512.Idx) : ∃ pc ∈ (runA m c t h).2.1, y ∈ pc.1.set :=
  View.cover_of_tiledL (runA m c t h).2.1 S1x512.size (by unfold runA; sl_kernel_rfl) y
theorem coverA2 (c : Dev nD) (t : Fin cfg0.N) (h : t.val % 8 = 0) (y : S1x512.Idx) : ∃ pc ∈ (runA m c t h).2.2.1, y ∈ pc.1.set :=
  View.cover_of_tiledL (runA m c t h).2.2.1 S1x512.size (by unfold runA; sl_kernel_rfl) y
/-- and at a later load step. -/
theorem coverB1 (c : Dev nD) (t : Fin cfg0.N) (h1 : 1 ≤ t.val % 8) (h2 : t.val % 8 ≤ 3) (xs1 xs2 : Vec F S1x512 .f32) (y : S1x512.Idx) :
    ∃ pc ∈ (runB m c t h1 h2 xs1 xs2).2.1, y ∈ pc.1.set :=
  View.cover_of_tiledL (runB m c t h1 h2 xs1 xs2).2.1 S1x512.size (by unfold runB; sl_kernel_rfl) y
theorem coverB2 (c : Dev nD) (t : Fin cfg0.N) (h1 : 1 ≤ t.val % 8) (h2 : t.val % 8 ≤ 3) (xs1 xs2 : Vec F S1x512 .f32) (y : S1x512.Idx) :
    ∃ pc ∈ (runB m c t h1 h2 xs1 xs2).2.2.1, y ∈ pc.1.set :=
  View.cover_of_tiledL (runB m c t h1 h2 xs1 xs2).2.2.1 S1x512.size (by unfold runB; sl_kernel_rfl) y

/-! ## The scratch after each point -/

/-- The stash, the running minimum and the running maximum after point `n`. -/
def stateAt (c : Dev nD) : (n : ℕ) → n < cfg0.N → Vec F S16x1024x512 .bf16 × Vec F S1x512 .f32 × Vec F S1x512 .f32
  | 0, hn =>
    (VS0_0.read (Elt F) (VS0_0.writes (Elt F) VS0_0.junk (runA m c ⟨0, hn⟩ (Nat.zero_mod 8)).1),
     VS0_1.read (Elt F) (VS0_1.writes (Elt F) VS0_1.junk (runA m c ⟨0, hn⟩ (Nat.zero_mod 8)).2.1),
     VS0_2.read (Elt F) (VS0_2.writes (Elt F) VS0_2.junk (runA m c ⟨0, hn⟩ (Nat.zero_mod 8)).2.2.1))
  | n + 1, hn =>
    if h0 : (n + 1) % 8 = 0 then
      (VS0_0.read (Elt F) (VS0_0.writes (Elt F) VS0_0.junk (runA m c ⟨n + 1, hn⟩ h0).1),
       VS0_1.read (Elt F) (VS0_1.writes (Elt F) VS0_1.junk (runA m c ⟨n + 1, hn⟩ h0).2.1),
       VS0_2.read (Elt F) (VS0_2.writes (Elt F) VS0_2.junk (runA m c ⟨n + 1, hn⟩ h0).2.2.1))
    else if h1 : (n + 1) % 8 ≤ 3 then
      (VS0_0.read (Elt F) (VS0_0.writes (Elt F) ((Memref.isWhole_whole cc0_scratch0).unread (stateAt c n (Nat.lt_of_succ_lt hn)).1)
          (runB m c ⟨n + 1, hn⟩ (Nat.one_le_iff_ne_zero.mpr h0) h1 (stateAt c n (Nat.lt_of_succ_lt hn)).2.1 (stateAt c n (Nat.lt_of_succ_lt hn)).2.2).1),
       VS0_1.read (Elt F) (VS0_1.writes (Elt F) VS0_1.junk (runB m c ⟨n + 1, hn⟩ (Nat.one_le_iff_ne_zero.mpr h0) h1 (stateAt c n (Nat.lt_of_succ_lt hn)).2.1 (stateAt c n (Nat.lt_of_succ_lt hn)).2.2).2.1),
       VS0_2.read (Elt F) (VS0_2.writes (Elt F) VS0_2.junk (runB m c ⟨n + 1, hn⟩ (Nat.one_le_iff_ne_zero.mpr h0) h1 (stateAt c n (Nat.lt_of_succ_lt hn)).2.1 (stateAt c n (Nat.lt_of_succ_lt hn)).2.2).2.2.1))
    else stateAt c n (Nat.lt_of_succ_lt hn)

/-- What the output buffer holds after point `n`: at a store step the one piece written, over the scratch the step
    before left; at a load step nothing is stored (a placeholder nothing consults: the window is idle there). -/
def out2At (c : Dev nD) (n : ℕ) (hn : n < cfg0.N) : Vec F S4x1x1024x512 .f32 :=
  if h2 : 4 ≤ n % 8 then
    VO0_2.read (Elt F) (VO0_2.writes (Elt F) VO0_2.junk
      (runC m c ⟨n, hn⟩ h2 (stateAt m c (n - 1) (Nat.lt_of_le_of_lt (Nat.sub_le _ _) hn)).1
        (stateAt m c (n - 1) (Nat.lt_of_le_of_lt (Nat.sub_le _ _) hn)).2.1 (stateAt m c (n - 1) (Nat.lt_of_le_of_lt (Nat.sub_le _ _) hn)).2.2).1)
  else VO0_2.read (Elt F) VO0_2.junk

/-- The stash agrees with the tracked contents on the planes stored so far in the current half. -/
def Inv (c : Dev nD) (n : ℕ) (hn : n < cfg0.N) (s : Vec F S16x1024x512 .bf16) : Prop :=
  ∀ y : S16x1024x512.Idx, (y 0).val < 4 * (min (n % 8) 3 + 1) → s y = (stateAt m c n hn).1 y

/-- The region invariant before point `n`: before the first point the scratch buffers at anything; afterwards the
    stash at contents agreeing with the tracked ones where stored, the minimum and maximum at the tracked ones. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(∃ s, ⌜Inv m c n hn s⌝ ∗ owns (c : Thread nD τ) scM0_0 fullShare s
      ∗ owns (c : Thread nD τ) scM0_1 fullShare (stateAt m c n hn).2.1 ∗ owns (c : Thread nD τ) scM0_2 fullShare (stateAt m c n hn).2.2)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(∃ s, ⌜Inv m c n hn s⌝ ∗ owns (c : Thread nD τ) scM0_0 fullShare s
      ∗ owns (c : Thread nD τ) scM0_1 fullShare (stateAt m c n hn).2.1 ∗ owns (c : Thread nD τ) scM0_2 fullShare (stateAt m c n hn).2.2) := rfl

theorem PhiS_pos (c : Dev nD) (n : ℕ) (h : n ≤ cfg0.N) (hz : n ≠ 0) :
    PhiS m c n h = iprop(∃ s, ⌜Inv m c (n - 1) (by omega) s⌝ ∗ owns (c : Thread nD τ) scM0_0 fullShare s
      ∗ owns (c : Thread nD τ) scM0_1 fullShare (stateAt m c (n - 1) (by omega)).2.1 ∗ owns (c : Thread nD τ) scM0_2 fullShare (stateAt m c (n - 1) (by omega)).2.2) := by
  cases n with
  | zero => exact absurd rfl hz
  | succ n => rfl

/-- Whatever the point, the invariant holds each scratch buffer at some contents. -/
theorem PhiS_any (c : Dev nD) (n : ℕ) (h : n ≤ cfg0.N) :
    PhiS m c n h ⊢ iprop((∃ d, owns (c : Thread nD τ) scM0_0 fullShare d) ∗ (∃ d, owns (c : Thread nD τ) scM0_1 fullShare d) ∗ (∃ d, owns (c : Thread nD τ) scM0_2 fullShare d)) := by
  cases n with
  | zero => rw [PhiS_zero m c 0 h rfl, scopedRest0_owns]
  | succ n =>
    rw [PhiS_succ]
    iintro ⟨%s, -, H0, H1, H2⟩
    isplitl [H0]; · iexists _; iexact H0
    isplitl [H1]; · iexists _; iexact H1
    iexists _; iexact H2

/-! ## The proof data -/

/-- The arrays as the region finds them; after the body each input's buffer at its block, the output's at
    `out2At`; the two input windows hold their common array at the two halves of its share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out2At m c t.val t.isLt
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out2At m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

end Cert.Kernel.Fr

end
-- ==== Proof.K.Frame2.lean ====
/-
  The body obligation: at every grid point the body, called on the point's staging memrefs, runs from the
  invariant before the point to the invariant after it. By the point's step: a first step takes the scratch at
  anything; a later load step overwrites four more planes of the stash, so the planes stored before keep their
  tracked contents; a store step finds all sixteen planes stored, hence the stash at exactly the tracked contents.
-/
import proofs.«162028_g63909113364757_feedfinal_307_9_alg».proof.Proof.K.Frame1

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tracked scratch, step by step -/

theorem stateAt_A (c : Dev nD) (t : Fin cfg0.N) (h0 : t.val % 8 = 0) :
    stateAt m c t.val t.isLt =
      (VS0_0.read (Elt F) (VS0_0.writes (Elt F) VS0_0.junk (runA m c t h0).1),
       VS0_1.read (Elt F) (VS0_1.writes (Elt F) VS0_1.junk (runA m c t h0).2.1),
       VS0_2.read (Elt F) (VS0_2.writes (Elt F) VS0_2.junk (runA m c t h0).2.2.1)) := by
  obtain ⟨n, hn⟩ := t
  cases n with
  | zero => rfl
  | succ n => exact (dif_pos h0).trans rfl

theorem stateAt_B (c : Dev nD) (t : Fin cfg0.N) (h1 : 1 ≤ t.val % 8) (h2 : t.val % 8 ≤ 3) :
    stateAt m c t.val t.isLt =
      (VS0_0.read (Elt F) (VS0_0.writes (Elt F) ((Memref.isWhole_whole cc0_scratch0).unread (stateAt m c (t.val - 1) (Nat.lt_of_le_of_lt (Nat.sub_le _ _) t.isLt)).1)
          (runB m c t h1 h2 (stateAt m c (t.val - 1) (Nat.lt_of_le_of_lt (Nat.sub_le _ _) t.isLt)).2.1 (stateAt m c (t.val - 1) (Nat.lt_of_le_of_lt (Nat.sub_le _ _) t.isLt)).2.2).1),
       VS0_1.read (Elt F) (VS0_1.writes (Elt F) VS0_1.junk (runB m c t h1 h2 (stateAt m c (t.val - 1) (Nat.lt_of_le_of_lt (Nat.sub_le _ _) t.isLt)).2.1 (stateAt m c (t.val - 1) (Nat.lt_of_le_of_lt (Nat.sub_le _ _) t.isLt)).2.2).2.1),
       VS0_2.read (Elt F) (VS0_2.writes (Elt F) VS0_2.junk (runB m c t h1 h2 (stateAt m c (t.val - 1) (Nat.lt_of_le_of_lt (Nat.sub_le _ _) t.isLt)).2.1 (stateAt m c (t.val - 1) (Nat.lt_of_le_of_lt (Nat.sub_le _ _) t.isLt)).2.2).2.2.1)) := by
  obtain ⟨n, hn⟩ := t
  cases n with
  | zero => exact absurd h1 (by show ¬ 1 ≤ 0 % 8; decide)
  | succ n => exact (dif_neg (by intro h; simp only at h1; omega)).trans ((dif_pos h2).trans rfl)

theorem stateAt_C (c : Dev nD) (t : Fin cfg0.N) (h : 4 ≤ t.val % 8) :
    stateAt m c t.val t.isLt = stateAt m c (t.val - 1) (Nat.lt_of_le_of_lt (Nat.sub_le _ _) t.isLt) := by
  obtain ⟨n, hn⟩ := t
  cases n with
  | zero => exact absurd h (by show ¬ 4 ≤ 0 % 8; decide)
  | succ n => exact (dif_neg (by intro h'; simp only at h; omega)).trans ((dif_neg (by simp only at h; omega)).trans rfl)

theorem out2At_C (c : Dev nD) (t : Fin cfg0.N) (h2 : 4 ≤ t.val % 8) :
    out2At m c t.val t.isLt = VO0_2.read (Elt F) (VO0_2.writes (Elt F) VO0_2.junk
      (runC m c t h2 (stateAt m c (t.val - 1) (Nat.lt_of_le_of_lt (Nat.sub_le _ _) t.isLt)).1
        (stateAt m c (t.val - 1) (Nat.lt_of_le_of_lt (Nat.sub_le _ _) t.isLt)).2.1 (stateAt m c (t.val - 1) (Nat.lt_of_le_of_lt (Nat.sub_le _ _) t.isLt)).2.2).1) :=
  dif_pos h2

/-! ## Where the stash's pieces lie -/

/-- The offsets of a later load step's store: plane 4·step, row 0, column 0. -/
theorem hoff1 : ∀ t : Fin cfg0.N, cond0_1 (grid0.coords t) → k0_off1 (grid0.coords t) = ![4 * (t.val % 8), 0, 0] :=
  (by decide +kernel : ∀ t : Fin grid0.N, cond0_1 (grid0.coords t) → k0_off1 (grid0.coords t) = ![4 * (t.val % 8), 0, 0])

/-- A first step's two pieces cover planes 0 to 3. -/
theorem coverA0 (c : Dev nD) (t : Fin cfg0.N) (h0 : t.val % 8 = 0) (y : S16x1024x512.Idx) (hy : (y 0).val < 4) :
    ∃ pc ∈ (runA m c t h0).1, y ∈ pc.1.set := by
  have h1 : (y 1).val < 1024 := (y 1).isLt
  have h2 : (y 2).val < 512 := (y 2).isLt
  unfold runA kernelRun0_A; dsimp only
  by_cases hz : (y 0).val = 0
  · refine ⟨_, List.mem_cons_of_mem _ (List.mem_singleton_self _), ?_⟩
    dsimp only
    rw [Rect.mem_set_unit]
    intro a
    match a with
    | ⟨0, _⟩ => exact ⟨by show 0 ≤ (y 0).val; omega, by show (y 0).val < 0 + 1; omega⟩
    | ⟨1, _⟩ => exact ⟨by show 0 ≤ (y 1).val; omega, by show (y 1).val < 0 + 1024; omega⟩
    | ⟨2, _⟩ => exact ⟨by show 0 ≤ (y 2).val; omega, by show (y 2).val < 0 + 512; omega⟩
  · refine ⟨_, List.mem_cons_self, ?_⟩
    dsimp only
    rw [Rect.mem_set_unit]
    intro a
    match a with
    | ⟨0, _⟩ => exact ⟨by show 1 ≤ (y 0).val; omega, by show (y 0).val < 1 + 3; omega⟩
    | ⟨1, _⟩ => exact ⟨by show 0 ≤ (y 1).val; omega, by show (y 1).val < 0 + 1024; omega⟩
    | ⟨2, _⟩ => exact ⟨by show 0 ≤ (y 2).val; omega, by show (y 2).val < 0 + 512; omega⟩

/-- A later load step's one piece lies on planes 4·step to 4·step + 3. -/
theorem memB0 (c : Dev nD) (t : Fin cfg0.N) (h1 : 1 ≤ t.val % 8) (h2 : t.val % 8 ≤ 3) (xs1 xs2 : Vec F S1x512 .f32) (y : S16x1024x512.Idx) :
    (∃ pc ∈ (runB m c t h1 h2 xs1 xs2).1, y ∈ pc.1.set) ↔ (4 * (t.val % 8) ≤ (y 0).val ∧ (y 0).val < 4 * (t.val % 8) + 4) := by
  have hy1 : (y 1).val < 1024 := (y 1).isLt
  have hy2 : (y 2).val < 512 := (y 2).isLt
  have ho := hoff1 t (caseB t h1 h2).2.1
  unfold runB kernelRun0_B; dsimp only
  constructor
  · rintro ⟨pc, hp, hy⟩
    obtain rfl := List.mem_singleton.mp hp
    dsimp only at hy
    rw [Rect.mem_set_unit] at hy
    have h0 := hy 0
    rw [ho] at h0; exact h0
  · intro h
    refine ⟨_, List.mem_singleton_self _, ?_⟩
    dsimp only
    rw [Rect.mem_set_unit, ho]
    intro a
    match a with
    | ⟨0, _⟩ => exact h
    | ⟨1, _⟩ => exact ⟨by show 0 ≤ (y 1).val; omega, by show (y 1).val < 0 + 1024; omega⟩
    | ⟨2, _⟩ => exact ⟨by show 0 ≤ (y 2).val; omega, by show (y 2).val < 0 + 512; omega⟩

end Cert.Kernel.Fr

end
-- ==== Proof.K.Frame2b.lean ====
/-
  The stash invariant through each kind of step: a first step's two pieces cover the first four planes whatever the buffer held; a later load step's piece lies on its own four planes and leaves the planes stored before as they were; at a store step all sixteen planes have been stored.
-/
import proofs.«162028_g63909113364757_feedfinal_307_9_alg».proof.Proof.K.Frame2

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant, step by step -/

set_option maxHeartbeats 1600000 in
theorem inv_A (c : Dev nD) (t : Fin cfg0.N) (h0 : t.val % 8 = 0) (f : VS0_0.ty.Contents (Elt F)) :
    Inv m c t.val t.isLt (VS0_0.read (Elt F) (VS0_0.writes (Elt F) f (runA m c t h0).1)) := by
  intro y hy
  rw [stateAt_A m c t h0]
  dsimp only
  exact View.read_writes_apply_eq _ _ _ _ y _ (coverA0 m c t h0 y (by rw [h0] at hy; simpa using hy))

set_option maxHeartbeats 1600000 in
theorem inv_B (c : Dev nD) (t : Fin cfg0.N) (h1 : 1 ≤ t.val % 8) (h2 : t.val % 8 ≤ 3) (s : Vec F S16x1024x512 .bf16)
    (hs : Inv m c (t.val - 1) (Nat.lt_of_le_of_lt (Nat.sub_le _ _) t.isLt) s) :
    Inv m c t.val t.isLt (VS0_0.read (Elt F) (VS0_0.writes (Elt F) ((Memref.isWhole_whole cc0_scratch0).unread s)
      (runB m c t h1 h2 (stateAt m c (t.val - 1) (Nat.lt_of_le_of_lt (Nat.sub_le _ _) t.isLt)).2.1 (stateAt m c (t.val - 1) (Nat.lt_of_le_of_lt (Nat.sub_le _ _) t.isLt)).2.2).1)) := by
  intro y hy
  rw [stateAt_B m c t h1 h2]
  dsimp only
  by_cases hc : ∃ pc ∈ (runB m c t h1 h2 (stateAt m c (t.val - 1) (Nat.lt_of_le_of_lt (Nat.sub_le _ _) t.isLt)).2.1 (stateAt m c (t.val - 1) (Nat.lt_of_le_of_lt (Nat.sub_le _ _) t.isLt)).2.2).1, y ∈ pc.1.set
  · exact View.read_writes_apply_eq _ _ _ _ y _ hc
  · have hn : ∀ pc ∈ (runB m c t h1 h2 (stateAt m c (t.val - 1) (Nat.lt_of_le_of_lt (Nat.sub_le _ _) t.isLt)).2.1 (stateAt m c (t.val - 1) (Nat.lt_of_le_of_lt (Nat.sub_le _ _) t.isLt)).2.2).1, y ∉ pc.1.set :=
      fun pc hp hy' => hc ⟨pc, hp, hy'⟩
    rw [View.read_writes_apply_of_forall_not_mem _ _ y _ hn, View.read_writes_apply_of_forall_not_mem _ _ y _ hn,
      (Memref.isWhole_whole cc0_scratch0).read_unread, (Memref.isWhole_whole cc0_scratch0).read_unread]
    refine hs y ?_
    have hm := (memB0 m c t h1 h2 _ _ y).not.mp hc
    have e : (t.val - 1) % 8 = t.val % 8 - 1 := by omega
    rw [e]
    have : min (t.val % 8) 3 = t.val % 8 := by omega
    rw [this] at hy
    have : min (t.val % 8 - 1) 3 = t.val % 8 - 1 := by omega
    rw [this]
    omega

set_option maxHeartbeats 1600000 in
theorem inv_C (c : Dev nD) (t : Fin cfg0.N) (h : 4 ≤ t.val % 8) (s : Vec F S16x1024x512 .bf16)
    (hs : Inv m c (t.val - 1) (Nat.lt_of_le_of_lt (Nat.sub_le _ _) t.isLt) s) :
    s = (stateAt m c (t.val - 1) (Nat.lt_of_le_of_lt (Nat.sub_le _ _) t.isLt)).1 := by
  funext y
  refine hs y ?_
  have hy0 : (y 0).val < 16 := (y 0).isLt
  have : min ((t.val - 1) % 8) 3 = 3 := by omega
  rw [this]; omega

set_option maxHeartbeats 1600000 in
theorem inv_C' (c : Dev nD) (t : Fin cfg0.N) (h : 4 ≤ t.val % 8) :
    Inv m c t.val t.isLt (stateAt m c (t.val - 1) (Nat.lt_of_le_of_lt (Nat.sub_le _ _) t.isLt)).1 := by
  intro y _
  rw [stateAt_C m c t h]

end Cert.Kernel.Fr

end
-- ==== Proof.K.Frame3.lean ====
/-
  The body obligation at every grid point, the launch of the region with the argument array shared by the two
  input windows (each holds it at one half of its share, at the same contents), and the frame: the program runs to
  the end, nothing faults, and the argument array ends as it began.
-/
import proofs.«162028_g63909113364757_feedfinal_307_9_alg».proof.Proof.K.Frame2b

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ, PhiS_castSucc]
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  by_cases h0 : t.val % 8 = 0
  · rw [Dat.leavesExact_idle (dats m 0 c) 2 t (idleAt0_2 t (caseA t h0).2.2) (noFlush0_2 t (caseA t h0).2.2)]
    iintro ⟨HΦ, Ho, ⟨%d0, H0⟩, ⟨%d1, H1⟩, ⟨%d2, H2⟩⟩
    ihave HΦ' := (PhiS_any m c t.val (Nat.le_of_lt t.isLt)) $$ HΦ
    icases HΦ' with ⟨HS0, HS1, HS2⟩
    iapply ((runA m c t h0).2.2.2 _ Set.univ _)
    isplitl [H0]; · iexact H0
    isplitl [H1]; · iexact H1
    isplitl [H2]; · iexact H2
    isplitl [HS0]; · iexact HS0
    isplitl [HS1]; · iexact HS1
    isplitl [HS2]; · iexact HS2
    iintro ⟨H0, H1, H2, ⟨%es0, HS0⟩, ⟨%es1, HS1⟩, ⟨%es2, HS2⟩⟩
    isplitl [HS0 HS1 HS2]
    · iexists (VS0_0.read (Elt F) (VS0_0.writes (Elt F) es0 (runA m c t h0).1))
      isplitr; · ipureintro; exact inv_A m c t h0 es0
      isplitl [HS0]
      · unfold owns; iexists _; isplitr
        swap; · iexact HS0
        ipureintro; rfl
      isplitl [HS1]
      · unfold owns; iexists _; isplitr
        swap; · iexact HS1
        ipureintro; rw [stateAt_A m c t h0]; dsimp only; exact View.read_writes_of_cover _ _ _ _ _ (coverA1 m c t h0)
      unfold owns; iexists _; isplitr
      swap; · iexact HS2
      ipureintro; rw [stateAt_A m c t h0]; dsimp only; exact View.read_writes_of_cover _ _ _ _ _ (coverA2 m c t h0)
    isplitl [Ho]; · iexact Ho
    isplitl [H0]; · iexact H0
    isplitl [H1]; · iexact H1
    iexists _; iexact H2
  · have hz : t.val ≠ 0 := fun e => h0 (by rw [e])
    rw [PhiS_pos m c _ _ hz]
    by_cases h2 : t.val % 8 ≤ 3
    · have h1 : 1 ≤ t.val % 8 := Nat.one_le_iff_ne_zero.mpr h0
      rw [Dat.leavesExact_idle (dats m 0 c) 2 t (idleAt0_2 t (caseB t h1 h2).2.2) (noFlush0_2 t (caseB t h1 h2).2.2)]
      iintro ⟨⟨%s, %hs, HS0, HS1, HS2⟩, Ho, ⟨%d0, H0⟩, ⟨%d1, H1⟩, ⟨%d2, H2⟩⟩
      iapply ((runB m c t h1 h2 (stateAt m c (t.val - 1) (Nat.lt_of_le_of_lt (Nat.sub_le _ _) t.isLt)).2.1 (stateAt m c (t.val - 1) (Nat.lt_of_le_of_lt (Nat.sub_le _ _) t.isLt)).2.2).2.2.2 _ s Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, ⟨%es1, HS1⟩, ⟨%es2, HS2⟩⟩
      isplitl [HS0 HS1 HS2]
      · iexists (VS0_0.read (Elt F) (VS0_0.writes (Elt F) ((Memref.isWhole_whole cc0_scratch0).unread s)
          (runB m c t h1 h2 (stateAt m c (t.val - 1) (Nat.lt_of_le_of_lt (Nat.sub_le _ _) t.isLt)).2.1 (stateAt m c (t.val - 1) (Nat.lt_of_le_of_lt (Nat.sub_le _ _) t.isLt)).2.2).1))
        isplitr; · ipureintro; exact inv_B m c t h1 h2 s hs
        isplitl [HS0]
        · unfold owns; iexists _; isplitr
          swap; · iexact HS0
          ipureintro; rfl
        isplitl [HS1]
        · unfold owns; iexists _; isplitr
          swap; · iexact HS1
          ipureintro; rw [stateAt_B m c t h1 h2]; dsimp only; exact View.read_writes_of_cover _ _ _ _ _ (coverB1 m c t h1 h2 _ _)
        unfold owns; iexists _; isplitr
        swap; · iexact HS2
        ipureintro; rw [stateAt_B m c t h1 h2]; dsimp only; exact View.read_writes_of_cover _ _ _ _ _ (coverB2 m c t h1 h2 _ _)
      isplitl [Ho]; · iexact Ho
      isplitl [H0]; · iexact H0
      isplitl [H1]; · iexact H1
      iexists _; iexact H2
    · have h4 : 4 ≤ t.val % 8 := by omega
      rw [show (dats m 0 c).leavesExact 2 t = owns (c : Thread nD τ) (ms0_2 t) fullShare ((dats m 0 c).after 2 t) from by
        unfold Dat.leavesExact; rw [liveAt0_2 t (caseC t h4).2.2], after0_2, out2At_C m c t h4, stateAt_C m c t h4]
      iintro ⟨⟨%s, %hs, HS0, HS1, HS2⟩, Ho, ⟨%d0, H0⟩, ⟨%d1, H1⟩, ⟨%d2, H2⟩⟩
      have es := inv_C m c t h4 s hs
      subst es
      iapply ((runC m c t h4 (stateAt m c (t.val - 1) (Nat.lt_of_le_of_lt (Nat.sub_le _ _) t.isLt)).1 (stateAt m c (t.val - 1) (Nat.lt_of_le_of_lt (Nat.sub_le _ _) t.isLt)).2.1 (stateAt m c (t.val - 1) (Nat.lt_of_le_of_lt (Nat.sub_le _ _) t.isLt)).2.2).2 Set.univ _)
      isplitl [H0]; · iexact H0
      isplitl [H1]; · iexact H1
      isplitl [H2]; · iexists _; iexact H2
      isplitl [HS0]; · iexact HS0
      isplitl [HS1]; · iexact HS1
      isplitl [HS2]; · iexact HS2
      iintro ⟨H0, H1, ⟨%e2, H2⟩, HS0, HS1, HS2⟩
      isplitl [HS0 HS1 HS2]
      · iexists (stateAt m c (t.val - 1) (Nat.lt_of_le_of_lt (Nat.sub_le _ _) t.isLt)).1
        isplitr; · ipureintro; exact inv_C' m c t h4
        isplitl [HS0]; · iexact HS0
        isplitl [HS1]; · iexact HS1
        iexact HS2
      isplitl [Ho]; · iexact Ho
      isplitl [H0]; · iexact H0
      isplitl [H1]; · iexact H1
      unfold owns; iexists _; isplitr
      swap; · iexact H2
      ipureintro; exact View.read_writes_of_cover _ _ _ _ _ (coverC m c t h4 _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Fr

end
-- ==== Proof.LibSharedArrays.lean ====
/-
  Windows that share an array. A pipeline's proof data hold each window's array at a share of the window's own; when
  two input windows are views of ONE array, the array's full share is dealt between them, each half at the same
  contents, and joined again when the region is left. General in the pipeline:

  * `arrays_eq_shares`: the proof data's arrays, every array a whole buffer, are one whole-buffer points-to per
    window at that window's share (the library states this at the full share only);
  * `arrBufs_eq_of_list`: the DISTINCT buffers behind the windows' arrays, listed without repetition, as a chain;
  * `pointsTo_halves`: a points-to at the full share is the same contents held at its left and at its right half;
  * `unscopedBufs_of_arrBufs`: the buffers behind the arrays at new contents beside the untouched rest are the
    core's unscoped buffers at any valuation that agrees with the old one off the arrays.
-/
import Idealize.ShloMosaic.Lib.Pipeline.Kit
import Idealize.ShloMosaic.Lib.Pipeline.Launch

noncomputable section

namespace Cert.SharedArrays

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

variable {Λ₀ : Idealize.SL.Sem.Labels}

/-- The proof data's arrays at contents `F`, every array a whole buffer: one points-to of the whole buffer per
    window, at the window's share. -/
theorem arrays_eq_shares (cfg : Cfg sig Λ₀) (c : Dev nD) (dat : Dat τ Val Ix Name U Lvl cfg c)
    (harr : ∀ w, (cfg.spec w).arr.IsWhole)
    (F : (w : Fin cfg.W) → Buf Val ((cfg.spec w).arr.view.loc (c.tc : Thread nD τ))) :
    dat.arrays F = bigSep Finset.univ fun w => (((c.tc : Thread nD τ).loc (arrRef cfg.spec w)) ↦{dat.share w} F w : sProp 𝕄) := by
  unfold Dat.arrays
  exact bigSep_congr fun w _ => by rw [(harr w).set_eq_univ]

/-- The distinct buffers behind the windows' arrays, listed. -/
theorem arrBufs_eq_of_list {gr W : Nat} (win : Fin W → WinSpec sig gr) (c : Dev nD)
    (V : (b : Ref sig .tc) → Buf Val ((c.tc : Thread nD τ).loc b)) (l : List (Ref sig .tc))
    (h : Finset.univ.image (arrRef win) = l.toFinset) (hl : l.Nodup) :
    (arrBufs (Ix := Ix) (Name := Name) (U := U) (Lvl := Lvl) win c V : sProp 𝕄)
      = bigSepL l fun b => ((c.tc : Thread nD τ).loc b) ↦{fullShare} V b := by
  unfold arrBufs; exact bigSep_eq_bigSepL_of_eq l h hl _

/-- A buffer whole at the full share is the buffer at the left half and at the right half, at the same contents. -/
theorem pointsTo_halves (ℓ : Loc nD τ sig) (f : Buf Val ℓ) :
    (ℓ ↦{fullShare} f : sProp 𝕄) ⊣⊢ iprop((ℓ ↦{fullShare.left} f) ∗ ℓ ↦{fullShare.right} f) :=
  pointsTo_share (PosShare.mem_left_op_right fullShare)

/-- The buffers behind the arrays at `V'` and the unscoped rest at `V` are the core's unscoped buffers at `V'`,
    when `V'` agrees with `V` off the arrays. -/
theorem unscopedBufs_of_arrBufs {gr W : Nat} (win : Fin W → WinSpec sig gr) (hunscoped : ∀ w, (arrRef win w).isScoped = false)
    (c : Dev nD) (V V' : (b : Ref sig .tc) → Buf Val ((c.tc : Thread nD τ).loc b))
    (hrest : ∀ b, b ∉ Finset.univ.image (arrRef win) → V' b = V b) :
    iprop((arrBufs win c V' : sProp 𝕄) ∗ unscopedRest win c V) ⊢ (unscopedBufs c V' : sProp 𝕄) := by
  classical
  have hA : Finset.univ.image (arrRef win) ⊆ Finset.univ.filter fun b : Ref sig .tc => ¬ b.isScoped := fun b hb => by
    obtain ⟨w, -, rfl⟩ := Finset.mem_image.mp hb
    exact Finset.mem_filter.mpr ⟨Finset.mem_univ _, by simp [hunscoped w]⟩
  have e : (unscopedBufs c V' : sProp 𝕄) = iprop((arrBufs win c V' : sProp 𝕄) ∗ unscopedRest win c V') := by
    unfold unscopedBufs unscopedRest arrBufs
    rw [bigSep_sdiff_split hA]
    rfl
  rw [e]
  refine sep_mono .rfl (Entails.of_eq ?_)
  unfold unscopedRest
  exact bigSep_congr fun b hb => by rw [hrest b (Finset.mem_sdiff.mp hb).2]

/-- The core's unscoped buffers at `V` are the buffers behind the arrays and the unscoped rest, the arrays distinct or not. -/
theorem unscopedBufs_split_arrBufs {gr W : Nat} (win : Fin W → WinSpec sig gr) (hunscoped : ∀ w, (arrRef win w).isScoped = false)
    (c : Dev nD) (V : (b : Ref sig .tc) → Buf Val ((c.tc : Thread nD τ).loc b)) :
    (unscopedBufs c V : sProp 𝕄) = iprop((arrBufs win c V : sProp 𝕄) ∗ unscopedRest win c V) := by
  classical
  have hA : Finset.univ.image (arrRef win) ⊆ Finset.univ.filter fun b : Ref sig .tc => ¬ b.isScoped := fun b hb => by
    obtain ⟨w, -, rfl⟩ := Finset.mem_image.mp hb
    exact Finset.mem_filter.mpr ⟨Finset.mem_univ _, by simp [hunscoped w]⟩
  unfold unscopedBufs unscopedRest arrBufs
  rw [bigSep_sdiff_split hA]
  rfl

end Cert.SharedArrays

end
-- ==== Proof.K.Frame4.lean ====
/-
  The launch and the frame. The two input windows are views of the one argument array: at the region's entry its
  full share is dealt to them as its two halves, each at the array's contents; the output window holds the result
  array whole. The program then runs to the end with every window's array at what the proof data compute, and an
  input window's array is never written, so the argument array ends as it began.
-/
import proofs.«162028_g63909113364757_feedfinal_307_9_alg».proof.Proof.K.Frame3
import proofs.«162028_g63909113364757_feedfinal_307_9_alg».proof.Proof.LibSharedArrays

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows' arrays, each whole at its entry contents, are the proof data's arrays at entry:
    the argument array's full share is its left half (window 0) and its right half (window 1). -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [Cert.SharedArrays.arrBufs_eq_of_list spec0 c (V m c) [main_arg0, main_v0] (by decide) (by decide),
    Cert.SharedArrays.arrays_eq_shares cfg0 c (dats m 0 c) arr_whole0, bigSep_W0]
  simp only [bigSepL_cons_cons, bigSepL_singleton]
  show iprop((((c.tc : Thread nD τ).loc main_arg0) ↦{fullShare} V m c main_arg0) ∗ (((c.tc : Thread nD τ).loc main_v0) ↦{fullShare} V m c main_v0)) ⊢ _
  iintro ⟨Ha, Hv⟩
  ihave Hh := (Cert.SharedArrays.pointsTo_halves _ _).1 $$ Ha
  icases Hh with ⟨Hl, Hr⟩
  isplitl [Hl]; · iexact Hl
  isplitl [Hr]; · iexact Hr
  iexact Hv

/-- Before the first point the invariant is the scratch buffers at anything. -/
theorem hin (c : Dev nD) :
    iprop((BI.emp : sProp 𝕄) ∗ Pipeline.scopedRest (Ix := Unit) (Name := ℕ) (U := UR sig nD τ) (Lvl := ℕ) (Val := Elt F) spec0 c) ⊢ (dats m 0 c).Φ 0 := by
  rw [show (dats m 0 c).Φ 0 = PhiS m c 0 (Nat.zero_le _) from rfl, PhiS_zero m c 0 _ rfl]
  iintro ⟨-, H⟩; iexact H

/-- After the last point it gives them back, their contents forgotten. -/
theorem hout (c : Dev nD) :
    (dats m 0 c).Φ (Fin.last cfg0.N) ⊢ iprop((BI.emp : sProp 𝕄) ∗ Pipeline.scopedRest (Ix := Unit) (Name := ℕ) (U := UR sig nD τ) (Lvl := ℕ) (Val := Elt F) spec0 c) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 16 := N_0; omega), scopedRest0_owns]
  iintro ⟨%s, -, H0, H1, H2⟩
  isplitr; · iempintro
  isplitl [H0]; · iexists _; iexact H0
  isplitl [H1]; · iexists _; iexact H1
  iexists _; iexact H2

set_option backward.isDefEq.respectTransparency.types false in
/-- Every weakly fair execution of @main terminates, nothing faulting, with every window's array at what the proof
    data compute from the blocks written back. -/
theorem run_main : θ_run defs (onTc (τ := τ) (main (F := F))) (s₀ m ρ)
    (fun r => ∀ c : Dev nD, ∀ w, r.2.mem (((cfg0).spec w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := hsplit m)
    (X := fun _ => iprop(emp)) (Y := fun _ => iprop(emp)) (Z := fun _ => iprop(emp))
    (hX := fun c => by
      rw [unscopedRest0_eq]
      iintro H
      isplitl [H]; · iexact H
      iempintro)
    (hin := hin m) (hout := hout m)
    (QY := fun _ _ => True)
    (hY := fun c s' => by
      iintro ⟨-, -, HSI⟩
      imodintro
      isplitr; · ipureintro; trivial
      iexact HSI)
    (hQ := fun s h c w => (h c).1 w)

/-- THE FRAME: the program runs and its argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c) 0).trans (((dats m 0 c).arrAt_in 0 rfl _).trans (A_eq m c 0))) (run_main m ρ)

end Cert.Kernel.Fr

end
-- ==== Proof.KI.Shared.lean ====
/-
  What the three runs of the kernel body and the frame share: the contents the region finds (`V`: the launch
  contents, @main being the region alone), each window's block at a grid point read off its array (`iblk`), the
  three branch conditions in closed form over the 16 grid points (point n = 8·i + t: column half i, step t), where
  the output window is idle, the staging and scratch memrefs, and the scoped buffers that are no staging buffer
  (the stash and the running minimum and maximum) as owned memrefs.
-/
import proofs.«162028_g63909113364757_feedfinal_307_9_alg».proof.Proof.Gen.KernelIdeal.Launch
import proofs.«162028_g63909113364757_feedfinal_307_9_alg».proof.Proof.Gen.KernelIdeal.Skeleton
import proofs.«162028_g63909113364757_feedfinal_307_9_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered: as launched. -/
abbrev V (c : Dev nD) (b : Ref sig .tc) : Buf (Elt F) ((c : Thread nD τ).loc b) := m ((c : Thread nD τ).loc b)

/-- @main up to the region is the region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The branch conditions over the grid -/

/-- The first branch (step 0 of a column half). -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The second branch (steps 1, 2, 3: the other load steps). -/
abbrev cond0_1 (i : grid0.Coords) : Prop := k0_cond2 i = 1#1
theorem hcond0_1 : ∀ t : Fin cfg0.N, cond0_1 (grid0.coords t) ↔ (1 ≤ t.val % 8 ∧ t.val % 8 ≤ 3) :=
  (by decide +kernel : ∀ t : Fin grid0.N, cond0_1 (grid0.coords t) ↔ (1 ≤ t.val % 8 ∧ t.val % 8 ≤ 3))

/-- The third branch (steps 4 to 7: the store steps). -/
abbrev cond0_2 (i : grid0.Coords) : Prop := k0_cond3 i = 1#1
theorem hcond0_2 : ∀ t : Fin cfg0.N, cond0_2 (grid0.coords t) ↔ 4 ≤ t.val % 8 :=
  (by decide +kernel : ∀ t : Fin grid0.N, cond0_2 (grid0.coords t) ↔ 4 ≤ t.val % 8)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- At a load step the output window is idle and is not written back. -/
theorem idleAt0_2 : ∀ t : Fin cfg0.N, ¬cond0_2 (grid0.coords t) → cfg0.idle 2 (grid0.coords t) = true := by decide +kernel
theorem noFlush0_2 : ∀ t : Fin cfg0.N, ¬cond0_2 (grid0.coords t) → (cfg0.win 2).flush t = false := by decide +kernel
/-- At a store step it is live. -/
theorem liveAt0_2 : ∀ t : Fin cfg0.N, cond0_2 (grid0.coords t) → cfg0.idle 2 (grid0.coords t) = false := by decide +kernel

/-! ## The memrefs the body is called with -/

abbrev ms0_0 (t : Fin cfg0.N) : Memref sig .tc .vmem S4x1x1x1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x1x1024x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x1x1024x512 .f32 := win0_2.stage (cfg0.slots t 2)
abbrev hs0_2 (t : Fin cfg0.N) : (ms0_2 t).IsWhole := hstage0_2 ((cfg0.slots t 2).cast nbuf0_2)
/-- The scratch operands: the stash of bf16 planes, the running column minimum, the running column maximum. -/
abbrev scM0_0 : Memref sig .tc .vmem S16x1024x512 .bf16 := Memref.whole cc0_scratch0
abbrev scM0_1 : Memref sig .tc .vmem S1x512 .f32 := Memref.whole cc0_scratch1
abbrev scM0_2 : Memref sig .tc .vmem S1x512 .f32 := Memref.whole cc0_scratch2

/-- The scoped buffers that are no staging buffer, as the three scratch memrefs owned at some contents. -/
theorem scopedRest0_owns (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d) ∗ (∃ d, owns (c : Thread nD τ) scM0_1 fullShare d) ∗ (∃ d, owns (c : Thread nD τ) scM0_2 fullShare d)) := by
  rw [scopedRest0_eq]; simp only [scM0_0, scM0_1, scM0_2, owns_whole]; try rfl

end Cert.KernelIdeal.Fr

end
-- ==== Proof.KI.Val1.lean ====
/-
  Where the windows' blocks lie in their arrays. Point n = 8·h + s: the first input window's block is planes
  4·min(s,3) to 4·min(s,3)+3 of frame 0, the second's is plane 0 of frame 2, the output's is planes 4·(s−4) to
  4·(s−4)+3, each on columns 512·h to 512·h+511. So an input block read at a block index is the argument array read
  at the corresponding array index.
-/
import proofs.«162028_g63909113364757_feedfinal_307_9_alg».proof.Proof.KI.Shared
import Idealize.ShloMosaic.Lib.ValueIdx
import Idealize.ShloMosaic.Lib.Pipeline.Value

set_option maxRecDepth 65536

noncomputable section

namespace Cert.KernelIdeal.Val

open Idealize.ShloMosaic Idealize.ShloMosaic.TcCoe
open Idealize.SL Idealize.SL.Sem
open Idealize.ShloMosaic.Pipeline (Dat Cfg Window)
open Idealize.ShloMosaic.ValueIdx
open Cert.KernelIdeal Cert.KernelIdeal.Gen Cert.KernelIdeal.Fr

variable (m : (ℓ : Loc nD τ sig) → Buf (Elt Ideal) ℓ)

/-- The argument array as the region finds it. -/
def xin (c : Dev nD) : S16x1x3x1024x1024.Idx → EReal := V m c main_arg0

/-- The printed index maps, decided over the grid. -/
theorem idx_facts : ∀ t : Fin cfg0.N,
    win0_0.index t (0 : Fin 5) = min (t.val % 8) 3 ∧ win0_0.index t (1 : Fin 5) = 0 ∧ win0_0.index t (2 : Fin 5) = 0
    ∧ win0_0.index t (3 : Fin 5) = 0 ∧ win0_0.index t (4 : Fin 5) = t.val / 8
    ∧ win0_1.index t (0 : Fin 5) = 0 ∧ win0_1.index t (1 : Fin 5) = 0 ∧ win0_1.index t (2 : Fin 5) = 2
    ∧ win0_1.index t (3 : Fin 5) = 0 ∧ win0_1.index t (4 : Fin 5) = t.val / 8
    ∧ win0_2.index t (0 : Fin 4) = t.val % 8 - 4 ∧ win0_2.index t (1 : Fin 4) = 0 ∧ win0_2.index t (2 : Fin 4) = 0
    ∧ win0_2.index t (3 : Fin 4) = t.val / 8 :=
  (by decide +kernel : ∀ t : Fin grid0.N,
    win0_0.index t (0 : Fin 5) = min (t.val % 8) 3 ∧ win0_0.index t (1 : Fin 5) = 0 ∧ win0_0.index t (2 : Fin 5) = 0
    ∧ win0_0.index t (3 : Fin 5) = 0 ∧ win0_0.index t (4 : Fin 5) = t.val / 8
    ∧ win0_1.index t (0 : Fin 5) = 0 ∧ win0_1.index t (1 : Fin 5) = 0 ∧ win0_1.index t (2 : Fin 5) = 2
    ∧ win0_1.index t (3 : Fin 5) = 0 ∧ win0_1.index t (4 : Fin 5) = t.val / 8
    ∧ win0_2.index t (0 : Fin 4) = t.val % 8 - 4 ∧ win0_2.index t (1 : Fin 4) = 0 ∧ win0_2.index t (2 : Fin 4) = 0
    ∧ win0_2.index t (3 : Fin 4) = t.val / 8)

/-- The output window is written back exactly at the store steps. -/
theorem flush_iff : ∀ t : Fin cfg0.N, (cfg0.win 2).flush t = true ↔ 4 ≤ t.val % 8 :=
  (by decide +kernel : ∀ t : Fin grid0.N, win0_2.flush t = true ↔ 4 ≤ t.val % 8)

/-- The offsets of a store step's load from the stash: plane 4·(step − 4). -/
theorem hoff2 : ∀ t : Fin cfg0.N, cond0_2 (grid0.coords t) → k0_off2 (grid0.coords t) = ![4 * (t.val % 8 - 4), 0, 0] :=
  (by decide +kernel : ∀ t : Fin grid0.N, cond0_2 (grid0.coords t) → k0_off2 (grid0.coords t) = ![4 * (t.val % 8 - 4), 0, 0])

theorem N16 : cfg0.N = 16 := N_0
theorem tlt (t : Fin cfg0.N) : t.val < 16 := lt_of_lt_of_eq t.isLt N_0

/-- The first input window's block at a block index. -/
theorem iblk0_at (c : Dev nD) (t : Fin cfg0.N) (a : Fin 4) (r : Fin 1024) (l : Fin 512) :
    (iblk m c 0 t : Vec Ideal S4x1x1x1024x512 .f32) (ix5 a (0 : Fin 1) (0 : Fin 1) r l)
      = xin m c (ix5 (⟨4 * min (t.val % 8) 3 + a.val, by omega⟩ : Fin 16) (0 : Fin 1) (0 : Fin 3) r (⟨512 * (t.val / 8) + l.val, by have := tlt t; omega⟩ : Fin 1024)) := by
  obtain ⟨e0, e1, e2, e3, e4, -⟩ := idx_facts t
  show V m c main_arg0 (((cfg0.win 0).blk t).view.emb (ix5 a (0 : Fin 1) (0 : Fin 1) r l)) = _
  unfold xin
  refine congrArg _ ?_
  funext b; apply Fin.ext
  match b with
  | ⟨0, _⟩ => show win0_0.index t (0 : Fin 5) * 4 + 1 * a.val = 4 * min (t.val % 8) 3 + a.val; omega
  | ⟨1, _⟩ => show win0_0.index t (1 : Fin 5) * 1 + 1 * 0 = 0; omega
  | ⟨2, _⟩ => show win0_0.index t (2 : Fin 5) * 1 + 1 * 0 = 0; omega
  | ⟨3, _⟩ => show win0_0.index t (3 : Fin 5) * 1024 + 1 * r.val = r.val; omega
  | ⟨4, _⟩ => show win0_0.index t (4 : Fin 5) * 512 + 1 * l.val = 512 * (t.val / 8) + l.val; omega

/-- The second input window's block at a block index. -/
theorem iblk1_at (c : Dev nD) (t : Fin cfg0.N) (r : Fin 1024) (l : Fin 512) :
    (iblk m c 1 t : Vec Ideal S1x1x1x1024x512 .f32) (ix5 (0 : Fin 1) (0 : Fin 1) (0 : Fin 1) r l)
      = xin m c (ix5 (0 : Fin 16) (0 : Fin 1) (2 : Fin 3) r (⟨512 * (t.val / 8) + l.val, by have := tlt t; omega⟩ : Fin 1024)) := by
  obtain ⟨-, -, -, -, -, e0, e1, e2, e3, e4, -⟩ := idx_facts t
  show V m c main_arg0 (((cfg0.win 1).blk t).view.emb (ix5 (0 : Fin 1) (0 : Fin 1) (0 : Fin 1) r l)) = _
  unfold xin
  refine congrArg _ ?_
  funext b; apply Fin.ext
  match b with
  | ⟨0, _⟩ => show win0_1.index t (0 : Fin 5) * 1 + 1 * 0 = 0; omega
  | ⟨1, _⟩ => show win0_1.index t (1 : Fin 5) * 1 + 1 * 0 = 0; omega
  | ⟨2, _⟩ => show win0_1.index t (2 : Fin 5) * 1 + 1 * 0 = 2; omega
  | ⟨3, _⟩ => show win0_1.index t (3 : Fin 5) * 1024 + 1 * r.val = r.val; omega
  | ⟨4, _⟩ => show win0_1.index t (4 : Fin 5) * 512 + 1 * l.val = 512 * (t.val / 8) + l.val; omega

end Cert.KernelIdeal.Val

end
-- ==== Proof.KI.RunA.lean ====
/-
  The body at the first step of a column half (the first branch alone is taken): on whole memrefs, the two input
  blocks at their contents, the idle output buffer handed back untouched, the three scratch buffers at anything, it
  runs and leaves the stash with two pieces written (plane 0: frame 2 minus frame 0; planes 1 to 3: frame 0) and the
  running minimum and maximum stored whole. The pieces are those the body's stores write.
-/
import proofs.«162028_g63909113364757_feedfinal_307_9_alg».proof.Proof.KI.Shared

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_A (c : Dev nD) (i : grid0.Coords) (arg3 : Memref sig .tc .vmem S4x1x1x1024x512 .f32) (harg3 : arg3.IsWhole) (arg4 : Memref sig .tc .vmem S1x1x1x1024x512 .f32) (harg4 : arg4.IsWhole) (arg5 : Memref sig .tc .vmem S4x1x1024x512 .f32) (harg5 : arg5.IsWhole) (arg6 : Memref sig .tc .vmem S16x1024x512 .bf16) (harg6 : arg6.IsWhole) (arg7 : Memref sig .tc .vmem S1x512 .f32) (harg7 : arg7.IsWhole) (arg8 : Memref sig .tc .vmem S1x512 .f32) (harg8 : arg8.IsWhole) (hc0 : cond0_0 i) (hc1 : ¬cond0_1 i) (hc2 : ¬cond0_2 i)
    (x0 : Vec F S4x1x1x1024x512 .f32) (x1 : Vec F S1x1x1x1024x512 .f32) :
    Σ' (LS0 : List (View.Piece (Elt F) S16x1024x512 .bf16)) (LS1 : List (View.Piece (Elt F) S1x512 .f32)), { LS2 : List (View.Piece (Elt F) S1x512 .f32) //
      ∀ (xi2 : Vec F S4x1x1024x512 .f32) (E : Set ℕ) (K : PUnit → sProp 𝕄),
        iprop(owns (c : Thread nD τ) arg3 fullShare x0 ∗ owns (c : Thread nD τ) arg4 fullShare x1 ∗ owns (c : Thread nD τ) arg5 fullShare xi2
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare xi2
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc0__body i arg3 harg3 arg4 harg4 arg5 harg5 arg6 harg6 arg7 harg7 arg8 harg8) K } := by
  refine ⟨?_, ?_, ?_, fun xi2 E K => ?run⟩
  case run =>
    simp only [cc0__body_eq_skeleton]; unfold cc0__body_skel
    simp only [k0_part1_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HS0]; · iexists _; iexact HS0
    isplitl [HS1]; · iexists _; iexact HS1
    iexists _; iexact HS2

end Cert.KernelIdeal.Fr

end
-- ==== Proof.KI.RunB.lean ====
/-
  The body at a later load step (the second branch alone is taken): the input blocks at their contents, the idle
  output buffer handed back untouched, the stash and the running minimum and maximum at the contents the step before
  left; it leaves the stash with one more piece written over those contents (four planes of frame 0), and the
  minimum and maximum stored whole.
-/
import proofs.«162028_g63909113364757_feedfinal_307_9_alg».proof.Proof.KI.RunA

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_B (c : Dev nD) (i : grid0.Coords) (arg3 : Memref sig .tc .vmem S4x1x1x1024x512 .f32) (harg3 : arg3.IsWhole) (arg4 : Memref sig .tc .vmem S1x1x1x1024x512 .f32) (harg4 : arg4.IsWhole) (arg5 : Memref sig .tc .vmem S4x1x1024x512 .f32) (harg5 : arg5.IsWhole) (arg6 : Memref sig .tc .vmem S16x1024x512 .bf16) (harg6 : arg6.IsWhole) (arg7 : Memref sig .tc .vmem S1x512 .f32) (harg7 : arg7.IsWhole) (arg8 : Memref sig .tc .vmem S1x512 .f32) (harg8 : arg8.IsWhole) (hc0 : ¬cond0_0 i) (hc1 : cond0_1 i) (hc2 : ¬cond0_2 i)
    (x0 : Vec F S4x1x1x1024x512 .f32) (x1 : Vec F S1x1x1x1024x512 .f32)
    (xs1 : Vec F S1x512 .f32) (xs2 : Vec F S1x512 .f32) :
    Σ' (LS0 : List (View.Piece (Elt F) S16x1024x512 .bf16)) (LS1 : List (View.Piece (Elt F) S1x512 .f32)), { LS2 : List (View.Piece (Elt F) S1x512 .f32) //
      ∀ (xi2 : Vec F S4x1x1024x512 .f32) (xs0 : Vec F S16x1024x512 .bf16) (E : Set ℕ) (K : PUnit → sProp 𝕄),
        iprop(owns (c : Thread nD τ) arg3 fullShare x0 ∗ owns (c : Thread nD τ) arg4 fullShare x1 ∗ owns (c : Thread nD τ) arg5 fullShare xi2
            ∗ owns (c : Thread nD τ) arg6 fullShare xs0 ∗ owns (c : Thread nD τ) arg7 fullShare xs1 ∗ owns (c : Thread nD τ) arg8 fullShare xs2
            ∗ (iprop(owns (c : Thread nD τ) arg3 fullShare x0 ∗ owns (c : Thread nD τ) arg4 fullShare x1 ∗ owns (c : Thread nD τ) arg5 fullShare xi2
                ∗ (arg6.view.loc (c : Thread nD τ) ↦[arg6.view.set]{fullShare} arg6.view.writes (Elt F) (harg6.unread xs0) LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc0__body i arg3 harg3 arg4 harg4 arg5 harg5 arg6 harg6 arg7 harg7 arg8 harg8) K } := by
  refine ⟨?_, ?_, ?_, fun xi2 xs0 E K => ?run⟩
  case run =>
    simp only [cc0__body_eq_skeleton]; unfold cc0__body_skel
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg6.eq_unread hfs0; obtain rfl := harg7.eq_unread hfs1; obtain rfl := harg8.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HS0]; · iexact HS0
    isplitl [HS1]; · iexists _; iexact HS1
    iexists _; iexact HS2

end Cert.KernelIdeal.Fr

end
-- ==== Proof.KI.RunC.lean ====
/-
  The body at a store step (the third branch alone is taken): the input blocks, the stash and the final minimum
  and maximum at their contents, the output buffer at anything; it leaves the output buffer with one piece written
  whole (four stashed planes, minus the column minimum, times the reciprocal of the column range), everything else
  as found.
-/
import proofs.«162028_g63909113364757_feedfinal_307_9_alg».proof.Proof.KI.RunB

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_C (c : Dev nD) (i : grid0.Coords) (arg3 : Memref sig .tc .vmem S4x1x1x1024x512 .f32) (harg3 : arg3.IsWhole) (arg4 : Memref sig .tc .vmem S1x1x1x1024x512 .f32) (harg4 : arg4.IsWhole) (arg5 : Memref sig .tc .vmem S4x1x1024x512 .f32) (harg5 : arg5.IsWhole) (arg6 : Memref sig .tc .vmem S16x1024x512 .bf16) (harg6 : arg6.IsWhole) (arg7 : Memref sig .tc .vmem S1x512 .f32) (harg7 : arg7.IsWhole) (arg8 : Memref sig .tc .vmem S1x512 .f32) (harg8 : arg8.IsWhole) (hc0 : ¬cond0_0 i) (hc1 : ¬cond0_1 i) (hc2 : cond0_2 i)
    (x0 : Vec F S4x1x1x1024x512 .f32) (x1 : Vec F S1x1x1x1024x512 .f32)
    (xs0 : Vec F S16x1024x512 .bf16) (xs1 : Vec F S1x512 .f32) (xs2 : Vec F S1x512 .f32) :
    { L2 : List (View.Piece (Elt F) S4x1x1024x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ owns (c : Thread nD τ) arg6 fullShare xs0 ∗ owns (c : Thread nD τ) arg7 fullShare xs1 ∗ owns (c : Thread nD τ) arg8 fullShare xs2
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ owns (c : Thread nD τ) arg6 fullShare xs0 ∗ owns (c : Thread nD τ) arg7 fullShare xs1 ∗ owns (c : Thread nD τ) arg8 fullShare xs2) -∗ K ⟨⟩))
          ⊢ wp frame (wpE (defs₀ (F := F)) Variants.none c none) E (cc0__body i arg3 harg3 arg4 harg4 arg5 harg5 arg6 harg6 arg7 harg7 arg8 harg8) K } := by
  refine ⟨?_, fun E K => ?run⟩
  case run =>
    simp only [cc0__body_eq_skeleton]; unfold cc0__body_skel
    unfold owns
    iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, Hk⟩
    obtain rfl := harg3.eq_unread hf0; obtain rfl := harg4.eq_unread hf1
    obtain rfl := harg6.eq_unread hfs0; obtain rfl := harg7.eq_unread hfs1; obtain rfl := harg8.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [HS0]
    · iexists _; isplitr; · ipureintro; exact harg6.read_unread _
      iexact HS0
    isplitl [HS1]
    · iexists _; isplitr; · ipureintro; exact harg7.read_unread _
      iexact HS1
    iexists _; isplitr; · ipureintro; exact harg8.read_unread _
    iexact HS2

end Cert.KernelIdeal.Fr

end
-- ==== Proof.KI.Frame1.lean ====
/-
  What the scratch buffers and the output buffer hold after each grid point, and the proof data.

  Point n = 8·h + s is step s of column half h. Steps 0 to 3 stash four planes each (step 0: plane 0 as frame 2
  minus frame 0 and planes 1 to 3 as frame 0, in two pieces; steps 1 to 3: frame 0, one piece of four planes) and
  fold the running column minimum and maximum; steps 4 to 7 leave the scratch alone and write four scaled planes
  each. The stash is stored piece by piece over whatever it held, so its contents are tracked by recursion on the
  point from the pieces the body's stores write, and the invariant says that the buffer agrees with them on the planes
  stored so far in the current half (all sixteen from step 3 on).
-/
import proofs.«162028_g63909113364757_feedfinal_307_9_alg».proof.Proof.KI.RunC

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Views through which contents are stated (the choice does not matter where the pieces cover). -/
abbrev VO0_2 : View sig .tc .vmem S4x1x1024x512 .f32 := (Memref.whole cc0_stg2_0 : Memref sig .tc .vmem S4x1x1024x512 .f32).view
abbrev VS0_0 : View sig .tc .vmem S16x1024x512 .bf16 := scM0_0.view
abbrev VS0_1 : View sig .tc .vmem S1x512 .f32 := scM0_1.view
abbrev VS0_2 : View sig .tc .vmem S1x512 .f32 := scM0_2.view

/-! ## Which branch a point takes, from its step -/

theorem caseA (t : Fin cfg0.N) (h : t.val % 8 = 0) :
    cond0_0 (grid0.coords t) ∧ ¬cond0_1 (grid0.coords t) ∧ ¬cond0_2 (grid0.coords t) :=
  ⟨(hcond0_0 t).mpr h, fun hh => by have := (hcond0_1 t).mp hh; omega, fun hh => by have := (hcond0_2 t).mp hh; omega⟩

theorem caseB (t : Fin cfg0.N) (h1 : 1 ≤ t.val % 8) (h2 : t.val % 8 ≤ 3) :
    ¬cond0_0 (grid0.coords t) ∧ cond0_1 (grid0.coords t) ∧ ¬cond0_2 (grid0.coords t) :=
  ⟨fun hh => by have := (hcond0_0 t).mp hh; omega, (hcond0_1 t).mpr ⟨h1, h2⟩, fun hh => by have := (hcond0_2 t).mp hh; omega⟩

theorem caseC (t : Fin cfg0.N) (h : 4 ≤ t.val % 8) :
    ¬cond0_0 (grid0.coords t) ∧ ¬cond0_1 (grid0.coords t) ∧ cond0_2 (grid0.coords t) :=
  ⟨fun hh => by have := (hcond0_0 t).mp hh; omega, fun hh => by have := (hcond0_1 t).mp hh; omega, (hcond0_2 t).mpr h⟩

/-! ## The runs at a point -/

/-- The first-step run at point `t`, on the point's memrefs and input blocks. -/
def runA (c : Dev nD) (t : Fin cfg0.N) (h : t.val % 8 = 0) :=
  kernelRun0_A (F := F) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (caseA t h).1 (caseA t h).2.1 (caseA t h).2.2 (iblk m c 0 t) (iblk m c 1 t)

/-- A later load step's run at point `t`, over the minimum and maximum found. -/
def runB (c : Dev nD) (t : Fin cfg0.N) (h1 : 1 ≤ t.val % 8) (h2 : t.val % 8 ≤ 3) (xs1 xs2 : Vec F S1x512 .f32) :=
  kernelRun0_B (F := F) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (caseB t h1 h2).1 (caseB t h1 h2).2.1 (caseB t h1 h2).2.2 (iblk m c 0 t) (iblk m c 1 t) xs1 xs2

/-- A store step's run at point `t`, over the stash, minimum and maximum found. -/
def runC (c : Dev nD) (t : Fin cfg0.N) (h : 4 ≤ t.val % 8) (xs0 : Vec F S16x1024x512 .bf16) (xs1 xs2 : Vec F S1x512 .f32) :=
  kernelRun0_C (F := F) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (caseC t h).1 (caseC t h).2.1 (caseC t h).2.2 (iblk m c 0 t) (iblk m c 1 t) xs0 xs1 xs2

/-- A store step's one piece covers the output block. -/
theorem coverC (c : Dev nD) (t : Fin cfg0.N) (h : 4 ≤ t.val % 8) (xs0 : Vec F S16x1024x512 .bf16) (xs1 xs2 : Vec F S1x512 .f32)
    (y : S4x1x1024x512.Idx) : ∃ pc ∈ (runC m c t h xs0 xs1 xs2).1, y ∈ pc.1.set :=
  View.cover_of_tiledL (runC m c t h xs0 xs1 xs2).1 S4x1x1024x512.size (by unfold runC; sl_kernel_rfl) y

/-- The minimum's and the maximum's one piece each covers its row, at a first step -/
theorem coverA1 (c : Dev nD) (t : Fin cfg0.N) (h : t.val % 8 = 0) (y : S1x512.Idx) : ∃ pc ∈ (runA m c t h).2.1, y ∈ pc.1.set :=
  View.cover_of_tiledL (runA m c t h).2.1 S1x512.size (by unfold runA; sl_kernel_rfl) y
theorem coverA2 (c : Dev nD) (t : Fin cfg0.N) (h : t.val % 8 = 0) (y : S1x512.Idx) : ∃ pc ∈ (runA m c t h).2.2.1, y ∈ pc.1.set :=
  View.cover_of_tiledL (runA m c t h).2.2.1 S1x512.size (by unfold runA; sl_kernel_rfl) y
/-- and at a later load step. -/
theorem coverB1 (c : Dev nD) (t : Fin cfg0.N) (h1 : 1 ≤ t.val % 8) (h2 : t.val % 8 ≤ 3) (xs1 xs2 : Vec F S1x512 .f32) (y : S1x512.Idx) :
    ∃ pc ∈ (runB m c t h1 h2 xs1 xs2).2.1, y ∈ pc.1.set :=
  View.cover_of_tiledL (runB m c t h1 h2 xs1 xs2).2.1 S1x512.size (by unfold runB; sl_kernel_rfl) y
theorem coverB2 (c : Dev nD) (t : Fin cfg0.N) (h1 : 1 ≤ t.val % 8) (h2 : t.val % 8 ≤ 3) (xs1 xs2 : Vec F S1x512 .f32) (y : S1x512.Idx) :
    ∃ pc ∈ (runB m c t h1 h2 xs1 xs2).2.2.1, y ∈ pc.1.set :=
  View.cover_of_tiledL (runB m c t h1 h2 xs1 xs2).2.2.1 S1x512.size (by unfold runB; sl_kernel_rfl) y

/-! ## The scratch after each point -/

/-- The stash, the running minimum and the running maximum after point `n`. -/
def stateAt (c : Dev nD) : (n : ℕ) → n < cfg0.N → Vec F S16x1024x512 .bf16 × Vec F S1x512 .f32 × Vec F S1x512 .f32
  | 0, hn =>
    (VS0_0.read (Elt F) (VS0_0.writes (Elt F) VS0_0.junk (runA m c ⟨0, hn⟩ (Nat.zero_mod 8)).1),
     VS0_1.read (Elt F) (VS0_1.writes (Elt F) VS0_1.junk (runA m c ⟨0, hn⟩ (Nat.zero_mod 8)).2.1),
     VS0_2.read (Elt F) (VS0_2.writes (Elt F) VS0_2.junk (runA m c ⟨0, hn⟩ (Nat.zero_mod 8)).2.2.1))
  | n + 1, hn =>
    if h0 : (n + 1) % 8 = 0 then
      (VS0_0.read (Elt F) (VS0_0.writes (Elt F) VS0_0.junk (runA m c ⟨n + 1, hn⟩ h0).1),
       VS0_1.read (Elt F) (VS0_1.writes (Elt F) VS0_1.junk (runA m c ⟨n + 1, hn⟩ h0).2.1),
       VS0_2.read (Elt F) (VS0_2.writes (Elt F) VS0_2.junk (runA m c ⟨n + 1, hn⟩ h0).2.2.1))
    else if h1 : (n + 1) % 8 ≤ 3 then
      (VS0_0.read (Elt F) (VS0_0.writes (Elt F) ((Memref.isWhole_whole cc0_scratch0).unread (stateAt c n (Nat.lt_of_succ_lt hn)).1)
          (runB m c ⟨n + 1, hn⟩ (Nat.one_le_iff_ne_zero.mpr h0) h1 (stateAt c n (Nat.lt_of_succ_lt hn)).2.1 (stateAt c n (Nat.lt_of_succ_lt hn)).2.2).1),
       VS0_1.read (Elt F) (VS0_1.writes (Elt F) VS0_1.junk (runB m c ⟨n + 1, hn⟩ (Nat.one_le_iff_ne_zero.mpr h0) h1 (stateAt c n (Nat.lt_of_succ_lt hn)).2.1 (stateAt c n (Nat.lt_of_succ_lt hn)).2.2).2.1),
       VS0_2.read (Elt F) (VS0_2.writes (Elt F) VS0_2.junk (runB m c ⟨n + 1, hn⟩ (Nat.one_le_iff_ne_zero.mpr h0) h1 (stateAt c n (Nat.lt_of_succ_lt hn)).2.1 (stateAt c n (Nat.lt_of_succ_lt hn)).2.2).2.2.1))
    else stateAt c n (Nat.lt_of_succ_lt hn)

/-- What the output buffer holds after point `n`: at a store step the one piece written, over the scratch the step
    before left; at a load step nothing is stored (a placeholder nothing consults: the window is idle there). -/
def out2At (c : Dev nD) (n : ℕ) (hn : n < cfg0.N) : Vec F S4x1x1024x512 .f32 :=
  if h2 : 4 ≤ n % 8 then
    VO0_2.read (Elt F) (VO0_2.writes (Elt F) VO0_2.junk
      (runC m c ⟨n, hn⟩ h2 (stateAt m c (n - 1) (Nat.lt_of_le_of_lt (Nat.sub_le _ _) hn)).1
        (stateAt m c (n - 1) (Nat.lt_of_le_of_lt (Nat.sub_le _ _) hn)).2.1 (stateAt m c (n - 1) (Nat.lt_of_le_of_lt (Nat.sub_le _ _) hn)).2.2).1)
  else VO0_2.read (Elt F) VO0_2.junk

/-- The stash agrees with the tracked contents on the planes stored so far in the current half. -/
def Inv (c : Dev nD) (n : ℕ) (hn : n < cfg0.N) (s : Vec F S16x1024x512 .bf16) : Prop :=
  ∀ y : S16x1024x512.Idx, (y 0).val < 4 * (min (n % 8) 3 + 1) → s y = (stateAt m c n hn).1 y

/-- The region invariant before point `n`: before the first point the scratch buffers at anything; afterwards the
    stash at contents agreeing with the tracked ones where stored, the minimum and maximum at the tracked ones. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(∃ s, ⌜Inv m c n hn s⌝ ∗ owns (c : Thread nD τ) scM0_0 fullShare s
      ∗ owns (c : Thread nD τ) scM0_1 fullShare (stateAt m c n hn).2.1 ∗ owns (c : Thread nD τ) scM0_2 fullShare (stateAt m c n hn).2.2)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(∃ s, ⌜Inv m c n hn s⌝ ∗ owns (c : Thread nD τ) scM0_0 fullShare s
      ∗ owns (c : Thread nD τ) scM0_1 fullShare (stateAt m c n hn).2.1 ∗ owns (c : Thread nD τ) scM0_2 fullShare (stateAt m c n hn).2.2) := rfl

theorem PhiS_pos (c : Dev nD) (n : ℕ) (h : n ≤ cfg0.N) (hz : n ≠ 0) :
    PhiS m c n h = iprop(∃ s, ⌜Inv m c (n - 1) (by omega) s⌝ ∗ owns (c : Thread nD τ) scM0_0 fullShare s
      ∗ owns (c : Thread nD τ) scM0_1 fullShare (stateAt m c (n - 1) (by omega)).2.1 ∗ owns (c : Thread nD τ) scM0_2 fullShare (stateAt m c (n - 1) (by omega)).2.2) := by
  cases n with
  | zero => exact absurd rfl hz
  | succ n => rfl

/-- Whatever the point, the invariant holds each scratch buffer at some contents. -/
theorem PhiS_any (c : Dev nD) (n : ℕ) (h : n ≤ cfg0.N) :
    PhiS m c n h ⊢ iprop((∃ d, owns (c : Thread nD τ) scM0_0 fullShare d) ∗ (∃ d, owns (c : Thread nD τ) scM0_1 fullShare d) ∗ (∃ d, owns (c : Thread nD τ) scM0_2 fullShare d)) := by
  cases n with
  | zero => rw [PhiS_zero m c 0 h rfl, scopedRest0_owns]
  | succ n =>
    rw [PhiS_succ]
    iintro ⟨%s, -, H0, H1, H2⟩
    isplitl [H0]; · iexists _; iexact H0
    isplitl [H1]; · iexists _; iexact H1
    iexists _; iexact H2

/-! ## The proof data -/

/-- The arrays as the region finds them; after the body each input's buffer at its block, the output's at
    `out2At`; the two input windows hold their common array at the two halves of its share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out2At m c t.val t.isLt
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out2At m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

end Cert.KernelIdeal.Fr

end
-- ==== Proof.KI.Frame2.lean ====
/-
  The body obligation: at every grid point the body, called on the point's staging memrefs, runs from the
  invariant before the point to the invariant after it. By the point's step: a first step takes the scratch at
  anything; a later load step overwrites four more planes of the stash, so the planes stored before keep their
  tracked contents; a store step finds all sixteen planes stored, hence the stash at exactly the tracked contents.
-/
import proofs.«162028_g63909113364757_feedfinal_307_9_alg».proof.Proof.KI.Frame1

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tracked scratch, step by step -/

theorem stateAt_A (c : Dev nD) (t : Fin cfg0.N) (h0 : t.val % 8 = 0) :
    stateAt m c t.val t.isLt =
      (VS0_0.read (Elt F) (VS0_0.writes (Elt F) VS0_0.junk (runA m c t h0).1),
       VS0_1.read (Elt F) (VS0_1.writes (Elt F) VS0_1.junk (runA m c t h0).2.1),
       VS0_2.read (Elt F) (VS0_2.writes (Elt F) VS0_2.junk (runA m c t h0).2.2.1)) := by
  obtain ⟨n, hn⟩ := t
  cases n with
  | zero => rfl
  | succ n => exact (dif_pos h0).trans rfl

theorem stateAt_B (c : Dev nD) (t : Fin cfg0.N) (h1 : 1 ≤ t.val % 8) (h2 : t.val % 8 ≤ 3) :
    stateAt m c t.val t.isLt =
      (VS0_0.read (Elt F) (VS0_0.writes (Elt F) ((Memref.isWhole_whole cc0_scratch0).unread (stateAt m c (t.val - 1) (Nat.lt_of_le_of_lt (Nat.sub_le _ _) t.isLt)).1)
          (runB m c t h1 h2 (stateAt m c (t.val - 1) (Nat.lt_of_le_of_lt (Nat.sub_le _ _) t.isLt)).2.1 (stateAt m c (t.val - 1) (Nat.lt_of_le_of_lt (Nat.sub_le _ _) t.isLt)).2.2).1),
       VS0_1.read (Elt F) (VS0_1.writes (Elt F) VS0_1.junk (runB m c t h1 h2 (stateAt m c (t.val - 1) (Nat.lt_of_le_of_lt (Nat.sub_le _ _) t.isLt)).2.1 (stateAt m c (t.val - 1) (Nat.lt_of_le_of_lt (Nat.sub_le _ _) t.isLt)).2.2).2.1),
       VS0_2.read (Elt F) (VS0_2.writes (Elt F) VS0_2.junk (runB m c t h1 h2 (stateAt m c (t.val - 1) (Nat.lt_of_le_of_lt (Nat.sub_le _ _) t.isLt)).2.1 (stateAt m c (t.val - 1) (Nat.lt_of_le_of_lt (Nat.sub_le _ _) t.isLt)).2.2).2.2.1)) := by
  obtain ⟨n, hn⟩ := t
  cases n with
  | zero => exact absurd h1 (by show ¬ 1 ≤ 0 % 8; decide)
  | succ n => exact (dif_neg (by intro h; simp only at h1; omega)).trans ((dif_pos h2).trans rfl)

theorem stateAt_C (c : Dev nD) (t : Fin cfg0.N) (h : 4 ≤ t.val % 8) :
    stateAt m c t.val t.isLt = stateAt m c (t.val - 1) (Nat.lt_of_le_of_lt (Nat.sub_le _ _) t.isLt) := by
  obtain ⟨n, hn⟩ := t
  cases n with
  | zero => exact absurd h (by show ¬ 4 ≤ 0 % 8; decide)
  | succ n => exact (dif_neg (by intro h'; simp only at h; omega)).trans ((dif_neg (by simp only at h; omega)).trans rfl)

theorem out2At_C (c : Dev nD) (t : Fin cfg0.N) (h2 : 4 ≤ t.val % 8) :
    out2At m c t.val t.isLt = VO0_2.read (Elt F) (VO0_2.writes (Elt F) VO0_2.junk
      (runC m c t h2 (stateAt m c (t.val - 1) (Nat.lt_of_le_of_lt (Nat.sub_le _ _) t.isLt)).1
        (stateAt m c (t.val - 1) (Nat.lt_of_le_of_lt (Nat.sub_le _ _) t.isLt)).2.1 (stateAt m c (t.val - 1) (Nat.lt_of_le_of_lt (Nat.sub_le _ _) t.isLt)).2.2).1) :=
  dif_pos h2

/-! ## Where the stash's pieces lie -/

/-- The offsets of a later load step's store: plane 4·step, row 0, column 0. -/
theorem hoff1 : ∀ t : Fin cfg0.N, cond0_1 (grid0.coords t) → k0_off1 (grid0.coords t) = ![4 * (t.val % 8), 0, 0] :=
  (by decide +kernel : ∀ t : Fin grid0.N, cond0_1 (grid0.coords t) → k0_off1 (grid0.coords t) = ![4 * (t.val % 8), 0, 0])

/-- A first step's two pieces cover planes 0 to 3. -/
theorem coverA0 (c : Dev nD) (t : Fin cfg0.N) (h0 : t.val % 8 = 0) (y : S16x1024x512.Idx) (hy : (y 0).val < 4) :
    ∃ pc ∈ (runA m c t h0).1, y ∈ pc.1.set := by
  have h1 : (y 1).val < 1024 := (y 1).isLt
  have h2 : (y 2).val < 512 := (y 2).isLt
  unfold runA kernelRun0_A; dsimp only
  by_cases hz : (y 0).val = 0
  · refine ⟨_, List.mem_cons_of_mem _ (List.mem_singleton_self _), ?_⟩
    dsimp only
    rw [Rect.mem_set_unit]
    intro a
    match a with
    | ⟨0, _⟩ => exact ⟨by show 0 ≤ (y 0).val; omega, by show (y 0).val < 0 + 1; omega⟩
    | ⟨1, _⟩ => exact ⟨by show 0 ≤ (y 1).val; omega, by show (y 1).val < 0 + 1024; omega⟩
    | ⟨2, _⟩ => exact ⟨by show 0 ≤ (y 2).val; omega, by show (y 2).val < 0 + 512; omega⟩
  · refine ⟨_, List.mem_cons_self, ?_⟩
    dsimp only
    rw [Rect.mem_set_unit]
    intro a
    match a with
    | ⟨0, _⟩ => exact ⟨by show 1 ≤ (y 0).val; omega, by show (y 0).val < 1 + 3; omega⟩
    | ⟨1, _⟩ => exact ⟨by show 0 ≤ (y 1).val; omega, by show (y 1).val < 0 + 1024; omega⟩
    | ⟨2, _⟩ => exact ⟨by show 0 ≤ (y 2).val; omega, by show (y 2).val < 0 + 512; omega⟩

/-- A later load step's one piece lies on planes 4·step to 4·step + 3. -/
theorem memB0 (c : Dev nD) (t : Fin cfg0.N) (h1 : 1 ≤ t.val % 8) (h2 : t.val % 8 ≤ 3) (xs1 xs2 : Vec F S1x512 .f32) (y : S16x1024x512.Idx) :
    (∃ pc ∈ (runB m c t h1 h2 xs1 xs2).1, y ∈ pc.1.set) ↔ (4 * (t.val % 8) ≤ (y 0).val ∧ (y 0).val < 4 * (t.val % 8) + 4) := by
  have hy1 : (y 1).val < 1024 := (y 1).isLt
  have hy2 : (y 2).val < 512 := (y 2).isLt
  have ho := hoff1 t (caseB t h1 h2).2.1
  unfold runB kernelRun0_B; dsimp only
  constructor
  · rintro ⟨pc, hp, hy⟩
    obtain rfl := List.mem_singleton.mp hp
    dsimp only at hy
    rw [Rect.mem_set_unit] at hy
    have h0 := hy 0
    rw [ho] at h0; exact h0
  · intro h
    refine ⟨_, List.mem_singleton_self _, ?_⟩
    dsimp only
    rw [Rect.mem_set_unit, ho]
    intro a
    match a with
    | ⟨0, _⟩ => exact h
    | ⟨1, _⟩ => exact ⟨by show 0 ≤ (y 1).val; omega, by show (y 1).val < 0 + 1024; omega⟩
    | ⟨2, _⟩ => exact ⟨by show 0 ≤ (y 2).val; omega, by show (y 2).val < 0 + 512; omega⟩

end Cert.KernelIdeal.Fr

end
-- ==== Proof.KI.Frame2b.lean ====
/-
  The stash invariant through each kind of step: a first step's two pieces cover the first four planes whatever the buffer held; a later load step's piece lies on its own four planes and leaves the planes stored before as they were; at a store step all sixteen planes have been stored.
-/
import proofs.«162028_g63909113364757_feedfinal_307_9_alg».proof.Proof.KI.Frame2

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant, step by step -/

set_option maxHeartbeats 1600000 in
theorem inv_A (c : Dev nD) (t : Fin cfg0.N) (h0 : t.val % 8 = 0) (f : VS0_0.ty.Contents (Elt F)) :
    Inv m c t.val t.isLt (VS0_0.read (Elt F) (VS0_0.writes (Elt F) f (runA m c t h0).1)) := by
  intro y hy
  rw [stateAt_A m c t h0]
  dsimp only
  exact View.read_writes_apply_eq _ _ _ _ y _ (coverA0 m c t h0 y (by rw [h0] at hy; simpa using hy))

set_option maxHeartbeats 1600000 in
theorem inv_B (c : Dev nD) (t : Fin cfg0.N) (h1 : 1 ≤ t.val % 8) (h2 : t.val % 8 ≤ 3) (s : Vec F S16x1024x512 .bf16)
    (hs : Inv m c (t.val - 1) (Nat.lt_of_le_of_lt (Nat.sub_le _ _) t.isLt) s) :
    Inv m c t.val t.isLt (VS0_0.read (Elt F) (VS0_0.writes (Elt F) ((Memref.isWhole_whole cc0_scratch0).unread s)
      (runB m c t h1 h2 (stateAt m c (t.val - 1) (Nat.lt_of_le_of_lt (Nat.sub_le _ _) t.isLt)).2.1 (stateAt m c (t.val - 1) (Nat.lt_of_le_of_lt (Nat.sub_le _ _) t.isLt)).2.2).1)) := by
  intro y hy
  rw [stateAt_B m c t h1 h2]
  dsimp only
  by_cases hc : ∃ pc ∈ (runB m c t h1 h2 (stateAt m c (t.val - 1) (Nat.lt_of_le_of_lt (Nat.sub_le _ _) t.isLt)).2.1 (stateAt m c (t.val - 1) (Nat.lt_of_le_of_lt (Nat.sub_le _ _) t.isLt)).2.2).1, y ∈ pc.1.set
  · exact View.read_writes_apply_eq _ _ _ _ y _ hc
  · have hn : ∀ pc ∈ (runB m c t h1 h2 (stateAt m c (t.val - 1) (Nat.lt_of_le_of_lt (Nat.sub_le _ _) t.isLt)).2.1 (stateAt m c (t.val - 1) (Nat.lt_of_le_of_lt (Nat.sub_le _ _) t.isLt)).2.2).1, y ∉ pc.1.set :=
      fun pc hp hy' => hc ⟨pc, hp, hy'⟩
    rw [View.read_writes_apply_of_forall_not_mem _ _ y _ hn, View.read_writes_apply_of_forall_not_mem _ _ y _ hn,
      (Memref.isWhole_whole cc0_scratch0).read_unread, (Memref.isWhole_whole cc0_scratch0).read_unread]
    refine hs y ?_
    have hm := (memB0 m c t h1 h2 _ _ y).not.mp hc
    have e : (t.val - 1) % 8 = t.val % 8 - 1 := by omega
    rw [e]
    have : min (t.val % 8) 3 = t.val % 8 := by omega
    rw [this] at hy
    have : min (t.val % 8 - 1) 3 = t.val % 8 - 1 := by omega
    rw [this]
    omega

set_option maxHeartbeats 1600000 in
theorem inv_C (c : Dev nD) (t : Fin cfg0.N) (h : 4 ≤ t.val % 8) (s : Vec F S16x1024x512 .bf16)
    (hs : Inv m c (t.val - 1) (Nat.lt_of_le_of_lt (Nat.sub_le _ _) t.isLt) s) :
    s = (stateAt m c (t.val - 1) (Nat.lt_of_le_of_lt (Nat.sub_le _ _) t.isLt)).1 := by
  funext y
  refine hs y ?_
  have hy0 : (y 0).val < 16 := (y 0).isLt
  have : min ((t.val - 1) % 8) 3 = 3 := by omega
  rw [this]; omega

set_option maxHeartbeats 1600000 in
theorem inv_C' (c : Dev nD) (t : Fin cfg0.N) (h : 4 ≤ t.val % 8) :
    Inv m c t.val t.isLt (stateAt m c (t.val - 1) (Nat.lt_of_le_of_lt (Nat.sub_le _ _) t.isLt)).1 := by
  intro y _
  rw [stateAt_C m c t h]

end Cert.KernelIdeal.Fr

end
-- ==== Proof.KI.Pieces.lean ====
/-
  The pieces the body's stores write, spelled out: each store's rectangle and its payload as a function of the point's input
  blocks (a load through the whole-block rectangle at offset zero reads the block itself).
-/
import proofs.«162028_g63909113364757_feedfinal_307_9_alg».proof.Proof.KI.Frame2b
import Idealize.ShloMosaic.Lib.Pipeline.Value

set_option maxRecDepth 65536

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl
theorem hz5 : (![0, 0, 0, 0, 0] : Fin 5 → Nat) = fun _ => 0 := funext fun a => by fin_cases a <;> rfl

/-- A first step's stash pieces: planes 1 to 3 (last written), then plane 0. -/
theorem piecesA0 (c : Dev nD) (t : Fin cfg0.N) (h0 : t.val % 8 = 0) :
    (runA m c t h0).1 =
      [⟨Rect.unit (s := S16x1024x512) ![1, 0, 0] S3x1024x512.size Facts₀.inb_S16x1024x512_S3x1024x512_1_0_0, k0_pay11 (iblk m c 0 t)⟩,
       ⟨Rect.unit (s := S16x1024x512) ![0, 0, 0] S1x1024x512.size Facts₀.inb_S16x1024x512_S1x1024x512_0_0_0, k0_pay10 (iblk m c 0 t) (iblk m c 1 t)⟩] := by
  unfold runA kernelRun0_A; dsimp only; sl_unfold_words
  try simp only [View.readAt_eq_ld, Memref.IsWhole.read_unread, View.ld_unit_zero (S := S4x1x1x1024x512) hz5, View.ld_unit_zero (S := S1x1x1x1024x512) hz5]
  try rfl

theorem piecesA1 (c : Dev nD) (t : Fin cfg0.N) (h0 : t.val % 8 = 0) :
    (runA m c t h0).2.1 =
      [⟨Rect.unit (s := S1x512) ![0, 0] S1x512.size Facts₀.inb_S1x512_S1x512_0_0, k0_pay12 (iblk m c 0 t) (iblk m c 1 t)⟩] := by
  unfold runA kernelRun0_A; dsimp only; sl_unfold_words
  try simp only [View.readAt_eq_ld, Memref.IsWhole.read_unread, View.ld_unit_zero (S := S4x1x1x1024x512) hz5, View.ld_unit_zero (S := S1x1x1x1024x512) hz5]
  try rfl

theorem piecesA2 (c : Dev nD) (t : Fin cfg0.N) (h0 : t.val % 8 = 0) :
    (runA m c t h0).2.2.1 =
      [⟨Rect.unit (s := S1x512) ![0, 0] S1x512.size Facts₀.inb_S1x512_S1x512_0_0, k0_pay1 (k0_pay13 (iblk m c 0 t) (iblk m c 1 t))⟩] := by
  unfold runA kernelRun0_A; dsimp only; sl_unfold_words
  try simp only [View.readAt_eq_ld, Memref.IsWhole.read_unread, View.ld_unit_zero (S := S4x1x1x1024x512) hz5, View.ld_unit_zero (S := S1x1x1x1024x512) hz5]
  try rfl

/-- A later load step's stash piece: four planes at the step's offset. -/
theorem piecesB0 (c : Dev nD) (t : Fin cfg0.N) (h1 : 1 ≤ t.val % 8) (h2 : t.val % 8 ≤ 3) (xs1 xs2 : Vec F S1x512 .f32) :
    (runB m c t h1 h2 xs1 xs2).1 =
      [⟨Rect.unit (s := S16x1024x512) (k0_off1 (grid0.coords t)) S4x1024x512.size (Facts₀.k0_off1_inb (grid0.coords t) (caseB t h1 h2).2.1), k0_pay3 (iblk m c 0 t)⟩] := by
  unfold runB kernelRun0_B; dsimp only
  try simp only [View.readAt_eq_ld, Memref.IsWhole.read_unread, View.ld_unit_zero (S := S4x1x1x1024x512) hz5]
  try rfl

theorem piecesB1 (c : Dev nD) (t : Fin cfg0.N) (h1 : 1 ≤ t.val % 8) (h2 : t.val % 8 ≤ 3) (xs1 xs2 : Vec F S1x512 .f32) :
    (runB m c t h1 h2 xs1 xs2).2.1 =
      [⟨Rect.unit (s := S1x512) ![0, 0] S1x512.size Facts₀.inb_S1x512_S1x512_0_0, k0_pay4 (iblk m c 0 t) xs1⟩] := by
  have e1 : View.read (Elt F) (View.whole cc0_scratch1) ((Memref.isWhole_whole cc0_scratch1).unread xs1) = xs1 :=
    (Memref.isWhole_whole cc0_scratch1).read_unread xs1
  unfold runB kernelRun0_B; dsimp only
  try simp only [View.readAt_eq_ld, Memref.IsWhole.read_unread, e1, View.ld_unit_zero (S := S4x1x1x1024x512) hz5, View.ld_unit_zero (S := S1x512) hz2]
  try rfl

theorem piecesB2 (c : Dev nD) (t : Fin cfg0.N) (h1 : 1 ≤ t.val % 8) (h2 : t.val % 8 ≤ 3) (xs1 xs2 : Vec F S1x512 .f32) :
    (runB m c t h1 h2 xs1 xs2).2.2.1 =
      [⟨Rect.unit (s := S1x512) ![0, 0] S1x512.size Facts₀.inb_S1x512_S1x512_0_0, k0_pay5 (iblk m c 0 t) xs2⟩] := by
  have e2 : View.read (Elt F) (View.whole cc0_scratch2) ((Memref.isWhole_whole cc0_scratch2).unread xs2) = xs2 :=
    (Memref.isWhole_whole cc0_scratch2).read_unread xs2
  unfold runB kernelRun0_B; dsimp only
  try simp only [View.readAt_eq_ld, Memref.IsWhole.read_unread, e2, View.ld_unit_zero (S := S4x1x1x1024x512) hz5, View.ld_unit_zero (S := S1x512) hz2]
  try rfl

/-- A store step's output piece: the whole block, from the four stashed planes at the step's offset. -/
theorem piecesC (c : Dev nD) (t : Fin cfg0.N) (h : 4 ≤ t.val % 8) (xs0 : Vec F S16x1024x512 .bf16) (xs1 xs2 : Vec F S1x512 .f32) :
    (runC m c t h xs0 xs1 xs2).1 =
      [⟨Rect.unit (s := S4x1x1024x512) ![0, 0, 0, 0] S4x1x1024x512.size Facts₀.inb_S4x1x1024x512_S4x1x1024x512_0_0_0_0,
        k0_pay6 (View.ld xs0 (Rect.unit (s := S16x1024x512) (k0_off2 (grid0.coords t)) S4x1024x512.size (Facts₀.k0_off2_inb (grid0.coords t) (caseC t h).2.2))) xs1 xs2⟩] := by
  have e0 : View.read (Elt F) (View.whole cc0_scratch0) ((Memref.isWhole_whole cc0_scratch0).unread xs0) = xs0 :=
    (Memref.isWhole_whole cc0_scratch0).read_unread xs0
  have e1 : View.read (Elt F) (View.whole cc0_scratch1) ((Memref.isWhole_whole cc0_scratch1).unread xs1) = xs1 :=
    (Memref.isWhole_whole cc0_scratch1).read_unread xs1
  have e2 : View.read (Elt F) (View.whole cc0_scratch2) ((Memref.isWhole_whole cc0_scratch2).unread xs2) = xs2 :=
    (Memref.isWhole_whole cc0_scratch2).read_unread xs2
  unfold runC kernelRun0_C; dsimp only
  try simp only [View.readAt_eq_ld, Memref.IsWhole.read_unread, e0, e1, e2, View.ld_unit_zero (S := S1x512) hz2]
  try rfl

end Cert.KernelIdeal.Fr

end
-- ==== Proof.KI.Tracked.lean ====
/-
  The tracked scratch in closed form: after a first step the running minimum and maximum are that step's payloads
  of the two input blocks, after a later load step the fold of the step's block into the values before; a store
  step's output block is the scaling payload of four stashed planes; and the stash, plane by plane: plane 0 of a
  half is the first step's difference payload, planes 1 to 3 its copy payload, planes 4s to 4s+3 step s's copy
  payload, every plane stored before a step keeping its contents through it.
-/
import proofs.«162028_g63909113364757_feedfinal_307_9_alg».proof.Proof.KI.Pieces
import Idealize.ShloMosaic.Lib.ValueIdx

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

theorem mnA_eq (c : Dev nD) (t : Fin cfg0.N) (h0 : t.val % 8 = 0) :
    (stateAt m c t.val t.isLt).2.1 = k0_pay12 (iblk m c 0 t) (iblk m c 1 t) := by
  rw [stateAt_A m c t h0]; dsimp only
  rw [View.read_writes_junk_eq_canon, piecesA1, View.canon_unit_zero hz2]

theorem mxA_eq (c : Dev nD) (t : Fin cfg0.N) (h0 : t.val % 8 = 0) :
    (stateAt m c t.val t.isLt).2.2 = k0_pay1 (k0_pay13 (iblk m c 0 t) (iblk m c 1 t)) := by
  rw [stateAt_A m c t h0]; dsimp only
  rw [View.read_writes_junk_eq_canon, piecesA2, View.canon_unit_zero hz2]

theorem mnB_eq (c : Dev nD) (t : Fin cfg0.N) (h1 : 1 ≤ t.val % 8) (h2 : t.val % 8 ≤ 3) :
    (stateAt m c t.val t.isLt).2.1 = k0_pay4 (iblk m c 0 t) (stateAt m c (t.val - 1) (Nat.lt_of_le_of_lt (Nat.sub_le _ _) t.isLt)).2.1 := by
  rw [stateAt_B m c t h1 h2]; dsimp only
  rw [View.read_writes_junk_eq_canon, piecesB1, View.canon_unit_zero hz2]

theorem mxB_eq (c : Dev nD) (t : Fin cfg0.N) (h1 : 1 ≤ t.val % 8) (h2 : t.val % 8 ≤ 3) :
    (stateAt m c t.val t.isLt).2.2 = k0_pay5 (iblk m c 0 t) (stateAt m c (t.val - 1) (Nat.lt_of_le_of_lt (Nat.sub_le _ _) t.isLt)).2.2 := by
  rw [stateAt_B m c t h1 h2]; dsimp only
  rw [View.read_writes_junk_eq_canon, piecesB2, View.canon_unit_zero hz2]

theorem outC_eq (c : Dev nD) (t : Fin cfg0.N) (h4 : 4 ≤ t.val % 8) :
    out2At m c t.val t.isLt = k0_pay6
      (View.ld (stateAt m c (t.val - 1) (Nat.lt_of_le_of_lt (Nat.sub_le _ _) t.isLt)).1 (Rect.unit (s := S16x1024x512) (k0_off2 (grid0.coords t)) S4x1024x512.size (Facts₀.k0_off2_inb (grid0.coords t) (caseC t h4).2.2)))
      (stateAt m c (t.val - 1) (Nat.lt_of_le_of_lt (Nat.sub_le _ _) t.isLt)).2.1 (stateAt m c (t.val - 1) (Nat.lt_of_le_of_lt (Nat.sub_le _ _) t.isLt)).2.2 := by
  rw [out2At_C m c t h4, View.read_writes_junk_eq_canon, piecesC, View.canon_unit_zero hz4]

/-! ## The stash, plane by plane -/

theorem stA_zero (c : Dev nD) (t : Fin cfg0.N) (h0 : t.val % 8 = 0) (r : Fin 1024) (l : Fin 512) :
    (stateAt m c t.val t.isLt).1 (ix3 (0 : Fin 16) r l) = k0_pay10 (iblk m c 0 t) (iblk m c 1 t) (ix3 (0 : Fin 1) r l) := by
  rw [stateAt_A m c t h0]; dsimp only
  rw [View.read_writes_junk_eq_canon, piecesA0]
  have e : (ix3 (0 : Fin 16) r l : S16x1024x512.Idx)
      = (Rect.unit (s := S16x1024x512) ![0, 0, 0] S1x1024x512.size Facts₀.inb_S16x1024x512_S1x1024x512_0_0_0).emb (ix3 (0 : Fin 1) r l) := by
    funext a; apply Fin.ext
    match a with
    | ⟨0, _⟩ => show 0 = 0 + 1 * 0; rfl
    | ⟨1, _⟩ => show r.val = 0 + 1 * r.val; omega
    | ⟨2, _⟩ => show l.val = 0 + 1 * l.val; omega
  rw [View.canon_cons_of_not_mem _ _ (fun h => by
    dsimp only at h
    rw [Rect.mem_set_unit] at h
    exact Nat.not_succ_le_zero 0 ((h 0).1 : 1 ≤ 0))]
  rw [e]
  exact View.canon_cons_emb _ _ _ _

theorem stA_succ (c : Dev nD) (t : Fin cfg0.N) (h0 : t.val % 8 = 0) (a : Fin 3) (r : Fin 1024) (l : Fin 512) :
    (stateAt m c t.val t.isLt).1 (ix3 (⟨a.val + 1, by omega⟩ : Fin 16) r l) = k0_pay11 (iblk m c 0 t) (ix3 a r l) := by
  rw [stateAt_A m c t h0]; dsimp only
  rw [View.read_writes_junk_eq_canon, piecesA0]
  have e : (ix3 (⟨a.val + 1, by omega⟩ : Fin 16) r l : S16x1024x512.Idx)
      = (Rect.unit (s := S16x1024x512) ![1, 0, 0] S3x1024x512.size Facts₀.inb_S16x1024x512_S3x1024x512_1_0_0).emb (ix3 a r l) := by
    funext b; apply Fin.ext
    match b with
    | ⟨0, _⟩ => show a.val + 1 = 1 + 1 * a.val; omega
    | ⟨1, _⟩ => show r.val = 0 + 1 * r.val; omega
    | ⟨2, _⟩ => show l.val = 0 + 1 * l.val; omega
  rw [e]
  exact View.canon_cons_emb _ _ _ _

theorem stB_new (c : Dev nD) (t : Fin cfg0.N) (h1 : 1 ≤ t.val % 8) (h2 : t.val % 8 ≤ 3) (a : Fin 4) (r : Fin 1024) (l : Fin 512) :
    (stateAt m c t.val t.isLt).1 (ix3 (⟨4 * (t.val % 8) + a.val, by omega⟩ : Fin 16) r l) = k0_pay3 (iblk m c 0 t) (ix3 a r l) := by
  rw [stateAt_B m c t h1 h2]; dsimp only
  rw [piecesB0]
  have ho := hoff1 t (caseB t h1 h2).2.1
  have e : (ix3 (⟨4 * (t.val % 8) + a.val, by omega⟩ : Fin 16) r l : S16x1024x512.Idx)
      = (Rect.unit (s := S16x1024x512) (k0_off1 (grid0.coords t)) S4x1024x512.size (Facts₀.k0_off1_inb (grid0.coords t) (caseB t h1 h2).2.1)).emb (ix3 a r l) := by
    funext b; apply Fin.ext
    match b with
    | ⟨0, _⟩ => show 4 * (t.val % 8) + a.val = k0_off1 (grid0.coords t) 0 + 1 * a.val; rw [ho]; show _ = 4 * (t.val % 8) + 1 * a.val; omega
    | ⟨1, _⟩ => show r.val = k0_off1 (grid0.coords t) 1 + 1 * r.val; rw [ho]; show _ = 0 + 1 * r.val; omega
    | ⟨2, _⟩ => show l.val = k0_off1 (grid0.coords t) 2 + 1 * l.val; rw [ho]; show _ = 0 + 1 * l.val; omega
  rw [e]
  exact View.read_writes_cons_emb _ _ _ _ _ _

theorem stB_old (c : Dev nD) (t : Fin cfg0.N) (h1 : 1 ≤ t.val % 8) (h2 : t.val % 8 ≤ 3) (y : S16x1024x512.Idx) (hy : (y 0).val < 4 * (t.val % 8)) :
    (stateAt m c t.val t.isLt).1 y = (stateAt m c (t.val - 1) (Nat.lt_of_le_of_lt (Nat.sub_le _ _) t.isLt)).1 y := by
  rw [stateAt_B m c t h1 h2]; dsimp only
  rw [View.read_writes_apply_of_forall_not_mem _ _ y _ (fun pc hp hm => by
    have := (memB0 m c t h1 h2 _ _ y).mp ⟨pc, hp, hm⟩; omega), (Memref.isWhole_whole cc0_scratch0).read_unread]

end Cert.KernelIdeal.Fr

end
-- ==== Proof.KPayLoad.lean ====
/-
  The kernel body's stored values, read entry by entry, for the values that only move data:
  a block of four planes of frame 0, flattened to 4096 rows and cast back, is the block itself;
  the first step also forms, for plane 0, the difference of frame 2 and frame 0, and takes the
  block's other three planes as they are. A change of float format is the identity on the
  extended reals, so the stored source is the exact source.
-/
import proofs.«162028_g63909113364757_feedfinal_307_9_alg».proof.Proof.Gen.KernelIdeal.Skeleton
import Idealize.ShloMosaic.Lib.ValueIdx
import Idealize.ShloMosaic.Lib.Pipeline.Value
import Idealize.ShloMosaic.PureOps.Ideal.Laws

noncomputable section

namespace Cert.KPay

open Cert.KernelIdeal Cert.KernelIdeal.Gen Idealize.ShloMosaic Idealize.ShloMosaic.ValueIdx

/-- Row 1024 a + r of a block of four planes flattened to 4096 rows. -/
def row4 (a : Fin 4) (r : Fin 1024) : Fin 4096 := ⟨1024 * a.val + r.val, by omega⟩

/-- Row 1024 a + r of three planes flattened to 3072 rows. -/
def row3 (a : Fin 3) (r : Fin 1024) : Fin 3072 := ⟨1024 * a.val + r.val, by omega⟩

/-- Plane a + 1 of a block of four, for a below 3. -/
def up (a : Fin 3) : Fin 4 := ⟨a.val + 1, by omega⟩

/-- The block with its two unit axes dropped. -/
theorem pay7_at (x0 : Vec Ideal S4x1x1x1024x512 .f32) (a : Fin 4) (r : Fin 1024) (l : Fin 512) :
    k0_pay7 (F := Ideal) x0 (ix3 a r l) = x0 (ix5 a (0 : Fin 1) (0 : Fin 1) r l) := by
  unfold k0_pay7
  refine shapeCast_apply _ _ _ _ ?_
  rw [Shape.rowMajor_val_five, Shape.rowMajor_val_three]
  show ((((a.val * 1 + 0) * 1 + 0) * 1024 + r.val) * 512 + l.val) = (a.val * 1024 + r.val) * 512 + l.val
  omega

/-- The block flattened to 4096 rows: row 1024 a + r is row r of plane a. -/
theorem pay2_at (x0 : Vec Ideal S4x1x1x1024x512 .f32) (a : Fin 4) (r : Fin 1024) (l : Fin 512) :
    k0_pay2 (F := Ideal) x0 (ix2 (row4 a r) l) = x0 (ix5 a (0 : Fin 1) (0 : Fin 1) r l) := by
  unfold k0_pay2
  refine (shapeCast_apply _ _ _ (ix3 a r l) ?_).trans ?_
  · rw [Shape.rowMajor_val_three, Shape.rowMajor_val_two]
    show (a.val * 1024 + r.val) * 512 + l.val = (1024 * a.val + r.val) * 512 + l.val
    omega
  · refine shapeCast_apply _ _ _ _ ?_
    rw [Shape.rowMajor_val_five, Shape.rowMajor_val_three]
    show ((((a.val * 1 + 0) * 1 + 0) * 1024 + r.val) * 512 + l.val) = (a.val * 1024 + r.val) * 512 + l.val
    omega

/-- The stored source of a later step: the block itself. -/
theorem pay3_at (x0 : Vec Ideal S4x1x1x1024x512 .f32) (a : Fin 4) (r : Fin 1024) (l : Fin 512) :
    k0_pay3 (F := Ideal) x0 (ix3 a r l) = x0 (ix5 a (0 : Fin 1) (0 : Fin 1) r l) := by
  unfold k0_pay3
  rw [shapeCast_self]
  refine (shapeCast_apply (k0_pay2 (F := Ideal) x0) _ _ (ix2 (row4 a r) l) ?_).trans (pay2_at x0 a r l)
  rw [Shape.rowMajor_val_two, Shape.rowMajor_val_three]
  show (1024 * a.val + r.val) * 512 + l.val = (a.val * 1024 + r.val) * 512 + l.val
  omega

/-- Plane 0's difference of frame 2 and frame 0. -/
theorem pay8_at (x0 : Vec Ideal S4x1x1x1024x512 .f32) (x1 : Vec Ideal S1x1x1x1024x512 .f32)
    (r : Fin 1024) (l : Fin 512) :
    k0_pay8 (F := Ideal) x0 x1 (ix2 r l)
      = x1 (ix5 (0 : Fin 1) (0 : Fin 1) (0 : Fin 1) r l) - x0 (ix5 (0 : Fin 4) (0 : Fin 1) (0 : Fin 1) r l) := by
  unfold k0_pay8
  refine congrArg₂ (fun u v : EReal => u - v) ?_ ?_
  · refine shapeCast_apply _ _ _ _ ?_
    rw [Shape.rowMajor_val_five, Shape.rowMajor_val_two]
    show ((((0 * 1 + 0) * 1 + 0) * 1024 + r.val) * 512 + l.val) = r.val * 512 + l.val
    omega
  · refine (shapeCast_apply _ _ _ (ix3 (0 : Fin 1) r l) ?_).trans ?_
    · rw [Shape.rowMajor_val_three, Shape.rowMajor_val_two]
      show (0 * 1024 + r.val) * 512 + l.val = r.val * 512 + l.val
      omega
    · refine (extractStridedSlice_apply _ _ _ _ (ix3 (0 : Fin 4) r l) ?_).trans (pay7_at x0 0 r l)
      intro b
      match b with
      | ⟨0, _⟩ => rfl
      | ⟨1, _⟩ => show r.val = 0 + r.val; omega
      | ⟨2, _⟩ => show l.val = 0 + l.val; omega

/-- The block's planes 1 to 3, flattened to 3072 rows. -/
theorem pay9_at (x0 : Vec Ideal S4x1x1x1024x512 .f32) (a : Fin 3) (r : Fin 1024) (l : Fin 512) :
    k0_pay9 (F := Ideal) x0 (ix2 (row3 a r) l) = x0 (ix5 (up a) (0 : Fin 1) (0 : Fin 1) r l) := by
  unfold k0_pay9
  refine (shapeCast_apply _ _ _ (ix3 a r l) ?_).trans ?_
  · rw [Shape.rowMajor_val_three, Shape.rowMajor_val_two]
    show (a.val * 1024 + r.val) * 512 + l.val = (1024 * a.val + r.val) * 512 + l.val
    omega
  · refine (extractStridedSlice_apply _ _ _ _ (ix3 (up a) r l) ?_).trans (pay7_at x0 (up a) r l)
    intro b
    match b with
    | ⟨0, _⟩ => show a.val + 1 = 1 + a.val; omega
    | ⟨1, _⟩ => show r.val = 0 + r.val; omega
    | ⟨2, _⟩ => show l.val = 0 + l.val; omega

/-- The stored source of the first step, plane 0: the difference of frame 2 and frame 0. -/
theorem pay10_at (x0 : Vec Ideal S4x1x1x1024x512 .f32) (x1 : Vec Ideal S1x1x1x1024x512 .f32)
    (r : Fin 1024) (l : Fin 512) :
    k0_pay10 (F := Ideal) x0 x1 (ix3 (0 : Fin 1) r l)
      = x1 (ix5 (0 : Fin 1) (0 : Fin 1) (0 : Fin 1) r l) - x0 (ix5 (0 : Fin 4) (0 : Fin 1) (0 : Fin 1) r l) := by
  unfold k0_pay10
  refine (shapeCast_apply _ _ _ (ix2 r l) ?_).trans (pay8_at x0 x1 r l)
  rw [Shape.rowMajor_val_two, Shape.rowMajor_val_three]
  show r.val * 512 + l.val = (0 * 1024 + r.val) * 512 + l.val
  omega

/-- The stored source of the first step, planes 1 to 3: frame 0 itself. -/
theorem pay11_at (x0 : Vec Ideal S4x1x1x1024x512 .f32) (a : Fin 3) (r : Fin 1024) (l : Fin 512) :
    k0_pay11 (F := Ideal) x0 (ix3 a r l) = x0 (ix5 (up a) (0 : Fin 1) (0 : Fin 1) r l) := by
  unfold k0_pay11
  rw [shapeCast_self]
  refine (shapeCast_apply (k0_pay9 (F := Ideal) x0) _ _ (ix2 (row3 a r) l) ?_).trans (pay9_at x0 a r l)
  rw [Shape.rowMajor_val_two, Shape.rowMajor_val_three]
  show (1024 * a.val + r.val) * 512 + l.val = (a.val * 1024 + r.val) * 512 + l.val
  omega

end Cert.KPay

end
-- ==== Proof.LibMinMax.lean ====
/-
  Minima and maxima over finite index sets in a complete linear order, in the two forms a
  reduction takes: a fold of the binary minimum from the top element is the infimum of the
  family (and dually), and an infimum over the 16384 rows of a flattened stack is the infimum
  over the 16 planes of the infima over each plane's 1024 rows.
-/
import Idealize.ShloMosaic.PureOps.Ideal.Laws
import Mathlib.Order.CompleteLattice.Basic
import Mathlib.Data.Finset.Fold

noncomputable section

namespace Cert.LibMinMax

open Idealize.ShloMosaic

/-- Folding the binary minimum over a whole finite type, from the top element, gives the infimum. -/
theorem fold_min_top {ι : Type} [Fintype ι] {α : Type} [CompleteLinearOrder α] (f : ι → α) :
    (Finset.univ : Finset ι).fold min ⊤ f = ⨅ i, f i := by
  apply le_antisymm
  · exact le_iInf fun i => (Finset.fold_min_le _).2 (Or.inr ⟨i, Finset.mem_univ i, le_rfl⟩)
  · exact (Finset.le_fold_min _).2 ⟨le_top, fun i _ => iInf_le f i⟩

/-- Folding the binary maximum over a whole finite type, from the bottom element, gives the supremum. -/
theorem fold_max_bot {ι : Type} [Fintype ι] {α : Type} [CompleteLinearOrder α] (f : ι → α) :
    (Finset.univ : Finset ι).fold max ⊥ f = ⨆ i, f i := by
  apply le_antisymm
  · exact (Finset.fold_max_le _).2 ⟨bot_le, fun i _ => le_iSup f i⟩
  · exact iSup_le fun i => (Finset.le_fold_max _).2 (Or.inr ⟨i, Finset.mem_univ i, le_rfl⟩)

/-- The extended reals' minimum fold, with the ideal instance's minimum as the operation. -/
theorem fold_minimumf_top {ι : Type} [Fintype ι] (f : ι → EReal) :
    (Finset.univ : Finset ι).fold (FloatOps.minimumf (F := Ideal) (φ := .f32)) ⊤ f = ⨅ i, f i :=
  fold_min_top f

/-- The extended reals' maximum fold, with the ideal instance's maximum as the operation. -/
theorem fold_maximumf_bot {ι : Type} [Fintype ι] (f : ι → EReal) :
    (Finset.univ : Finset ι).fold (FloatOps.maximumf (F := Ideal) (φ := .f32)) ⊥ f = ⨆ i, f i :=
  fold_max_bot f

/-- Row 1024 p + r of the flattened stack is row r of plane p. -/
def row (p : Fin 16) (r : Fin 1024) : Fin 16384 := ⟨1024 * p.val + r.val, by omega⟩

theorem row_val (p : Fin 16) (r : Fin 1024) : (row p r).val = 1024 * p.val + r.val := rfl

/-- Planes and rows against the rows of the flattened stack. -/
def rowEquiv : Fin 16 × Fin 1024 ≃ Fin 16384 where
  toFun q := row q.1 q.2
  invFun k := (⟨k.val / 1024, by omega⟩, ⟨k.val % 1024, by omega⟩)
  left_inv q := by
    obtain ⟨p, r⟩ := q
    apply Prod.ext
    · apply Fin.ext; show (1024 * p.val + r.val) / 1024 = p.val; omega
    · apply Fin.ext; show (1024 * p.val + r.val) % 1024 = r.val; omega
  right_inv k := by
    apply Fin.ext; show 1024 * (k.val / 1024) + k.val % 1024 = k.val; omega

/-- An infimum over the flattened rows is the infimum over planes of the infima over rows. -/
theorem iInf_rows {α : Type} [CompleteLattice α] (f : Fin 16384 → α) :
    ⨅ k, f k = ⨅ p : Fin 16, ⨅ r : Fin 1024, f (row p r) := by
  rw [← rowEquiv.iInf_comp (g := f), iInf_prod]
  rfl

/-- A supremum over the flattened rows is the supremum over planes of the suprema over rows. -/
theorem iSup_rows {α : Type} [CompleteLattice α] (f : Fin 16384 → α) :
    ⨆ k, f k = ⨆ p : Fin 16, ⨆ r : Fin 1024, f (row p r) := by
  rw [← rowEquiv.iSup_comp (g := f), iSup_prod]
  rfl

end Cert.LibMinMax

end
-- ==== Proof.KPayMinMax.lean ====
/-
  The kernel body's running column minima and maxima, read entry by entry. A reduction of a
  block over its rows, from +inf by minimum or from -inf by maximum, is the infimum or supremum
  of the column over the block's rows; a block of m planes flattened to 1024 m rows has row
  1024 a + r for row r of plane a, so that extremum is the extremum over planes and rows. Each
  step combines the block's extremum with the running one by the binary minimum or maximum.
-/
import proofs.«162028_g63909113364757_feedfinal_307_9_alg».proof.Proof.KPayLoad
import proofs.«162028_g63909113364757_feedfinal_307_9_alg».proof.Proof.LibMinMax

noncomputable section

namespace Cert.KPay

open Cert.KernelIdeal Cert.KernelIdeal.Gen Idealize.ShloMosaic Idealize.ShloMosaic.ValueIdx Cert.LibMinMax

/-- A minimum reduction over one axis is the fold of the binary minimum over that axis's coordinates. -/
theorem multiReduction_minimumf_single {φ : FTy} {s t : Shape} {a : Fin s.rank} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The source index over column l with k on the reduced row axis is (k, l). -/
theorem lift_rows {n : Nat} (h : (⟨2, ![n, 512]⟩ : Shape).Reduces [0] ⟨1, ![512]⟩) (l : Fin 512) (k : Fin n) :
    h.lift (ix1 l) k = ix2 k l := by
  funext b
  apply Fin.ext
  match b with
  | ⟨0, _⟩ => rfl
  | ⟨1, _⟩ => rfl

/-- The column minimum of an n × 512 array, reduced from +inf, is the infimum over its rows. -/
theorem colMin {n : Nat} (src : FVec Ideal ⟨2, ![n, 512]⟩ .f32)
    (h : (⟨2, ![n, 512]⟩ : Shape).Reduces [0] ⟨1, ![512]⟩) (l : Fin 512) :
    multiReduction (F := Ideal) .minimumf [0] ⟨1, ![512]⟩ src 0x7F800000#32 h (.inl rfl) rfl (ix1 l)
      = ⨅ k : Fin n, src (ix2 k l) := by
  refine (multiReduction_minimumf_single src _ h _ _ (ix1 l)).trans ?_
  have e : FloatOps.ofBits (F := Ideal) .f32 0x7F800000#32 = ⊤ := by
    show Ideal.ofBits .f32 0x7F800000#32 = ⊤; simp [Ideal.ofBits, Ideal.ieee]
  rw [e]
  refine (fold_min_top (ι := Fin n) (fun k => src (h.lift (ix1 l) k))).trans ?_
  simp only [lift_rows]

/-- The column maximum of an n × 512 array, reduced from -inf, is the supremum over its rows. -/
theorem colMax {n : Nat} (src : FVec Ideal ⟨2, ![n, 512]⟩ .f32)
    (h : (⟨2, ![n, 512]⟩ : Shape).Reduces [0] ⟨1, ![512]⟩) (l : Fin 512) :
    multiReduction (F := Ideal) .maximumf [0] ⟨1, ![512]⟩ src 0xFF800000#32 h (.inl rfl) rfl (ix1 l)
      = ⨆ k : Fin n, src (ix2 k l) := by
  refine (Ideal.multiReduction_maximumf_single src _ h _ _ (ix1 l)).trans ?_
  have e : FloatOps.ofBits (F := Ideal) .f32 0xFF800000#32 = ⊥ := by
    show Ideal.ofBits .f32 0xFF800000#32 = ⊥; simp [Ideal.ofBits, Ideal.ieee]
  rw [e]
  refine (fold_max_bot (ι := Fin n) (fun k => src (h.lift (ix1 l) k))).trans ?_
  simp only [lift_rows]

/-- Planes and rows against the 4096 rows of a flattened block of four planes. -/
def rowEquiv4 : Fin 4 × Fin 1024 ≃ Fin 4096 where
  toFun q := row4 q.1 q.2
  invFun k := (⟨k.val / 1024, by omega⟩, ⟨k.val % 1024, by omega⟩)
  left_inv q := by
    obtain ⟨a, r⟩ := q
    apply Prod.ext
    · apply Fin.ext; show (1024 * a.val + r.val) / 1024 = a.val; omega
    · apply Fin.ext; show (1024 * a.val + r.val) % 1024 = r.val; omega
  right_inv k := by
    apply Fin.ext; show 1024 * (k.val / 1024) + k.val % 1024 = k.val; omega

/-- Planes and rows against the 3072 rows of three flattened planes. -/
def rowEquiv3 : Fin 3 × Fin 1024 ≃ Fin 3072 where
  toFun q := row3 q.1 q.2
  invFun k := (⟨k.val / 1024, by omega⟩, ⟨k.val % 1024, by omega⟩)
  left_inv q := by
    obtain ⟨a, r⟩ := q
    apply Prod.ext
    · apply Fin.ext; show (1024 * a.val + r.val) / 1024 = a.val; omega
    · apply Fin.ext; show (1024 * a.val + r.val) % 1024 = r.val; omega
  right_inv k := by
    apply Fin.ext; show 1024 * (k.val / 1024) + k.val % 1024 = k.val; omega

theorem iInf_rows4 {α : Type} [CompleteLattice α] (f : Fin 4096 → α) :
    ⨅ k, f k = ⨅ a : Fin 4, ⨅ r : Fin 1024, f (row4 a r) := by
  rw [← rowEquiv4.iInf_comp (g := f), iInf_prod]; rfl

theorem iSup_rows4 {α : Type} [CompleteLattice α] (f : Fin 4096 → α) :
    ⨆ k, f k = ⨆ a : Fin 4, ⨆ r : Fin 1024, f (row4 a r) := by
  rw [← rowEquiv4.iSup_comp (g := f), iSup_prod]; rfl

theorem iInf_rows3 {α : Type} [CompleteLattice α] (f : Fin 3072 → α) :
    ⨅ k, f k = ⨅ a : Fin 3, ⨅ r : Fin 1024, f (row3 a r) := by
  rw [← rowEquiv3.iInf_comp (g := f), iInf_prod]; rfl

theorem iSup_rows3 {α : Type} [CompleteLattice α] (f : Fin 3072 → α) :
    ⨆ k, f k = ⨆ a : Fin 3, ⨆ r : Fin 1024, f (row3 a r) := by
  rw [← rowEquiv3.iSup_comp (g := f), iSup_prod]; rfl

/-- A row vector of 512 entries made from a vector of 512 entries. -/
theorem cast_row (v : FVec Ideal S512 .f32) (l : Fin 512) :
    shapeCast S1x512 v shapeCasts_S512_S1x512 (ix2 (0 : Fin 1) l) = v (ix1 l) := by
  refine shapeCast_apply _ _ _ _ ?_
  rw [Shape.rowMajor_val_one, Shape.rowMajor_val_two]
  show l.val = 0 * 512 + l.val
  omega

end Cert.KPay

end
-- ==== Proof.KPayFirst.lean ====
/-
  The first step's running column minimum and maximum: over plane 0's differences of frame 2
  and frame 0, and over frame 0 of planes 1 to 3.
-/
import proofs.«162028_g63909113364757_feedfinal_307_9_alg».proof.Proof.KPayMinMax

noncomputable section

namespace Cert.KPay

open Cert.KernelIdeal Cert.KernelIdeal.Gen Idealize.ShloMosaic Idealize.ShloMosaic.ValueIdx Cert.LibMinMax

/-- The first step's running minimum: plane 0's differences and frame 0 of planes 1 to 3. -/
theorem pay12_at (x0 : Vec Ideal S4x1x1x1024x512 .f32) (x1 : Vec Ideal S1x1x1x1024x512 .f32) (l : Fin 512) :
    k0_pay12 (F := Ideal) x0 x1 (ix2 (0 : Fin 1) l)
      = min (⨅ r : Fin 1024, (x1 (ix5 (0 : Fin 1) (0 : Fin 1) (0 : Fin 1) r l)
                              - x0 (ix5 (0 : Fin 4) (0 : Fin 1) (0 : Fin 1) r l)))
          (⨅ a : Fin 3, ⨅ r : Fin 1024, x0 (ix5 (up a) (0 : Fin 1) (0 : Fin 1) r l)) := by
  unfold k0_pay12
  rw [shapeCast_self]
  refine congrArg₂ (fun u v : EReal => min u v) ?_ ?_
  · refine (cast_row _ l).trans ((colMin (k0_pay8 (F := Ideal) x0 x1) reduces_S1024x512_S512 l).trans ?_)
    simp only [pay8_at]
  · refine (cast_row _ l).trans ((colMin (k0_pay9 (F := Ideal) x0) reduces_S3072x512_S512 l).trans ?_)
    rw [iInf_rows3]
    simp only [pay9_at]

/-- The first step's running maximum. -/
theorem pay13_at (x0 : Vec Ideal S4x1x1x1024x512 .f32) (x1 : Vec Ideal S1x1x1x1024x512 .f32) (l : Fin 512) :
    k0_pay13 (F := Ideal) x0 x1 (ix2 (0 : Fin 1) l)
      = max (⨆ r : Fin 1024, (x1 (ix5 (0 : Fin 1) (0 : Fin 1) (0 : Fin 1) r l)
                              - x0 (ix5 (0 : Fin 4) (0 : Fin 1) (0 : Fin 1) r l)))
          (⨆ a : Fin 3, ⨆ r : Fin 1024, x0 (ix5 (up a) (0 : Fin 1) (0 : Fin 1) r l)) := by
  unfold k0_pay13
  refine congrArg₂ (fun u v : EReal => max u v) ?_ ?_
  · refine (cast_row _ l).trans ((colMax (k0_pay8 (F := Ideal) x0 x1) reduces_S1024x512_S512 l).trans ?_)
    simp only [pay8_at]
  · refine (cast_row _ l).trans ((colMax (k0_pay9 (F := Ideal) x0) reduces_S3072x512_S512 l).trans ?_)
    rw [iSup_rows3]
    simp only [pay9_at]

/-- The value stored as the first running maximum is the value handed over. -/
theorem pay1_eq (v : FVec Ideal S1x512 .f32) : k0_pay1 (F := Ideal) v = v := by
  unfold k0_pay1
  exact shapeCast_self _ _

theorem pay1_at (x0 : Vec Ideal S4x1x1x1024x512 .f32) (x1 : Vec Ideal S1x1x1x1024x512 .f32) (l : Fin 512) :
    k0_pay1 (F := Ideal) (k0_pay13 (F := Ideal) x0 x1) (ix2 (0 : Fin 1) l)
      = max (⨆ r : Fin 1024, (x1 (ix5 (0 : Fin 1) (0 : Fin 1) (0 : Fin 1) r l)
                              - x0 (ix5 (0 : Fin 4) (0 : Fin 1) (0 : Fin 1) r l)))
          (⨆ a : Fin 3, ⨆ r : Fin 1024, x0 (ix5 (up a) (0 : Fin 1) (0 : Fin 1) r l)) := by
  rw [pay1_eq]; exact pay13_at x0 x1 l

end Cert.KPay

end
-- ==== Proof.KPayLater.lean ====
/-
  A later step's running column minimum and maximum: the running value against the extremum
  of frame 0 over the step's block of four planes.
-/
import proofs.«162028_g63909113364757_feedfinal_307_9_alg».proof.Proof.KPayMinMax

noncomputable section

namespace Cert.KPay

open Cert.KernelIdeal Cert.KernelIdeal.Gen Idealize.ShloMosaic Idealize.ShloMosaic.ValueIdx Cert.LibMinMax

/-- A later step's running minimum: the running one against the block's. -/
theorem pay4_at (x0 : Vec Ideal S4x1x1x1024x512 .f32) (v : Vec Ideal S1x512 .f32) (l : Fin 512) :
    k0_pay4 (F := Ideal) x0 v (ix2 (0 : Fin 1) l)
      = min (v (ix2 (0 : Fin 1) l))
          (⨅ a : Fin 4, ⨅ r : Fin 1024, x0 (ix5 a (0 : Fin 1) (0 : Fin 1) r l)) := by
  unfold k0_pay4
  rw [shapeCast_self]
  refine congrArg₂ (fun u w : EReal => min u w) rfl ?_
  refine (cast_row _ l).trans ((colMin (k0_pay2 (F := Ideal) x0) reduces_S4096x512_S512 l).trans ?_)
  rw [iInf_rows4]
  simp only [pay2_at]

/-- A later step's running maximum. -/
theorem pay5_at (x0 : Vec Ideal S4x1x1x1024x512 .f32) (v : Vec Ideal S1x512 .f32) (l : Fin 512) :
    k0_pay5 (F := Ideal) x0 v (ix2 (0 : Fin 1) l)
      = max (v (ix2 (0 : Fin 1) l))
          (⨆ a : Fin 4, ⨆ r : Fin 1024, x0 (ix5 a (0 : Fin 1) (0 : Fin 1) r l)) := by
  unfold k0_pay5
  rw [shapeCast_self]
  refine congrArg₂ (fun u w : EReal => max u w) rfl ?_
  refine (cast_row _ l).trans ((colMax (k0_pay2 (F := Ideal) x0) reduces_S4096x512_S512 l).trans ?_)
  rw [iSup_rows4]
  simp only [pay2_at]

end Cert.KPay

end
-- ==== Proof.Spec.lean ====
/-
  The specification of the column-wise min-max scaling, as one function of the input array, and
  the laws of the extended reals that the two programs' arrangements differ by.

  The input is a stack of 16 planes, one channel, three frames of 1024 × 1024 values. The scaled
  source is, on plane 0, the difference of frame 2 and frame 0, and on every other plane frame 0
  itself. Each of the 1024 columns is scaled by its own minimum and maximum taken over all planes
  and rows: an entry becomes (entry − column minimum) / (column range), with a range of zero
  replaced by one. One side divides by the range; the other multiplies by the quotient of one by
  the range. The replaced range is never zero, so in the extended reals both are the product with
  the inverse of the range, and they agree with no finiteness assumption at all.
-/
import Idealize.ShloMosaic.PureOps.Ideal.Laws
import Idealize.ShloMosaic.Lib.ValueIdx
import Mathlib.Order.ConditionallyCompleteLattice.Finset

noncomputable section

namespace Cert.Spec

open Idealize.ShloMosaic Idealize.ShloMosaic.ValueIdx

/-- The input's shape: planes, channel, frames, rows, columns. -/
abbrev XS : Shape := ⟨5, ![16, 1, 3, 1024, 1024]⟩
/-- The result's shape: planes, channel, rows, columns. -/
abbrev YS : Shape := ⟨4, ![16, 1, 1024, 1024]⟩

/-- The pattern of 1.0 denotes one. -/
theorem one_word : Ideal.ofBits .f32 0x3F800000#32 = 1 := by
  simp [Ideal.ofBits, Ideal.ieee, -EReal.coe_mul]; norm_num

/-- The pattern of +0.0 denotes zero. -/
theorem zero_word : Ideal.ofBits .f32 0x00000000#32 = 0 := Ideal.ofBits_zero_f32

/-- The pattern of +inf denotes the top element. -/
theorem top_word : Ideal.ofBits .f32 0x7F800000#32 = ⊤ := by simp [Ideal.ofBits, Ideal.ieee]

/-- The pattern of -inf denotes the bottom element. -/
theorem bot_word : Ideal.ofBits .f32 0xFF800000#32 = ⊥ := by simp [Ideal.ofBits, Ideal.ieee]

/-- The scaled source at plane p, row r, column c: on plane 0 the difference of frames 2 and 0,
    on the other planes frame 0. -/
def sout (x : XS.Idx → EReal) (p : Fin 16) (r c : Fin 1024) : EReal :=
  if p = 0 then
    x (ix5 (0 : Fin 16) (0 : Fin 1) (2 : Fin 3) r c) - x (ix5 (0 : Fin 16) (0 : Fin 1) (0 : Fin 3) r c)
  else x (ix5 p (0 : Fin 1) (0 : Fin 3) r c)

theorem sout_zero (x : XS.Idx → EReal) (r c : Fin 1024) :
    sout x 0 r c
      = x (ix5 (0 : Fin 16) (0 : Fin 1) (2 : Fin 3) r c) - x (ix5 (0 : Fin 16) (0 : Fin 1) (0 : Fin 3) r c) :=
  if_pos rfl

theorem sout_of_ne (x : XS.Idx → EReal) {p : Fin 16} (hp : p ≠ 0) (r c : Fin 1024) :
    sout x p r c = x (ix5 p (0 : Fin 1) (0 : Fin 3) r c) := if_neg hp

/-- The minimum of column c over all planes and rows. -/
def mn (x : XS.Idx → EReal) (c : Fin 1024) : EReal := ⨅ p : Fin 16, ⨅ r : Fin 1024, sout x p r c

/-- The maximum of column c over all planes and rows. -/
def mx (x : XS.Idx → EReal) (c : Fin 1024) : EReal := ⨆ p : Fin 16, ⨆ r : Fin 1024, sout x p r c

/-- A range with zero replaced by one. -/
def fix (g : EReal) : EReal := if g = 0 then 1 else g

/-- The divisor of column c: its range, or one where the range is zero. -/
def den (x : XS.Idx → EReal) (c : Fin 1024) : EReal := fix (mx x c - mn x c)

theorem fix_ne_zero (g : EReal) : fix g ≠ 0 := by
  unfold fix
  split
  · exact one_ne_zero
  · assumption

/-- The divisor is never zero. -/
theorem den_ne_zero (x : XS.Idx → EReal) (c : Fin 1024) : den x c ≠ 0 := fix_ne_zero _

/-- The comparison with the zero word and the selection of the one word, as both programs spell
    them, are the replacement of a zero range by one. -/
theorem select_cmp_eq_fix (g : EReal) :
    Scalar.select (Ideal.cmp .oeq g (Ideal.ofBits .f32 0x00000000#32)) (Ideal.ofBits .f32 0x3F800000#32) g
      = fix g := by
  rw [zero_word, one_word]
  unfold fix Scalar.select Ideal.cmp
  by_cases h : g = 0
  · simp [h]
  · simp [h]

/-- The same with the instance's own comparison. -/
theorem select_cmpf_eq_fix (g : Ideal .f32) :
    Scalar.select (FloatOps.cmpf (F := Ideal) .oeq g (FloatOps.ofBits (F := Ideal) .f32 0x00000000#32))
        (FloatOps.ofBits (F := Ideal) .f32 0x3F800000#32) g
      = fix g := select_cmp_eq_fix g

/-- The scaled array, entry by entry: the source less its column's minimum, divided by the
    column's divisor. -/
def G (x : XS.Idx → EReal) : YS.Idx → EReal := fun j =>
  Ideal.div (sout x (j 0) (j 2) (j 3) - mn x (j 3)) (den x (j 3))

theorem G_apply (x : XS.Idx → EReal) (p : Fin 16) (r c : Fin 1024) :
    G x (ix4 p (0 : Fin 1) r c) = Ideal.div (sout x p r c - mn x c) (den x c) := rfl

/-- Division by a nonzero divisor is the product with its inverse. -/
theorem div_of_ne_zero (a d : EReal) (hd : d ≠ 0) : Ideal.div a d = a * d⁻¹ := by
  unfold Ideal.div; rw [if_neg hd]

/-- Multiplying by the quotient of the one word by a nonzero divisor is dividing by it. -/
theorem mul_div_one_word (a d : EReal) (hd : d ≠ 0) :
    a * Ideal.div (Ideal.ofBits .f32 0x3F800000#32) d = Ideal.div a d := by
  rw [one_word, div_of_ne_zero _ _ hd, div_of_ne_zero _ _ hd, one_mul]

/-- The law joining the two programs: the product with the reciprocal of the divisor is the
    specification's quotient. It holds for every input, finite or not. -/
theorem scale_eq (x : XS.Idx → EReal) (p : Fin 16) (r c : Fin 1024) :
    (sout x p r c - mn x c) * Ideal.div (Ideal.ofBits .f32 0x3F800000#32) (den x c)
      = G x (ix4 p (0 : Fin 1) r c) :=
  mul_div_one_word _ _ (den_ne_zero x c)

/-- The column minimum is attained (a minimum over finitely many entries). -/
theorem mn_attained (x : XS.Idx → EReal) (c : Fin 1024) : ∃ (p : Fin 16) (r : Fin 1024), sout x p r c = mn x c := by
  obtain ⟨p, hp⟩ := exists_eq_ciInf_of_finite (f := fun p : Fin 16 => ⨅ r : Fin 1024, sout x p r c)
  obtain ⟨r, hr⟩ := exists_eq_ciInf_of_finite (f := fun r : Fin 1024 => sout x p r c)
  exact ⟨p, r, hr.trans hp⟩

theorem mx_attained (x : XS.Idx → EReal) (c : Fin 1024) : ∃ (p : Fin 16) (r : Fin 1024), sout x p r c = mx x c := by
  obtain ⟨p, hp⟩ := exists_eq_ciSup_of_finite (f := fun p : Fin 16 => ⨆ r : Fin 1024, sout x p r c)
  obtain ⟨r, hr⟩ := exists_eq_ciSup_of_finite (f := fun r : Fin 1024 => sout x p r c)
  exact ⟨p, r, hr.trans hp⟩

/-! ## Under finiteness every quantity is a real number -/

section Finite

variable {x : XS.Idx → EReal} (hfin : ∀ i, ∃ r : ℝ, x i = (r : EReal))
include hfin

theorem sout_real (p : Fin 16) (r c : Fin 1024) : ∃ s : ℝ, sout x p r c = (s : EReal) := by
  unfold sout
  split
  · obtain ⟨a, ha⟩ := hfin (ix5 (0 : Fin 16) (0 : Fin 1) (2 : Fin 3) r c)
    obtain ⟨b, hb⟩ := hfin (ix5 (0 : Fin 16) (0 : Fin 1) (0 : Fin 3) r c)
    exact ⟨a - b, by rw [ha, hb, EReal.coe_sub]⟩
  · exact hfin _

theorem mn_real (c : Fin 1024) : ∃ s : ℝ, mn x c = (s : EReal) := by
  obtain ⟨p, r, h⟩ := mn_attained x c
  rw [← h]; exact sout_real hfin p r c

theorem mx_real (c : Fin 1024) : ∃ s : ℝ, mx x c = (s : EReal) := by
  obtain ⟨p, r, h⟩ := mx_attained x c
  rw [← h]; exact sout_real hfin p r c

/-- The divisor is a nonzero real number. -/
theorem den_real_ne_zero (c : Fin 1024) : ∃ d : ℝ, d ≠ 0 ∧ den x c = (d : EReal) := by
  obtain ⟨a, ha⟩ := mx_real hfin c
  obtain ⟨b, hb⟩ := mn_real hfin c
  unfold den fix
  rw [ha, hb, ← EReal.coe_sub]
  by_cases h : ((a - b : ℝ) : EReal) = 0
  · rw [if_pos h]; exact ⟨1, one_ne_zero, rfl⟩
  · rw [if_neg h]; exact ⟨a - b, fun h0 => h (by rw [h0]; rfl), rfl⟩

end Finite

end Cert.Spec

end
-- ==== Proof.KPayOut.lean ====
/-
  The kernel body's scaled block, read entry by entry: the stored source less the running
  minimum of its column, times the quotient of one by the column's range, a range of zero
  replaced by one. The minimum and the quotient are row vectors copied to every plane and row.
-/
import proofs.«162028_g63909113364757_feedfinal_307_9_alg».proof.Proof.Gen.KernelIdeal.Skeleton
import proofs.«162028_g63909113364757_feedfinal_307_9_alg».proof.Proof.Spec
import Idealize.ShloMosaic.Lib.ValueIdx
import Idealize.ShloMosaic.Lib.Pipeline.Value
import Idealize.ShloMosaic.PureOps.Ideal.Laws

noncomputable section

namespace Cert.KPay

open Cert.KernelIdeal Cert.KernelIdeal.Gen Idealize.ShloMosaic Idealize.ShloMosaic.ValueIdx

/-- A row vector with a unit axis added and copied to every plane and row, read at an entry. -/
theorem bcast_row (v : FVec Ideal S1x512 .f32) (a : Fin 4) (r : Fin 1024) (l : Fin 512) :
    broadcastTo S4x1024x512 (shapeCast S1x1x512 v shapeCasts_S1x512_S1x1x512) broadcasts_S1x1x512_S4x1024x512
        (ix3 a r l) = v (ix2 (0 : Fin 1) l) := by
  refine (broadcastTo_apply _ _ _ (ix3 (0 : Fin 1) (0 : Fin 1) l) ?_).trans ?_
  · intro b
    match b with
    | ⟨0, _⟩ => rfl
    | ⟨1, _⟩ => rfl
    | ⟨2, _⟩ => rfl
  · refine shapeCast_apply _ _ _ _ ?_
    rw [Shape.rowMajor_val_two, Shape.rowMajor_val_three]
    show 0 * 512 + l.val = (0 * 1 + 0) * 512 + l.val
    omega

/-- The scaled block at plane a, row r, column l. -/
theorem pay6_at (s : Vec Ideal S4x1024x512 .bf16) (mn mx : Vec Ideal S1x512 .f32)
    (a : Fin 4) (r : Fin 1024) (l : Fin 512) :
    k0_pay6 (F := Ideal) s mn mx (ix4 a (0 : Fin 1) r l)
      = (s (ix3 a r l) - mn (ix2 (0 : Fin 1) l))
          * Ideal.div (Ideal.ofBits .f32 0x3F800000#32)
              (Cert.Spec.fix (mx (ix2 (0 : Fin 1) l) - mn (ix2 (0 : Fin 1) l))) := by
  unfold k0_pay6
  refine (shapeCast_apply _ _ _ (ix3 a r l) ?_).trans ?_
  · rw [Shape.rowMajor_val_three, Shape.rowMajor_val_four]
    show (a.val * 1024 + r.val) * 512 + l.val = ((a.val * 1 + 0) * 1024 + r.val) * 512 + l.val
    omega
  · refine congrArg₂ (fun u v : EReal => u * v) (congrArg₂ (fun u v : EReal => u - v) rfl ?_) ?_
    · exact bcast_row mn a r l
    · refine (bcast_row _ a r l).trans ?_
      refine congrArg (Ideal.div (Ideal.ofBits .f32 0x3F800000#32)) ?_
      exact Cert.Spec.select_cmp_eq_fix _

end Cert.KPay

end
-- ==== Proof.LibPlaneTiles.lean ====
/-
  Infima and suprema over sixteen planes, taken four planes at a time.

  For a family f over sixteen indices in a complete lattice, pinf f k is the infimum of f over
  the indices below 4 (k + 1), the indices beyond contributing the top element; psup f k is the
  supremum, the indices beyond contributing the bottom element. The first is the infimum over
  the first four indices; each next one is the previous one combined with the infimum over the
  next four indices; the fourth is the infimum over all sixteen. The same holds for suprema.
  This compares an extremum accumulated block by block with the extremum over the whole.
-/
import Mathlib.Order.CompleteLattice.Basic
import Mathlib.Order.CompleteLattice.Finset
import Mathlib.Order.Fin.Basic

noncomputable section

namespace Cert.LibPlaneTiles

variable {α : Type}

/-- The infimum of f over the indices below 4 (k + 1). -/
def pinf [CompleteLattice α] (f : Fin 16 → α) (k : ℕ) : α :=
  ⨅ p : Fin 16, if p.val < 4 * (k + 1) then f p else ⊤

/-- The supremum of f over the indices below 4 (k + 1). -/
def psup [CompleteLattice α] (f : Fin 16 → α) (k : ℕ) : α :=
  ⨆ p : Fin 16, if p.val < 4 * (k + 1) then f p else ⊥

section Lattice

variable [CompleteLattice α] (f : Fin 16 → α)

theorem pinf_le_of_lt (k : ℕ) (p : Fin 16) (h : p.val < 4 * (k + 1)) : pinf f k ≤ f p :=
  (iInf_le _ p).trans (le_of_eq (if_pos h))

theorem le_psup_of_lt (k : ℕ) (p : Fin 16) (h : p.val < 4 * (k + 1)) : f p ≤ psup f k :=
  (le_of_eq (if_pos h).symm).trans (le_iSup (fun p : Fin 16 => if p.val < 4 * (k + 1) then f p else ⊥) p)

theorem pinf_zero : pinf f 0 = ⨅ a : Fin 4, f ⟨a.val, by omega⟩ := by
  apply le_antisymm
  · exact le_iInf fun a => pinf_le_of_lt f 0 ⟨a.val, by omega⟩ (by show a.val < 4 * (0 + 1); omega)
  · refine le_iInf fun p => ?_
    by_cases h : p.val < 4 * (0 + 1)
    · rw [if_pos h]
      exact iInf_le_of_le ⟨p.val, by omega⟩ (le_of_eq (congrArg f (Fin.ext rfl)))
    · rw [if_neg h]; exact le_top

theorem psup_zero : psup f 0 = ⨆ a : Fin 4, f ⟨a.val, by omega⟩ := by
  apply le_antisymm
  · refine iSup_le fun p => ?_
    by_cases h : p.val < 4 * (0 + 1)
    · rw [if_pos h]
      exact le_iSup_of_le ⟨p.val, by omega⟩ (le_of_eq (congrArg f (Fin.ext rfl)))
    · rw [if_neg h]; exact bot_le
  · exact iSup_le fun a => le_psup_of_lt f 0 ⟨a.val, by omega⟩ (by show a.val < 4 * (0 + 1); omega)

theorem pinf_succ (k : ℕ) (hk : k + 1 ≤ 3) :
    pinf f (k + 1) = pinf f k ⊓ ⨅ a : Fin 4, f ⟨4 * (k + 1) + a.val, by omega⟩ := by
  apply le_antisymm
  · refine le_inf (le_iInf fun p => ?_) (le_iInf fun a => ?_)
    · by_cases h : p.val < 4 * (k + 1)
      · rw [if_pos h]; exact pinf_le_of_lt f (k + 1) p (by omega)
      · rw [if_neg h]; exact le_top
    · exact pinf_le_of_lt f (k + 1) ⟨4 * (k + 1) + a.val, by omega⟩ (by show 4 * (k + 1) + a.val < 4 * (k + 1 + 1); omega)
  · refine le_iInf fun p => ?_
    by_cases h : p.val < 4 * (k + 1 + 1)
    · rw [if_pos h]
      by_cases h' : p.val < 4 * (k + 1)
      · exact inf_le_left.trans (pinf_le_of_lt f k p h')
      · exact inf_le_right.trans (iInf_le_of_le ⟨p.val - 4 * (k + 1), by omega⟩
          (le_of_eq (congrArg f (Fin.ext (by show 4 * (k + 1) + (p.val - 4 * (k + 1)) = p.val; omega)))))
    · rw [if_neg h]; exact le_top

theorem psup_succ (k : ℕ) (hk : k + 1 ≤ 3) :
    psup f (k + 1) = psup f k ⊔ ⨆ a : Fin 4, f ⟨4 * (k + 1) + a.val, by omega⟩ := by
  apply le_antisymm
  · refine iSup_le fun p => ?_
    by_cases h : p.val < 4 * (k + 1 + 1)
    · rw [if_pos h]
      by_cases h' : p.val < 4 * (k + 1)
      · exact (le_psup_of_lt f k p h').trans le_sup_left
      · exact (le_iSup_of_le (f := fun a : Fin 4 => f ⟨4 * (k + 1) + a.val, by omega⟩) ⟨p.val - 4 * (k + 1), by omega⟩
          (le_of_eq (congrArg f (Fin.ext (by show p.val = 4 * (k + 1) + (p.val - 4 * (k + 1)); omega))))).trans
          le_sup_right
    · rw [if_neg h]; exact bot_le
  · refine sup_le (iSup_le fun p => ?_) (iSup_le fun a => ?_)
    · by_cases h : p.val < 4 * (k + 1)
      · rw [if_pos h]; exact le_psup_of_lt f (k + 1) p (by omega)
      · rw [if_neg h]; exact bot_le
    · exact le_psup_of_lt f (k + 1) ⟨4 * (k + 1) + a.val, by omega⟩ (by show 4 * (k + 1) + a.val < 4 * (k + 1 + 1); omega)

theorem pinf_three : pinf f 3 = ⨅ p, f p := by
  unfold pinf
  exact iInf_congr fun p => if_pos (by have := p.isLt; omega)

theorem psup_three : psup f 3 = ⨆ p, f p := by
  unfold psup
  exact iSup_congr fun p => if_pos (by have := p.isLt; omega)

end Lattice

section Linear

variable [CompleteLinearOrder α] (f : Fin 16 → α)

/-- The step with the binary minimum of a linear order. -/
theorem pinf_succ_min (k : ℕ) (hk : k + 1 ≤ 3) :
    pinf f (k + 1) = min (pinf f k) (⨅ a : Fin 4, f ⟨4 * (k + 1) + a.val, by omega⟩) := by
  apply le_antisymm
  · refine le_min (le_iInf fun p => ?_) (le_iInf fun a => ?_)
    · by_cases h : p.val < 4 * (k + 1)
      · rw [if_pos h]; exact pinf_le_of_lt f (k + 1) p (by omega)
      · rw [if_neg h]; exact le_top
    · exact pinf_le_of_lt f (k + 1) ⟨4 * (k + 1) + a.val, by omega⟩ (by show 4 * (k + 1) + a.val < 4 * (k + 1 + 1); omega)
  · refine le_iInf fun p => ?_
    by_cases h : p.val < 4 * (k + 1 + 1)
    · rw [if_pos h]
      by_cases h' : p.val < 4 * (k + 1)
      · exact (min_le_left _ _).trans (pinf_le_of_lt f k p h')
      · exact (min_le_right _ _).trans (iInf_le_of_le ⟨p.val - 4 * (k + 1), by omega⟩
          (le_of_eq (congrArg f (Fin.ext (by show 4 * (k + 1) + (p.val - 4 * (k + 1)) = p.val; omega)))))
    · rw [if_neg h]; exact le_top

/-- The step with the binary maximum of a linear order. -/
theorem psup_succ_max (k : ℕ) (hk : k + 1 ≤ 3) :
    psup f (k + 1) = max (psup f k) (⨆ a : Fin 4, f ⟨4 * (k + 1) + a.val, by omega⟩) := by
  apply le_antisymm
  · refine iSup_le fun p => ?_
    by_cases h : p.val < 4 * (k + 1 + 1)
    · rw [if_pos h]
      by_cases h' : p.val < 4 * (k + 1)
      · exact (le_psup_of_lt f k p h').trans (le_max_left _ _)
      · exact (le_iSup_of_le (f := fun a : Fin 4 => f ⟨4 * (k + 1) + a.val, by omega⟩) ⟨p.val - 4 * (k + 1), by omega⟩
          (le_of_eq (congrArg f (Fin.ext (by show p.val = 4 * (k + 1) + (p.val - 4 * (k + 1)); omega))))).trans
          (le_max_right _ _)
    · rw [if_neg h]; exact bot_le
  · refine max_le (iSup_le fun p => ?_) (iSup_le fun a => ?_)
    · by_cases h : p.val < 4 * (k + 1)
      · rw [if_pos h]; exact le_psup_of_lt f (k + 1) p (by omega)
      · rw [if_neg h]; exact bot_le
    · exact le_psup_of_lt f (k + 1) ⟨4 * (k + 1) + a.val, by omega⟩ (by show 4 * (k + 1) + a.val < 4 * (k + 1 + 1); omega)

end Linear

end Cert.LibPlaneTiles

end
-- ==== Proof.KBridge.lean ====
/-
  The bridge from the kernel body's values to the specification, as pure mathematics over the
  argument array x.

  The kernel works on one half of the columns at a time (columns 512 h + l) and, within a half,
  on four planes at a time (planes 4 k + a). Its first step stores the scaled source of planes
  0 to 3 and starts the running column minimum and maximum with their extrema; each later step
  stores the source of the next four planes and combines their extrema into the running ones.
  After the fourth step the running values are the column's minimum and maximum over all sixteen
  planes. The scaling steps then multiply the stored source, less the minimum, by the quotient
  of one by the divisor, which is the specification's quotient.
-/
import proofs.«162028_g63909113364757_feedfinal_307_9_alg».proof.Proof.KPayLoad
import proofs.«162028_g63909113364757_feedfinal_307_9_alg».proof.Proof.KPayFirst
import proofs.«162028_g63909113364757_feedfinal_307_9_alg».proof.Proof.KPayLater
import proofs.«162028_g63909113364757_feedfinal_307_9_alg».proof.Proof.KPayOut
import proofs.«162028_g63909113364757_feedfinal_307_9_alg».proof.Proof.LibPlaneTiles
import proofs.«162028_g63909113364757_feedfinal_307_9_alg».proof.Proof.Spec

noncomputable section

namespace Cert.KBridge

open Cert.KernelIdeal Cert.KernelIdeal.Gen Idealize.ShloMosaic Idealize.ShloMosaic.ValueIdx
open Cert.KPay Cert.LibPlaneTiles Cert.Spec

/-- Column l of half h. -/
def col (h : Fin 2) (l : Fin 512) : Fin 1024 := ⟨512 * h.val + l.val, by omega⟩

/-- Plane a of the k-th block of four planes. -/
def plane (k : Fin 4) (a : Fin 4) : Fin 16 := ⟨4 * k.val + a.val, by omega⟩

/-- Frame 0 of planes 4 k to 4 k + 3, on the columns of half h. -/
def blk0 (x : XS.Idx → EReal) (h : Fin 2) (k : Fin 4) : Vec Ideal S4x1x1x1024x512 .f32 := fun j =>
  x (ix5 (plane k ⟨(j 0).val, (j 0).isLt⟩) (0 : Fin 1) (0 : Fin 3) ⟨(j 3).val, (j 3).isLt⟩
    (col h ⟨(j 4).val, (j 4).isLt⟩))

/-- Frame 2 of plane 0, on the columns of half h. -/
def blk1 (x : XS.Idx → EReal) (h : Fin 2) : Vec Ideal S1x1x1x1024x512 .f32 := fun j =>
  x (ix5 (0 : Fin 16) (0 : Fin 1) (2 : Fin 3) ⟨(j 3).val, (j 3).isLt⟩ (col h ⟨(j 4).val, (j 4).isLt⟩))

theorem blk0_at (x : XS.Idx → EReal) (h : Fin 2) (k a : Fin 4) (r : Fin 1024) (l : Fin 512) :
    blk0 x h k (ix5 a (0 : Fin 1) (0 : Fin 1) r l)
      = x (ix5 (plane k a) (0 : Fin 1) (0 : Fin 3) r (col h l)) := rfl

theorem blk1_at (x : XS.Idx → EReal) (h : Fin 2) (r : Fin 1024) (l : Fin 512) :
    blk1 x h (ix5 (0 : Fin 1) (0 : Fin 1) (0 : Fin 1) r l)
      = x (ix5 (0 : Fin 16) (0 : Fin 1) (2 : Fin 3) r (col h l)) := rfl

/-- The minimum of column 512 h + l over the rows of plane p. -/
abbrev fmin (x : XS.Idx → EReal) (h : Fin 2) (l : Fin 512) : Fin 16 → EReal :=
  fun p => ⨅ r : Fin 1024, sout x p r (col h l)

/-- The maximum of column 512 h + l over the rows of plane p. -/
abbrev fmax (x : XS.Idx → EReal) (h : Fin 2) (l : Fin 512) : Fin 16 → EReal :=
  fun p => ⨆ r : Fin 1024, sout x p r (col h l)

/-- Off plane 0 the source is frame 0. -/
theorem blk0_sout (x : XS.Idx → EReal) (h : Fin 2) (k a : Fin 4) (r : Fin 1024) (l : Fin 512)
    (hne : 4 * k.val + a.val ≠ 0) :
    blk0 x h k (ix5 a (0 : Fin 1) (0 : Fin 1) r l) = sout x (plane k a) r (col h l) := by
  rw [blk0_at, sout_of_ne x (fun h0 => hne (congrArg Fin.val h0))]

/-- On plane 0 the source is the difference of frame 2 and frame 0. -/
theorem blk_first (x : XS.Idx → EReal) (h : Fin 2) (r : Fin 1024) (l : Fin 512) :
    blk1 x h (ix5 (0 : Fin 1) (0 : Fin 1) (0 : Fin 1) r l) - blk0 x h 0 (ix5 (0 : Fin 4) (0 : Fin 1) (0 : Fin 1) r l)
      = sout x (0 : Fin 16) r (col h l) := by
  rw [sout_zero]; rfl

/-- An infimum over four indices: the first against the other three. -/
theorem iInf_up {α : Type} [CompleteLinearOrder α] (g : Fin 4 → α) :
    ⨅ a, g a = min (g 0) (⨅ a : Fin 3, g (up a)) := by
  apply le_antisymm
  · exact le_min (iInf_le _ 0) (le_iInf fun a => iInf_le _ (up a))
  · refine le_iInf fun a => ?_
    by_cases ha : a.val = 0
    · exact (min_le_left _ _).trans (le_of_eq (congrArg g (Fin.ext ha.symm)))
    · exact (min_le_right _ _).trans (iInf_le_of_le ⟨a.val - 1, by omega⟩
        (le_of_eq (congrArg g (Fin.ext (by show a.val - 1 + 1 = a.val; omega)))))

/-- A supremum over four indices: the first against the other three. -/
theorem iSup_up {α : Type} [CompleteLinearOrder α] (g : Fin 4 → α) :
    ⨆ a, g a = max (g 0) (⨆ a : Fin 3, g (up a)) := by
  apply le_antisymm
  · refine iSup_le fun a => ?_
    by_cases ha : a.val = 0
    · exact (le_of_eq (congrArg g (Fin.ext ha))).trans (le_max_left _ _)
    · exact (le_iSup_of_le (f := fun a : Fin 3 => g (up a)) ⟨a.val - 1, by omega⟩
        (le_of_eq (congrArg g (Fin.ext (by show a.val = a.val - 1 + 1; omega))))).trans (le_max_right _ _)
  · exact max_le (le_iSup _ 0) (iSup_le fun a => le_iSup _ (up a))

/-- The first step starts the running minimum with the extremum over planes 0 to 3. -/
theorem first_min (x : XS.Idx → EReal) (h : Fin 2) (l : Fin 512) :
    k0_pay12 (F := Ideal) (blk0 x h 0) (blk1 x h) (ix2 (0 : Fin 1) l) = pinf (fmin x h l) 0 := by
  rw [pay12_at, pinf_zero, iInf_up]
  refine congrArg₂ (fun u v : EReal => min u v) ?_ ?_
  · exact iInf_congr fun r => blk_first x h r l
  · refine iInf_congr fun a => iInf_congr fun r => ?_
    refine (blk0_sout x h 0 (up a) r l ?_).trans (congrArg (fun p => sout x p r (col h l)) (Fin.ext ?_))
    · show 4 * 0 + (a.val + 1) ≠ 0; omega
    · show 4 * 0 + (a.val + 1) = a.val + 1; omega

/-- The first step starts the running maximum with the extremum over planes 0 to 3. -/
theorem first_max (x : XS.Idx → EReal) (h : Fin 2) (l : Fin 512) :
    k0_pay1 (F := Ideal) (k0_pay13 (F := Ideal) (blk0 x h 0) (blk1 x h)) (ix2 (0 : Fin 1) l)
      = psup (fmax x h l) 0 := by
  rw [pay1_at, psup_zero, iSup_up]
  refine congrArg₂ (fun u v : EReal => max u v) ?_ ?_
  · exact iSup_congr fun r => blk_first x h r l
  · refine iSup_congr fun a => iSup_congr fun r => ?_
    refine (blk0_sout x h 0 (up a) r l ?_).trans (congrArg (fun p => sout x p r (col h l)) (Fin.ext ?_))
    · show 4 * 0 + (a.val + 1) ≠ 0; omega
    · show 4 * 0 + (a.val + 1) = a.val + 1; omega

/-- A later step combines the next four planes into the running minimum. -/
theorem later_min (x : XS.Idx → EReal) (h : Fin 2) (k : ℕ) (hk : k + 1 ≤ 3) (v : Vec Ideal S1x512 .f32)
    (l : Fin 512) (hv : v (ix2 (0 : Fin 1) l) = pinf (fmin x h l) k) :
    k0_pay4 (F := Ideal) (blk0 x h ⟨k + 1, by omega⟩) v (ix2 (0 : Fin 1) l) = pinf (fmin x h l) (k + 1) := by
  rw [pay4_at, hv, pinf_succ_min _ k hk]
  refine congrArg₂ (fun u w : EReal => min u w) rfl ?_
  refine iInf_congr fun a => iInf_congr fun r => ?_
  exact blk0_sout x h ⟨k + 1, by omega⟩ a r l (by show 4 * (k + 1) + a.val ≠ 0; omega)

/-- A later step combines the next four planes into the running maximum. -/
theorem later_max (x : XS.Idx → EReal) (h : Fin 2) (k : ℕ) (hk : k + 1 ≤ 3) (v : Vec Ideal S1x512 .f32)
    (l : Fin 512) (hv : v (ix2 (0 : Fin 1) l) = psup (fmax x h l) k) :
    k0_pay5 (F := Ideal) (blk0 x h ⟨k + 1, by omega⟩) v (ix2 (0 : Fin 1) l) = psup (fmax x h l) (k + 1) := by
  rw [pay5_at, hv, psup_succ_max _ k hk]
  refine congrArg₂ (fun u w : EReal => max u w) rfl ?_
  refine iSup_congr fun a => iSup_congr fun r => ?_
  exact blk0_sout x h ⟨k + 1, by omega⟩ a r l (by show 4 * (k + 1) + a.val ≠ 0; omega)

/-- After the fourth step the running minimum is the column's minimum. -/
theorem all_min (x : XS.Idx → EReal) (h : Fin 2) (l : Fin 512) : pinf (fmin x h l) 3 = mn x (col h l) :=
  pinf_three _

/-- After the fourth step the running maximum is the column's maximum. -/
theorem all_max (x : XS.Idx → EReal) (h : Fin 2) (l : Fin 512) : psup (fmax x h l) 3 = mx x (col h l) :=
  psup_three _

/-- The first step's stored source, plane 0. -/
theorem stash_zero (x : XS.Idx → EReal) (h : Fin 2) (r : Fin 1024) (l : Fin 512) :
    k0_pay10 (F := Ideal) (blk0 x h 0) (blk1 x h) (ix3 (0 : Fin 1) r l) = sout x (0 : Fin 16) r (col h l) := by
  rw [pay10_at]; exact blk_first x h r l

/-- The first step's stored source, planes 1 to 3. -/
theorem stash_succ (x : XS.Idx → EReal) (h : Fin 2) (a : Fin 3) (r : Fin 1024) (l : Fin 512) :
    k0_pay11 (F := Ideal) (blk0 x h 0) (ix3 a r l) = sout x ⟨a.val + 1, by omega⟩ r (col h l) := by
  rw [pay11_at]
  refine (blk0_sout x h 0 (up a) r l ?_).trans (congrArg (fun p => sout x p r (col h l)) (Fin.ext ?_))
  · show 4 * 0 + (a.val + 1) ≠ 0; omega
  · show 4 * 0 + (a.val + 1) = a.val + 1; omega

/-- A later step's stored source. -/
theorem stash_later (x : XS.Idx → EReal) (h : Fin 2) (k : Fin 4) (hk : 1 ≤ k.val) (a : Fin 4)
    (r : Fin 1024) (l : Fin 512) :
    k0_pay3 (F := Ideal) (blk0 x h k) (ix3 a r l) = sout x (plane k a) r (col h l) := by
  rw [pay3_at]
  exact blk0_sout x h k a r l (by omega)

/-- A scaling step's block is the specification's block. -/
theorem out_eq (x : XS.Idx → EReal) (h : Fin 2) (j : Fin 4) (s : Vec Ideal S4x1024x512 .bf16)
    (mn' mx' : Vec Ideal S1x512 .f32)
    (hs : ∀ a r l, s (ix3 a r l) = sout x (plane j a) r (col h l))
    (hmn : ∀ l, mn' (ix2 (0 : Fin 1) l) = mn x (col h l))
    (hmx : ∀ l, mx' (ix2 (0 : Fin 1) l) = mx x (col h l))
    (a : Fin 4) (r : Fin 1024) (l : Fin 512) :
    k0_pay6 (F := Ideal) s mn' mx' (ix4 a (0 : Fin 1) r l) = G x (ix4 (plane j a) (0 : Fin 1) r (col h l)) := by
  rw [pay6_at, hs, hmn, hmx]
  exact scale_eq x (plane j a) r (col h l)

end Cert.KBridge

end
-- ==== Proof.KI.Val2.lean ====
/-
  The tracked scratch is what the specification says, by induction over the grid points. After step s of column
  half h the running minimum at lane l is the minimum of sout over the planes below 4·(min(s,3)+1) and all rows, at
  column 512·h + l (likewise the maximum), and every stashed plane below that bound holds sout. A first step starts
  the fold with planes 0 to 3, a later load step folds four more planes in, a store step changes nothing.
-/
import proofs.«162028_g63909113364757_feedfinal_307_9_alg».proof.Proof.KI.Val1
import proofs.«162028_g63909113364757_feedfinal_307_9_alg».proof.Proof.KI.Tracked
import proofs.«162028_g63909113364757_feedfinal_307_9_alg».proof.Proof.KBridge
import proofs.«162028_g63909113364757_feedfinal_307_9_alg».proof.Proof.LibPlaneTiles
import proofs.«162028_g63909113364757_feedfinal_307_9_alg».proof.Proof.Spec

set_option maxRecDepth 65536

noncomputable section

namespace Cert.KernelIdeal.Val

open Idealize.ShloMosaic Idealize.ShloMosaic.TcCoe
open Idealize.SL Idealize.SL.Sem
open Idealize.ShloMosaic.Pipeline (Dat Cfg Window)
open Idealize.ShloMosaic.ValueIdx
open Cert.KernelIdeal Cert.KernelIdeal.Gen Cert.KernelIdeal.Fr

variable (m : (ℓ : Loc nD τ sig) → Buf (Elt Ideal) ℓ)

open Cert.KBridge Cert.LibPlaneTiles

/-- The column half and the load step of a point. -/
def hOf (t : Fin cfg0.N) : Fin 2 := ⟨t.val / 8, by have := tlt t; omega⟩
def kOf (t : Fin cfg0.N) : Fin 4 := ⟨min (t.val % 8) 3, by omega⟩

/-- The first input window's block is frame 0 of the point's four planes on the half's columns. -/
theorem iblk0_eq (c : Dev nD) (t : Fin cfg0.N) :
    (iblk m c 0 t : Vec Ideal S4x1x1x1024x512 .f32) = blk0 (xin m c) (hOf t) (kOf t) := by
  funext (j : S4x1x1x1024x512.Idx)
  obtain ⟨a, r, l, rfl⟩ : ∃ (a : Fin 4) (r : Fin 1024) (l : Fin 512), j = ix5 a (0 : Fin 1) (0 : Fin 1) r l :=
    ⟨j 0, j 3, j 4, by
      funext b
      match b with
      | ⟨0, _⟩ => rfl
      | ⟨1, _⟩ => exact Fin.ext (by have h : (j 1).val < 1 := (j 1).isLt; show (j 1).val = 0; omega)
      | ⟨2, _⟩ => exact Fin.ext (by have h : (j 2).val < 1 := (j 2).isLt; show (j 2).val = 0; omega)
      | ⟨3, _⟩ => rfl
      | ⟨4, _⟩ => rfl⟩
  rw [iblk0_at, blk0_at]; rfl

/-- The second input window's block is frame 2 of plane 0 on the half's columns. -/
theorem iblk1_eq (c : Dev nD) (t : Fin cfg0.N) :
    (iblk m c 1 t : Vec Ideal S1x1x1x1024x512 .f32) = blk1 (xin m c) (hOf t) := by
  funext (j : S1x1x1x1024x512.Idx)
  obtain ⟨r, l, rfl⟩ : ∃ (r : Fin 1024) (l : Fin 512), j = ix5 (0 : Fin 1) (0 : Fin 1) (0 : Fin 1) r l :=
    ⟨j 3, j 4, by
      funext b
      match b with
      | ⟨0, _⟩ => exact Fin.ext (by have h : (j 0).val < 1 := (j 0).isLt; show (j 0).val = 0; omega)
      | ⟨1, _⟩ => exact Fin.ext (by have h : (j 1).val < 1 := (j 1).isLt; show (j 1).val = 0; omega)
      | ⟨2, _⟩ => exact Fin.ext (by have h : (j 2).val < 1 := (j 2).isLt; show (j 2).val = 0; omega)
      | ⟨3, _⟩ => rfl
      | ⟨4, _⟩ => rfl⟩
  rw [iblk1_at, blk1_at]; rfl

/-- What is claimed of the scratch after point `n`. -/
def P (c : Dev nD) (n : ℕ) (hn : n < cfg0.N) : Prop :=
  (∀ l : Fin 512, (stateAt m c n hn).2.1 (ix2 (0 : Fin 1) l) = pinf (fmin (xin m c) (hOf ⟨n, hn⟩) l) (min (n % 8) 3))
  ∧ (∀ l : Fin 512, (stateAt m c n hn).2.2 (ix2 (0 : Fin 1) l) = psup (fmax (xin m c) (hOf ⟨n, hn⟩) l) (min (n % 8) 3))
  ∧ (∀ (p : Fin 16) (r : Fin 1024) (l : Fin 512), p.val < 4 * (min (n % 8) 3 + 1) →
      (stateAt m c n hn).1 (ix3 p r l) = Cert.Spec.sout (xin m c) p r (col (hOf ⟨n, hn⟩) l))

theorem stepA (c : Dev nD) (t : Fin cfg0.N) (h0 : t.val % 8 = 0) : P m c t.val t.isLt := by
  have hk : kOf t = (0 : Fin 4) := Fin.ext (by show min (t.val % 8) 3 = 0; omega)
  have hm : min (t.val % 8) 3 = 0 := by omega
  refine ⟨fun l => ?_, fun l => ?_, fun p r l hp => ?_⟩
  · rw [mnA_eq m c t h0, iblk0_eq, iblk1_eq, hk, hm]; exact first_min _ _ l
  · rw [mxA_eq m c t h0, iblk0_eq, iblk1_eq, hk, hm]; exact first_max _ _ l
  · rw [hm] at hp
    by_cases hp0 : p.val = 0
    · obtain rfl : p = (0 : Fin 16) := Fin.ext hp0
      rw [stA_zero m c t h0 r l, iblk0_eq, iblk1_eq, hk]; exact stash_zero _ _ r l
    · obtain ⟨a, ha⟩ : ∃ a : Fin 3, p = (⟨a.val + 1, (Nat.add_lt_add_right a.isLt 1).trans (by decide)⟩ : Fin 16) := ⟨⟨p.val - 1, by omega⟩, Fin.ext (by show p.val = p.val - 1 + 1; omega)⟩
      rw [ha, stA_succ m c t h0 a r l, iblk0_eq, hk]; exact stash_succ _ _ a r l

theorem stepB (c : Dev nD) (t : Fin cfg0.N) (h1 : 1 ≤ t.val % 8) (h2 : t.val % 8 ≤ 3)
    (ih : P m c (t.val - 1) (Nat.lt_of_le_of_lt (Nat.sub_le _ _) t.isLt)) : P m c t.val t.isLt := by
  have hh : hOf ⟨t.val - 1, (Nat.lt_of_le_of_lt (Nat.sub_le _ _) t.isLt)⟩ = hOf t := Fin.ext (by show (t.val - 1) / 8 = t.val / 8; omega)
  have hm' : min ((t.val - 1) % 8) 3 = t.val % 8 - 1 := by omega
  have hm : min (t.val % 8) 3 = (t.val % 8 - 1) + 1 := by omega
  have hk : kOf t = (⟨(t.val % 8 - 1) + 1, by omega⟩ : Fin 4) := Fin.ext (by show min (t.val % 8) 3 = _; omega)
  obtain ⟨i1, i2, i3⟩ := ih
  rw [hh] at i1 i2 i3
  rw [hm'] at i1 i2 i3
  refine ⟨fun l => ?_, fun l => ?_, fun p r l hp => ?_⟩
  · rw [mnB_eq m c t h1 h2, iblk0_eq, hk, hm]
    exact later_min _ _ (t.val % 8 - 1) (by omega) _ l (i1 l)
  · rw [mxB_eq m c t h1 h2, iblk0_eq, hk, hm]
    exact later_max _ _ (t.val % 8 - 1) (by omega) _ l (i2 l)
  · rw [hm] at hp
    by_cases hlo : p.val < 4 * (t.val % 8)
    · rw [stB_old m c t h1 h2 (ix3 p r l) hlo]
      exact i3 p r l (by omega)
    · have hb : ∀ a : Fin 4, 4 * (t.val % 8) + a.val < 16 := fun a => by have := a.isLt; omega
      obtain ⟨a, ha⟩ : ∃ a : Fin 4, p = (⟨4 * (t.val % 8) + a.val, hb a⟩ : Fin 16) :=
        ⟨⟨p.val - 4 * (t.val % 8), by omega⟩, Fin.ext (by show p.val = 4 * (t.val % 8) + (p.val - 4 * (t.val % 8)); omega)⟩
      rw [ha, stB_new m c t h1 h2 a r l, iblk0_eq]
      have hlt : t.val % 8 < 4 := by omega
      have hk' : kOf t = (⟨t.val % 8, hlt⟩ : Fin 4) := Fin.ext (by show min (t.val % 8) 3 = t.val % 8; omega)
      rw [hk']
      exact stash_later _ _ ⟨t.val % 8, hlt⟩ h1 a r l

theorem stepC (c : Dev nD) (t : Fin cfg0.N) (h4 : 4 ≤ t.val % 8)
    (ih : P m c (t.val - 1) (Nat.lt_of_le_of_lt (Nat.sub_le _ _) t.isLt)) : P m c t.val t.isLt := by
  have hh : hOf ⟨t.val - 1, (Nat.lt_of_le_of_lt (Nat.sub_le _ _) t.isLt)⟩ = hOf t := Fin.ext (by show (t.val - 1) / 8 = t.val / 8; omega)
  have hm' : min ((t.val - 1) % 8) 3 = 3 := by omega
  have hm : min (t.val % 8) 3 = 3 := by omega
  obtain ⟨i1, i2, i3⟩ := ih
  rw [hh, hm'] at i1 i2 i3
  unfold P
  rw [stateAt_C m c t h4, hm]
  exact ⟨i1, i2, i3⟩

/-- THE TRACKED SCRATCH IS THE SPECIFICATION'S, at every point. -/
theorem tracked (c : Dev nD) : ∀ (n : ℕ) (hn : n < cfg0.N), P m c n hn := by
  intro n
  induction n with
  | zero => intro hn; exact stepA m c ⟨0, hn⟩ (Nat.zero_mod 8)
  | succ n ih =>
    intro hn
    by_cases h0 : (n + 1) % 8 = 0
    · exact stepA m c ⟨n + 1, hn⟩ h0
    · by_cases h2 : (n + 1) % 8 ≤ 3
      · exact stepB m c ⟨n + 1, hn⟩ (Nat.one_le_iff_ne_zero.mpr h0) h2 (ih (Nat.lt_of_succ_lt hn))
      · exact stepC m c ⟨n + 1, hn⟩ (by show 4 ≤ (n + 1) % 8; omega) (ih (Nat.lt_of_succ_lt hn))

end Cert.KernelIdeal.Val

end
-- ==== Proof.KI.Frame3.lean ====
/-
  The body obligation at every grid point, the launch of the region with the argument array shared by the two
  input windows (each holds it at one half of its share, at the same contents), and the frame: the program runs to
  the end, nothing faults, and the argument array ends as it began.
-/
import proofs.«162028_g63909113364757_feedfinal_307_9_alg».proof.Proof.KI.Frame2b

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ, PhiS_castSucc]
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  by_cases h0 : t.val % 8 = 0
  · rw [Dat.leavesExact_idle (dats m 0 c) 2 t (idleAt0_2 t (caseA t h0).2.2) (noFlush0_2 t (caseA t h0).2.2)]
    iintro ⟨HΦ, Ho, ⟨%d0, H0⟩, ⟨%d1, H1⟩, ⟨%d2, H2⟩⟩
    ihave HΦ' := (PhiS_any m c t.val (Nat.le_of_lt t.isLt)) $$ HΦ
    icases HΦ' with ⟨HS0, HS1, HS2⟩
    iapply ((runA m c t h0).2.2.2 _ Set.univ _)
    isplitl [H0]; · iexact H0
    isplitl [H1]; · iexact H1
    isplitl [H2]; · iexact H2
    isplitl [HS0]; · iexact HS0
    isplitl [HS1]; · iexact HS1
    isplitl [HS2]; · iexact HS2
    iintro ⟨H0, H1, H2, ⟨%es0, HS0⟩, ⟨%es1, HS1⟩, ⟨%es2, HS2⟩⟩
    isplitl [HS0 HS1 HS2]
    · iexists (VS0_0.read (Elt F) (VS0_0.writes (Elt F) es0 (runA m c t h0).1))
      isplitr; · ipureintro; exact inv_A m c t h0 es0
      isplitl [HS0]
      · unfold owns; iexists _; isplitr
        swap; · iexact HS0
        ipureintro; rfl
      isplitl [HS1]
      · unfold owns; iexists _; isplitr
        swap; · iexact HS1
        ipureintro; rw [stateAt_A m c t h0]; dsimp only; exact View.read_writes_of_cover _ _ _ _ _ (coverA1 m c t h0)
      unfold owns; iexists _; isplitr
      swap; · iexact HS2
      ipureintro; rw [stateAt_A m c t h0]; dsimp only; exact View.read_writes_of_cover _ _ _ _ _ (coverA2 m c t h0)
    isplitl [Ho]; · iexact Ho
    isplitl [H0]; · iexact H0
    isplitl [H1]; · iexact H1
    iexists _; iexact H2
  · have hz : t.val ≠ 0 := fun e => h0 (by rw [e])
    rw [PhiS_pos m c _ _ hz]
    by_cases h2 : t.val % 8 ≤ 3
    · have h1 : 1 ≤ t.val % 8 := Nat.one_le_iff_ne_zero.mpr h0
      rw [Dat.leavesExact_idle (dats m 0 c) 2 t (idleAt0_2 t (caseB t h1 h2).2.2) (noFlush0_2 t (caseB t h1 h2).2.2)]
      iintro ⟨⟨%s, %hs, HS0, HS1, HS2⟩, Ho, ⟨%d0, H0⟩, ⟨%d1, H1⟩, ⟨%d2, H2⟩⟩
      iapply ((runB m c t h1 h2 (stateAt m c (t.val - 1) (Nat.lt_of_le_of_lt (Nat.sub_le _ _) t.isLt)).2.1 (stateAt m c (t.val - 1) (Nat.lt_of_le_of_lt (Nat.sub_le _ _) t.isLt)).2.2).2.2.2 _ s Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, ⟨%es1, HS1⟩, ⟨%es2, HS2⟩⟩
      isplitl [HS0 HS1 HS2]
      · iexists (VS0_0.read (Elt F) (VS0_0.writes (Elt F) ((Memref.isWhole_whole cc0_scratch0).unread s)
          (runB m c t h1 h2 (stateAt m c (t.val - 1) (Nat.lt_of_le_of_lt (Nat.sub_le _ _) t.isLt)).2.1 (stateAt m c (t.val - 1) (Nat.lt_of_le_of_lt (Nat.sub_le _ _) t.isLt)).2.2).1))
        isplitr; · ipureintro; exact inv_B m c t h1 h2 s hs
        isplitl [HS0]
        · unfold owns; iexists _; isplitr
          swap; · iexact HS0
          ipureintro; rfl
        isplitl [HS1]
        · unfold owns; iexists _; isplitr
          swap; · iexact HS1
          ipureintro; rw [stateAt_B m c t h1 h2]; dsimp only; exact View.read_writes_of_cover _ _ _ _ _ (coverB1 m c t h1 h2 _ _)
        unfold owns; iexists _; isplitr
        swap; · iexact HS2
        ipureintro; rw [stateAt_B m c t h1 h2]; dsimp only; exact View.read_writes_of_cover _ _ _ _ _ (coverB2 m c t h1 h2 _ _)
      isplitl [Ho]; · iexact Ho
      isplitl [H0]; · iexact H0
      isplitl [H1]; · iexact H1
      iexists _; iexact H2
    · have h4 : 4 ≤ t.val % 8 := by omega
      rw [show (dats m 0 c).leavesExact 2 t = owns (c : Thread nD τ) (ms0_2 t) fullShare ((dats m 0 c).after 2 t) from by
        unfold Dat.leavesExact; rw [liveAt0_2 t (caseC t h4).2.2], after0_2, out2At_C m c t h4, stateAt_C m c t h4]
      iintro ⟨⟨%s, %hs, HS0, HS1, HS2⟩, Ho, ⟨%d0, H0⟩, ⟨%d1, H1⟩, ⟨%d2, H2⟩⟩
      have es := inv_C m c t h4 s hs
      subst es
      iapply ((runC m c t h4 (stateAt m c (t.val - 1) (Nat.lt_of_le_of_lt (Nat.sub_le _ _) t.isLt)).1 (stateAt m c (t.val - 1) (Nat.lt_of_le_of_lt (Nat.sub_le _ _) t.isLt)).2.1 (stateAt m c (t.val - 1) (Nat.lt_of_le_of_lt (Nat.sub_le _ _) t.isLt)).2.2).2 Set.univ _)
      isplitl [H0]; · iexact H0
      isplitl [H1]; · iexact H1
      isplitl [H2]; · iexists _; iexact H2
      isplitl [HS0]; · iexact HS0
      isplitl [HS1]; · iexact HS1
      isplitl [HS2]; · iexact HS2
      iintro ⟨H0, H1, ⟨%e2, H2⟩, HS0, HS1, HS2⟩
      isplitl [HS0 HS1 HS2]
      · iexists (stateAt m c (t.val - 1) (Nat.lt_of_le_of_lt (Nat.sub_le _ _) t.isLt)).1
        isplitr; · ipureintro; exact inv_C' m c t h4
        isplitl [HS0]; · iexact HS0
        isplitl [HS1]; · iexact HS1
        iexact HS2
      isplitl [Ho]; · iexact Ho
      isplitl [H0]; · iexact H0
      isplitl [H1]; · iexact H1
      unfold owns; iexists _; isplitr
      swap; · iexact H2
      ipureintro; exact View.read_writes_of_cover _ _ _ _ _ (coverC m c t h4 _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Fr

end
-- ==== Proof.KI.Frame4.lean ====
/-
  The launch and the frame. The two input windows are views of the one argument array: at the region's entry its
  full share is dealt to them as its two halves, each at the array's contents; the output window holds the result
  array whole. The program then runs to the end with every window's array at what the proof data compute, and an
  input window's array is never written, so the argument array ends as it began.
-/
import proofs.«162028_g63909113364757_feedfinal_307_9_alg».proof.Proof.KI.Frame3
import proofs.«162028_g63909113364757_feedfinal_307_9_alg».proof.Proof.LibSharedArrays

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows' arrays, each whole at its entry contents, are the proof data's arrays at entry:
    the argument array's full share is its left half (window 0) and its right half (window 1). -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [Cert.SharedArrays.arrBufs_eq_of_list spec0 c (V m c) [main_arg0, main_v0] (by decide) (by decide),
    Cert.SharedArrays.arrays_eq_shares cfg0 c (dats m 0 c) arr_whole0, bigSep_W0]
  simp only [bigSepL_cons_cons, bigSepL_singleton]
  show iprop((((c.tc : Thread nD τ).loc main_arg0) ↦{fullShare} V m c main_arg0) ∗ (((c.tc : Thread nD τ).loc main_v0) ↦{fullShare} V m c main_v0)) ⊢ _
  iintro ⟨Ha, Hv⟩
  ihave Hh := (Cert.SharedArrays.pointsTo_halves _ _).1 $$ Ha
  icases Hh with ⟨Hl, Hr⟩
  isplitl [Hl]; · iexact Hl
  isplitl [Hr]; · iexact Hr
  iexact Hv

/-- Before the first point the invariant is the scratch buffers at anything. -/
theorem hin (c : Dev nD) :
    iprop((BI.emp : sProp 𝕄) ∗ Pipeline.scopedRest (Ix := Unit) (Name := ℕ) (U := UR sig nD τ) (Lvl := ℕ) (Val := Elt F) spec0 c) ⊢ (dats m 0 c).Φ 0 := by
  rw [show (dats m 0 c).Φ 0 = PhiS m c 0 (Nat.zero_le _) from rfl, PhiS_zero m c 0 _ rfl]
  iintro ⟨-, H⟩; iexact H

/-- After the last point it gives them back, their contents forgotten. -/
theorem hout (c : Dev nD) :
    (dats m 0 c).Φ (Fin.last cfg0.N) ⊢ iprop((BI.emp : sProp 𝕄) ∗ Pipeline.scopedRest (Ix := Unit) (Name := ℕ) (U := UR sig nD τ) (Lvl := ℕ) (Val := Elt F) spec0 c) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 16 := N_0; omega), scopedRest0_owns]
  iintro ⟨%s, -, H0, H1, H2⟩
  isplitr; · iempintro
  isplitl [H0]; · iexists _; iexact H0
  isplitl [H1]; · iexists _; iexact H1
  iexists _; iexact H2

set_option backward.isDefEq.respectTransparency.types false in
/-- Every weakly fair execution of @main terminates, nothing faulting, with every window's array at what the proof
    data compute from the blocks written back. -/
theorem run_main : θ_run defs (onTc (τ := τ) (main (F := F))) (s₀ m ρ)
    (fun r => ∀ c : Dev nD, ∀ w, r.2.mem (((cfg0).spec w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := hsplit m)
    (X := fun _ => iprop(emp)) (Y := fun _ => iprop(emp)) (Z := fun _ => iprop(emp))
    (hX := fun c => by
      rw [unscopedRest0_eq]
      iintro H
      isplitl [H]; · iexact H
      iempintro)
    (hin := hin m) (hout := hout m)
    (QY := fun _ _ => True)
    (hY := fun c s' => by
      iintro ⟨-, -, HSI⟩
      imodintro
      isplitr; · ipureintro; trivial
      iexact HSI)
    (hQ := fun s h c w => (h c).1 w)

/-- THE FRAME: the program runs and its argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c) 0).trans (((dats m 0 c).arrAt_in 0 rfl _).trans (A_eq m c 0))) (run_main m ρ)

end Cert.KernelIdeal.Fr

end
-- ==== Proof.KI.Val3.lean ====
/-
  The result array. A store step at point n = 8·h + s writes back planes 4·(s−4) to 4·(s−4)+3 on the half's columns:
  four stashed planes minus the column minimum, times the reciprocal of the column range, which is the
  specification's quotient at those entries. The eight store steps' blocks cover the result array, so it ends
  holding the specification's result; the argument array is never written.
-/
import proofs.«162028_g63909113364757_feedfinal_307_9_alg».proof.Proof.KI.Val2
import proofs.«162028_g63909113364757_feedfinal_307_9_alg».proof.Proof.KI.Frame4

set_option maxRecDepth 65536

noncomputable section

namespace Cert.KernelIdeal.Val

open Idealize.ShloMosaic Idealize.ShloMosaic.TcCoe
open Idealize.SL Idealize.SL.Sem
open Idealize.ShloMosaic.Pipeline (Dat Cfg Window)
open Idealize.ShloMosaic.ValueIdx
open Cert.KernelIdeal Cert.KernelIdeal.Gen Cert.KernelIdeal.Fr

variable (m : (ℓ : Loc nD τ sig) → Buf (Elt Ideal) ℓ)

open Cert.KBridge Cert.LibPlaneTiles

/-- A store step's output block, entry by entry. -/
theorem out_at (c : Dev nD) (t : Fin cfg0.N) (h4 : 4 ≤ t.val % 8) (a : Fin 4) (r : Fin 1024) (l : Fin 512) :
    out2At m c t.val t.isLt (ix4 a (0 : Fin 1) r l)
      = Cert.Spec.G (xin m c) (ix4 (plane (⟨t.val % 8 - 4, by omega⟩ : Fin 4) a) (0 : Fin 1) r (col (hOf t) l)) := by
  obtain ⟨i1, i2, i3⟩ := tracked m c (t.val - 1) (Nat.lt_of_le_of_lt (Nat.sub_le _ _) t.isLt)
  have hh : hOf ⟨t.val - 1, (Nat.lt_of_le_of_lt (Nat.sub_le _ _) t.isLt)⟩ = hOf t := Fin.ext (by show (t.val - 1) / 8 = t.val / 8; omega)
  have hm' : min ((t.val - 1) % 8) 3 = 3 := by omega
  rw [hh, hm'] at i1 i2 i3
  rw [outC_eq m c t h4]
  have ho := hoff2 t (caseC t h4).2.2
  refine out_eq (xin m c) (hOf t) (⟨t.val % 8 - 4, by omega⟩ : Fin 4) _ _ _ (fun a r l => ?_) (fun l => ?_) (fun l => ?_) a r l
  · have e : (Rect.unit (s := S16x1024x512) (k0_off2 (grid0.coords t)) S4x1024x512.size (Facts₀.k0_off2_inb (grid0.coords t) (caseC t h4).2.2)).idx (ix3 a r l)
        = ix3 (plane (⟨t.val % 8 - 4, by omega⟩ : Fin 4) a) r l := by
      funext b; apply Fin.ext
      match b with
      | ⟨0, _⟩ => show k0_off2 (grid0.coords t) 0 + 1 * a.val = 4 * (t.val % 8 - 4) + a.val; rw [ho]; show 4 * (t.val % 8 - 4) + 1 * a.val = _; omega
      | ⟨1, _⟩ => show k0_off2 (grid0.coords t) 1 + 1 * r.val = r.val; rw [ho]; show 0 + 1 * r.val = _; omega
      | ⟨2, _⟩ => show k0_off2 (grid0.coords t) 2 + 1 * l.val = l.val; rw [ho]; show 0 + 1 * l.val = _; omega
    show (stateAt m c (t.val - 1) (Nat.lt_of_le_of_lt (Nat.sub_le _ _) t.isLt)).1 ((Rect.unit (s := S16x1024x512) (k0_off2 (grid0.coords t)) S4x1024x512.size (Facts₀.k0_off2_inb (grid0.coords t) (caseC t h4).2.2)).idx (ix3 a r l)) = _
    rw [e]
    exact i3 _ r l (by show 4 * (t.val % 8 - 4) + a.val < 4 * (3 + 1); omega)
  · rw [i1 l]; exact all_min _ _ l
  · rw [i2 l]; exact all_max _ _ l

/-- WHAT A STORE STEP WRITES BACK is its block of the specification's result. -/
theorem flushed_eq (c : Dev nD) (t : Fin cfg0.N) (hf : (cfg0.win 2).flush t = true) :
    (dats m 0 c).flushed 2 t = ((cfg0.win 2).blk t).view.read (Elt Ideal) (Cert.Spec.G (xin m c)) := by
  have h4 := (flush_iff t).mp hf
  show (cfg0.win 2).cut (grid0.coords t) ((dats m 0 c).after 2 t) = _
  rw [after0_2]
  funext (j : S4x1x1024x512.Idx)
  obtain ⟨a, r, l, rfl⟩ : ∃ (a : Fin 4) (r : Fin 1024) (l : Fin 512), j = ix4 a (0 : Fin 1) r l :=
    ⟨j 0, j 2, j 3, by
      funext b
      match b with
      | ⟨0, _⟩ => rfl
      | ⟨1, _⟩ => exact Fin.ext (by have h : (j 1).val < 1 := (j 1).isLt; show (j 1).val = 0; omega)
      | ⟨2, _⟩ => rfl
      | ⟨3, _⟩ => rfl⟩
  show out2At m c t.val t.isLt (ix4 a (0 : Fin 1) r l) = Cert.Spec.G (xin m c) (((cfg0.win 2).blk t).view.emb (ix4 a (0 : Fin 1) r l))
  rw [out_at m c t h4 a r l]
  refine congrArg _ ?_
  obtain ⟨-, -, -, -, -, -, -, -, -, -, e0, e1, e2, e3⟩ := idx_facts t
  funext b; apply Fin.ext
  match b with
  | ⟨0, _⟩ => show 4 * (t.val % 8 - 4) + a.val = win0_2.index t (0 : Fin 4) * 4 + 1 * a.val; omega
  | ⟨1, _⟩ => show 0 = win0_2.index t (1 : Fin 4) * 1 + 1 * 0; omega
  | ⟨2, _⟩ => show r.val = win0_2.index t (2 : Fin 4) * 1024 + 1 * r.val; omega
  | ⟨3, _⟩ => show 512 * (t.val / 8) + l.val = win0_2.index t (3 : Fin 4) * 512 + 1 * l.val; omega

/-- An index of the result array is in point `t`'s block iff each coordinate is in the block's range. -/
theorem mem_blk2 (t : Fin cfg0.N) (i : S16x1x1024x1024.Idx) :
    i ∈ ((cfg0.win 2).blk t).view.set ↔ ∀ a : Fin 4, win0_2.index t a * S4x1x1024x512.size a ≤ (i a).val ∧ (i a).val < win0_2.index t a * S4x1x1024x512.size a + S4x1x1024x512.size a := by
  show i ∈ ((View.whole main_v0).slice (win0_2.rect t)).set ↔ _
  rw [View.set_slice_whole, Rect.mem_set_unit]
  exact Iff.rfl

/-- Every entry of the result array is in some store step's block. -/
theorem cover (i : S16x1x1024x1024.Idx) :
    ∃ t : Fin cfg0.N, (cfg0.win 2).flush t = true ∧ i ∈ ((cfg0.win 2).blk t).view.set := by
  have h0 : (i 0).val < 16 := (i 0).isLt
  have h1 : (i 1).val < 1 := (i 1).isLt
  have h2 : (i 2).val < 1024 := (i 2).isLt
  have h3 : (i 3).val < 1024 := (i 3).isLt
  have hn : 8 * ((i 3).val / 512) + 4 + (i 0).val / 4 < cfg0.N := by rw [N16]; omega
  refine ⟨⟨8 * ((i 3).val / 512) + 4 + (i 0).val / 4, hn⟩, (flush_iff _).mpr (by show 4 ≤ (8 * ((i 3).val / 512) + 4 + (i 0).val / 4) % 8; omega), ?_⟩
  rw [mem_blk2]
  obtain ⟨-, -, -, -, -, -, -, -, -, -, e0, e1, e2, e3⟩ := idx_facts ⟨8 * ((i 3).val / 512) + 4 + (i 0).val / 4, hn⟩
  intro a
  match a with
  | ⟨0, _⟩ =>
    show win0_2.index _ (0 : Fin 4) * 4 ≤ (i 0).val ∧ (i 0).val < win0_2.index _ (0 : Fin 4) * 4 + 4
    rw [e0]; show ((8 * ((i 3).val / 512) + 4 + (i 0).val / 4) % 8 - 4) * 4 ≤ (i 0).val ∧ (i 0).val < ((8 * ((i 3).val / 512) + 4 + (i 0).val / 4) % 8 - 4) * 4 + 4; omega
  | ⟨1, _⟩ =>
    show win0_2.index _ (1 : Fin 4) * 1 ≤ (i 1).val ∧ (i 1).val < win0_2.index _ (1 : Fin 4) * 1 + 1
    rw [e1]; omega
  | ⟨2, _⟩ =>
    show win0_2.index _ (2 : Fin 4) * 1024 ≤ (i 2).val ∧ (i 2).val < win0_2.index _ (2 : Fin 4) * 1024 + 1024
    rw [e2]; omega
  | ⟨3, _⟩ =>
    show win0_2.index _ (3 : Fin 4) * 512 ≤ (i 3).val ∧ (i 3).val < win0_2.index _ (3 : Fin 4) * 512 + 512
    rw [e3]; show (8 * ((i 3).val / 512) + 4 + (i 0).val / 4) / 8 * 512 ≤ (i 3).val ∧ (i 3).val < (8 * ((i 3).val / 512) + 4 + (i 0).val / 4) / 8 * 512 + 512; omega

/-- THE RESULT ARRAY after the run is the specification's result of the argument array. -/
theorem final (c : Dev nD) : (dats m 0 c).arrAt 2 cfg0.N = Cert.Spec.G (xin m c) :=
  (dats m 0 c).arrAt_eq_of_cover 2 (Cert.Spec.G (xin m c)) (fun t hf => flushed_eq m c t hf) cover

/-- The idealized kernel runs, ends with its result array at the specification's result of its argument array,
    and leaves the argument array unchanged. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0) = Cert.Spec.G (m ((c.tc : Thread nD τ).loc main_arg0))
      ∧ r.2.mem ((c.tc : Thread nD τ).loc main_arg0) = m ((c.tc : Thread nD τ).loc main_arg0)) :=
  (θ_run defs _ _).mono (fun _ h c => ⟨((h c) 2).trans (final m c),
      ((h c) 0).trans (((dats m 0 c).arrAt_in 0 rfl _).trans (A_eq m c 0))⟩) (run_main m ρ)

end Cert.KernelIdeal.Val

end
-- ==== Proof.RefIsG.lean ====
/-
  The reference program computes the specification: its result, read entry by entry, is the
  scaled array G of its argument.

  The reference flattens planes and rows into 16384 rows, row 1024 p + r being row r of plane p.
  Its mask "row below 1024" therefore selects exactly plane 0, where it keeps the difference of
  frames 2 and 0; elsewhere it keeps frame 0. Its two reductions over the flattened rows, a fold
  of the minimum from +inf and of the maximum from -inf, are the infimum and the supremum over
  all planes and rows. The rest is entrywise.
-/
import proofs.«162028_g63909113364757_feedfinal_307_9_alg».proof.Proof.Gen.ReferenceIdeal.Read
import proofs.«162028_g63909113364757_feedfinal_307_9_alg».proof.Proof.Spec
import proofs.«162028_g63909113364757_feedfinal_307_9_alg».proof.Proof.LibMinMax
import Idealize.ShloMosaic.PureOps.Ideal.Laws
import Idealize.ShloMosaic.Lib.Affine

noncomputable section

namespace Cert.RefIsG

open Cert.ReferenceIdeal Cert.ReferenceIdeal.Gen Cert.ReferenceIdeal.Read Idealize.ShloMosaic Idealize.ShloMosaic.ValueIdx Cert.Spec Cert.LibMinMax

/-- The argument array's type. -/
abbrev XArr : Type := (⟨S16x1x3x1024x1024, .f32⟩ : BufTy).Contents (Elt Ideal)

/-- Frame 0, flattened: row 1024 p + r, column c is entry (p, 0, 0, r, c) of the argument. -/
theorem v2_at (x0 : XArr) (p : Fin 16) (r c : Fin 1024)
    (i : S16384x1024.Idx) (h0 : (i 0).val = 1024 * p.val + r.val) (h1 : (i 1).val = c.val) :
    val_main_v2 (F := Ideal) x0 i = x0 (ix5 p (0 : Fin 1) (0 : Fin 3) r c) := by
  rw [val_main_v2_apply, val_main_v1_apply, val_main_v0_apply]
  congr 1
  funext a
  apply Fin.ext
  have hp := p.isLt; have hr := r.isLt; have hc := c.isLt
  match a with
  | ⟨0, _⟩ => show _ = p.val; dsimp only; omega
  | ⟨1, _⟩ => rfl
  | ⟨2, _⟩ => rfl
  | ⟨3, _⟩ => show _ = r.val; dsimp only; omega
  | ⟨4, _⟩ => show _ = c.val; dsimp only; omega

/-- Frame 2, flattened: row 1024 p + r, column c is entry (p, 0, 2, r, c) of the argument. -/
theorem v5_at (x0 : XArr) (p : Fin 16) (r c : Fin 1024)
    (i : S16384x1024.Idx) (h0 : (i 0).val = 1024 * p.val + r.val) (h1 : (i 1).val = c.val) :
    val_main_v5 (F := Ideal) x0 i = x0 (ix5 p (0 : Fin 1) (2 : Fin 3) r c) := by
  rw [val_main_v5_apply, val_main_v4_apply, val_main_v3_apply]
  congr 1
  funext a
  apply Fin.ext
  have hp := p.isLt; have hr := r.isLt; have hc := c.isLt
  match a with
  | ⟨0, _⟩ => show _ = p.val; dsimp only; omega
  | ⟨1, _⟩ => rfl
  | ⟨2, _⟩ => rfl
  | ⟨3, _⟩ => show _ = r.val; dsimp only; omega
  | ⟨4, _⟩ => show _ = c.val; dsimp only; omega

/-- The mask is set exactly on the first 1024 flattened rows. -/
theorem mask_at (i : S16384x1024.Idx) :
    val_main_call0_v0 (F := Ideal) i = 1#1 ↔ (i 0).val < 1024 := by
  rw [val_main_call0_v0_apply, val_main_v10_apply, val_main_v8_apply, val_main_v7_apply, val_main_v9_apply,
    val_main_c_apply, IntOp.cmpi_slt]
  have h : (i 0).val < 16384 := (i 0).isLt
  show (BitVec.ofNat 32 (i 0).val).toInt < (1024#32).toInt ↔ _
  have e1 : (BitVec.ofNat 32 (i 0).val).toInt = ((i 0).val : Int) := by
    rw [BitVec.toInt_eq_toNat_cond, BitVec.toNat_ofNat, Nat.mod_eq_of_lt (by omega)]
    rw [if_pos (by omega)]
  have e2 : (1024#32).toInt = 1024 := by decide
  rw [e1, e2]
  omega

/-- The selected source at row 1024 p + r, column c is the specification's source. -/
theorem v11_at (x0 : XArr) (p : Fin 16) (r c : Fin 1024) :
    val_main_v11 (F := Ideal) x0 (ix2 (row p r) c) = sout x0 p r c := by
  have h0 : ((ix2 (row p r) c : S16384x1024.Idx) 0).val = 1024 * p.val + r.val := rfl
  have h1 : ((ix2 (row p r) c : S16384x1024.Idx) 1).val = c.val := rfl
  rw [val_main_v11_apply]
  by_cases hp : p = 0
  · have hm : val_main_call0_v0 (F := Ideal) (ix2 (row p r) c) = 1#1 :=
      (mask_at _).2 (by rw [h0, hp]; have := r.isLt; show 1024 * 0 + r.val < 1024; omega)
    rw [hm, select_one, val_main_v6_apply, v5_at x0 p r c _ h0 h1, v2_at x0 p r c _ h0 h1, hp, sout_zero]
    rfl
  · have hm : val_main_call0_v0 (F := Ideal) (ix2 (row p r) c) = 0#1 :=
      eq_zero_of_ne_one (fun h => hp (Fin.ext (by
        have := (mask_at _).1 h; rw [h0] at this; show p.val = 0; omega)))
    rw [hm, select_zero, v2_at x0 p r c _ h0 h1, sout_of_ne x0 hp]

/-- The reduction's shape fact in the form that names the source index over a result index. -/
theorem red : S16384x1024.Reduces [0] S1024 := by decide

/-- The source index over column c with k on the reduced axis is (k, c). -/
theorem lift_eq (c : Fin 1024) (k : Fin 16384) : red.lift (ix1 c) k = ix2 k c := by
  funext a
  apply Fin.ext
  match a with
  | ⟨0, _⟩ => rfl
  | ⟨1, _⟩ => rfl

/-- The reduction by minimum from +inf is the column minimum. -/
theorem v12_at (x0 : XArr) (c : Fin 1024) : val_main_v12 (F := Ideal) x0 (ix1 c) = mn x0 c := by
  unfold val_main_v12
  rw [Host.reduce_eq_fold_single FloatOps.minimumf _ _ reducesTo_S16384x1024_S1024_d0 red h_S_ (ix1 c),
    val_main_cst_apply]
  show (Finset.univ : Finset (Fin 16384)).fold (FloatOps.minimumf (F := Ideal) (φ := .f32))
      (Ideal.ofBits .f32 0x7F800000#32) (fun k => val_main_v11 (F := Ideal) x0 (red.lift (ix1 c) k)) = _
  rw [top_word]
  refine (fold_minimumf_top (ι := Fin 16384)
    (fun k => val_main_v11 (F := Ideal) x0 (red.lift (ix1 c) k))).trans ?_
  rw [iInf_rows]
  unfold mn
  simp only [lift_eq, v11_at]

/-- The reduction by maximum from -inf is the column maximum. -/
theorem v13_at (x0 : XArr) (c : Fin 1024) : val_main_v13 (F := Ideal) x0 (ix1 c) = mx x0 c := by
  unfold val_main_v13
  rw [Host.reduce_eq_fold_single FloatOps.maximumf _ _ reducesTo_S16384x1024_S1024_d0 red h_S_ (ix1 c),
    val_main_cst_0_apply]
  show (Finset.univ : Finset (Fin 16384)).fold (FloatOps.maximumf (F := Ideal) (φ := .f32))
      (Ideal.ofBits .f32 0xFF800000#32) (fun k => val_main_v11 (F := Ideal) x0 (red.lift (ix1 c) k)) = _
  rw [bot_word]
  refine (fold_maximumf_bot (ι := Fin 16384)
    (fun k => val_main_v11 (F := Ideal) x0 (red.lift (ix1 c) k))).trans ?_
  rw [iSup_rows]
  unfold mx
  simp only [lift_eq, v11_at]

/-- The divisor at column c. -/
theorem v18_at (x0 : XArr) (c : Fin 1024) : val_main_v18 (F := Ideal) x0 (ix1 c) = den x0 c := by
  rw [val_main_v18_apply, val_main_v16_apply, val_main_v14_apply, val_main_v15_apply, val_main_v17_apply,
    val_main_cst_1_apply, val_main_cst_2_apply, v13_at, v12_at]
  exact select_cmpf_eq_fix _

/-- The quotient at row 1024 p + r, column c. -/
theorem v24_at (x0 : XArr) (p : Fin 16) (r c : Fin 1024)
    (i : S16384x1024.Idx) (hi : i = ix2 (row p r) c) :
    val_main_v24 (F := Ideal) x0 i = Ideal.div (sout x0 p r c - mn x0 c) (den x0 c) := by
  subst hi
  have e20 : idx_main_v19 (idx_main_v20 (ix2 (row p r) c : S16384x1024.Idx)) = ix1 c := by
    funext a; match a with | ⟨0, _⟩ => rfl
  have e23 : idx_main_v22 (idx_main_v23 (ix2 (row p r) c : S16384x1024.Idx)) = ix1 c := by
    funext a; match a with | ⟨0, _⟩ => rfl
  rw [val_main_v24_apply, val_main_v21_apply, val_main_v20_apply, val_main_v19_apply, val_main_v23_apply,
    val_main_v22_apply, e20, e23, v12_at, v18_at, v11_at]
  rfl

/-- The reference's result is the specification's scaled array. -/
theorem ref_eq (x0 : XArr) : val_main_v25 (F := Ideal) x0 = G x0 := by
  funext j
  obtain ⟨p, q, r, c, rfl⟩ : ∃ (p : Fin 16) (q : Fin 1) (r c : Fin 1024), j = ix4 p q r c :=
    ⟨j 0, j 1, j 2, j 3, eq_ix4 j⟩
  obtain rfl : q = 0 := Subsingleton.elim _ _
  rw [val_main_v25_apply, v24_at x0 p r c _ ?_, G_apply]
  funext a
  apply Fin.ext
  have hp := p.isLt; have hr := r.isLt; have hc := c.isLt
  have e0 : ((ix4 p (0 : Fin 1) r c : S16x1x1024x1024.Idx) 0).val = p.val := rfl
  have e1 : ((ix4 p (0 : Fin 1) r c : S16x1x1024x1024.Idx) 1).val = 0 := rfl
  have e2 : ((ix4 p (0 : Fin 1) r c : S16x1x1024x1024.Idx) 2).val = r.val := rfl
  have e3 : ((ix4 p (0 : Fin 1) r c : S16x1x1024x1024.Idx) 3).val = c.val := rfl
  match a with
  | ⟨0, _⟩ => show _ = 1024 * p.val + r.val; dsimp only; omega
  | ⟨1, _⟩ => show _ = c.val; dsimp only; omega

end Cert.RefIsG

end
-- ==== Proof.RefRun.lean ====
/-
  The reference program's run in the two forms the certificate's conjuncts take: it terminates
  with its argument unchanged, and its result is the specification's scaled array of its argument.
-/
import proofs.«162028_g63909113364757_feedfinal_307_9_alg».proof.Defs
import proofs.«162028_g63909113364757_feedfinal_307_9_alg».proof.Proof.Gen.ReferenceIdeal
import proofs.«162028_g63909113364757_feedfinal_307_9_alg».proof.Proof.Gen.Pre_finite_inputs
import proofs.«162028_g63909113364757_feedfinal_307_9_alg».proof.Proof.Gen.ReferenceIdeal.Run
import proofs.«162028_g63909113364757_feedfinal_307_9_alg».proof.Proof.Gen.ReferenceIdeal.Read
import proofs.«162028_g63909113364757_feedfinal_307_9_alg».proof.Proof.RefIsG

noncomputable section

namespace Cert.RefRun

open Idealize.ShloMosaic Idealize.SL.Sem

/-- The reference runs and leaves its argument unchanged: its run with the result dropped. -/
theorem frame_ri : Cert.frame_ReferenceIdeal :=
  fun m ρ _ => (θ_run Cert.ReferenceIdeal.defs _ _).mono (fun _ h c => (h c).2)
    (Cert.ReferenceIdeal.Value.run (F := Ideal) m ρ)

/-- The reference runs, ends with the scaled array of its argument, and leaves the argument unchanged. -/
theorem ref_run
    (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v25)
            = Cert.Spec.G (m' ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg0)
            = m' ((c.tc : Thread Cert.ReferenceIdeal.nD Cert.ReferenceIdeal.τ).loc Cert.ReferenceIdeal.main_arg0)) :=
  (θ_run Cert.ReferenceIdeal.defs _ _).mono
    (fun _ h c => ⟨by rw [(h c).1, Cert.ReferenceIdeal.Read.val_main_v25_eq]; exact Cert.RefIsG.ref_eq _, (h c).2⟩)
    (Cert.ReferenceIdeal.Value.run (F := Ideal) m' ρ')

end Cert.RefRun

end
-- ==== Proof.lean ====
/-
  The certificate. The kernel splits the columns of a [16, 1, 3, 1024, 1024] frame stack into two halves and, per
  half, runs eight grid steps: four load steps stash sixteen planes of sout (plane 0: frame 2 minus frame 0; the
  others: frame 0) four at a time and fold the per-column minimum and maximum; four store steps write
  (sout − min) · (1 / range') back, range' being the column range with 0 replaced by 1. The reference computes
  (sout − min) / range' with the minimum and maximum taken over all 16·1024 rows at once.

  Over the extended reals the two agree entry by entry: a minimum folded four planes at a time is the minimum over
  all sixteen planes; range' is never 0, so the quotient by it is the product with its inverse, and the kernel's
  1 / range' is that inverse. No finiteness is used.

  The frames: the kernel's two input windows are views of the one argument array, so the region is launched with
  the array's share dealt between them; the body obligation is proved per kind of step (first load step, later
  load step, store step) with the stash tracked where it has been stored; the reference's frame is its run.
-/
import proofs.«162028_g63909113364757_feedfinal_307_9_alg».proof.Defs
import proofs.«162028_g63909113364757_feedfinal_307_9_alg».proof.Proof.Gen.Kernel
import proofs.«162028_g63909113364757_feedfinal_307_9_alg».proof.Proof.Gen.KernelIdeal
import proofs.«162028_g63909113364757_feedfinal_307_9_alg».proof.Proof.Gen.ReferenceIdeal
import proofs.«162028_g63909113364757_feedfinal_307_9_alg».proof.Proof.Gen.Pre_finite_inputs
import proofs.«162028_g63909113364757_feedfinal_307_9_alg».proof.Proof.K.Frame4
import proofs.«162028_g63909113364757_feedfinal_307_9_alg».proof.Proof.KI.Val3
import proofs.«162028_g63909113364757_feedfinal_307_9_alg».proof.Proof.RefRun
import Idealize.ShloMosaic.Adequacy
import Idealize.ShloMosaic.Init

noncomputable section

namespace Cert.Proof

open Idealize.ShloMosaic Idealize.SL.Sem

/-- The word-level kernel runs and leaves its argument array unchanged. -/
theorem frame_p : Cert.frame_Kernel := fun m ρ _ => Cert.Kernel.Fr.frame m ρ

/-- So does the idealized kernel. -/
theorem frame_pi : Cert.frame_KernelIdeal := fun m ρ _ => Cert.KernelIdeal.Fr.frame m ρ

/-- The ideal pass rewrote nothing. -/
theorem preserves : Cert.preserves_Kernel_KernelIdeal := trivial

/-- Both idealized programs end with the specification's result of the (agreeing) argument arrays. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)),
    Cert.KernelIdeal.Val.kernel_run m ρ, ?_⟩
  refine (θ_run (Cert.ReferenceIdeal.defs (F := Ideal)) _ _).mono (fun _ h c => ⟨?_, (h c).2⟩) (Cert.RefRun.ref_run m' ρ')
  rw [(h c).1, hagree c]

theorem claim : Cert.Claim :=
  ⟨Cert.Kernel.Gen.facts, Cert.KernelIdeal.Gen.facts, Cert.ReferenceIdeal.Gen.facts, Cert.Pre_finite_inputs.Gen.facts,
    frame_p, frame_pi, Cert.RefRun.frame_ri, preserves, algebraic⟩

end Cert.Proof

end
